-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v83)) (v2 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S60000x64 : Shape := ⟨2, ![60000, 64]⟩
abbrev S40000x64 : Shape := ⟨2, ![40000, 64]⟩
abbrev S3x64x64 : Shape := ⟨3, ![3, 64, 64]⟩
abbrev S3x1x64 : Shape := ⟨3, ![3, 1, 64]⟩
abbrev S1024 : Shape := ⟨1, ![1024]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_

variable [Facts]

def fn_part1 {F : FTy → Type} [FloatOps F] (main_arg6 : FVec F S3x64x64 .f32) (main_arg7 : FVec F S3x1x64 .f32) (main_arg8 : FVec F S3x1x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x1x64 .f32 := Host.absf main_arg7
  let main_cst_8 : FVec F S_ .f32 := constant S_ .f32 0x7F800000#32
  let main_v25 : FVec F S3x1x64 .f32 := broadcastInDim S3x1x64 ![] bcast_S_S3x1x64 main_cst_8
  let main_v26 : IVec S3x1x64 1 := cmpf .olt main_v24 main_v25
  let main_c_9 : IVec S_ 1 := constantI S_ 1 1#1
  let main_v27 : IVec S_ 1 := (fun x v => Host.reduce IntOp.andi x v reducesTo_S3x1x64_S_d0_1_2 h_S_) main_v26 main_c_9
  let main_v28 : IVec S_ 1 := andi main_v23 main_v27
  let main_v29 : FVec F S3x1x64 .f32 := Host.absf main_arg8
  let main_cst_10 : FVec F S_ .f32 := constant S_ .f32 0x7F800000#32
  let main_v30 : FVec F S3x1x64 .f32 := broadcastInDim S3x1x64 ![] bcast_S_S3x1x64 main_cst_10
  let main_v31 : IVec S3x1x64 1 := cmpf .olt main_v29 main_v30
  let main_c_11 : IVec S_ 1 := constantI S_ 1 1#1
  let main_v32 : IVec S_ 1 := (fun x v => Host.reduce IntOp.andi x v reducesTo_S3x1x64_S_d0_1_2 h_S_) main_v31 main_c_11
  let main_v33 : IVec S_ 1 := andi main_v28 main_v32
  main_v33

def fn {F : FTy → Type} [FloatOps F] (main_arg0 : IVec S3200000 32) (main_arg1 : IVec S3200000 32) (main_arg2 : FVec F S3200000 .f32) (main_arg3 : FVec F S60000x64 .f32) (main_arg4 : FVec F S40000x64 .f32) (main_arg5 : FVec F S3x64x64 .f32) (main_arg6 : FVec F S3x64x64 .f32) (main_arg7 : FVec F S3x1x64 .f32) (main_arg8 : FVec F S3x1x64 .f32) (main_arg9 : IVec S1024 32) (main_arg10 : IVec S1024 32) (main_arg11 : IVec S1024 32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S60000x64 .f32 := Host.absf main_arg3
  let main_cst_0 : FVec F S_ .f32 := constant S_ .f32 0x7F800000#32
  let main_v5 : FVec F S60000x64 .f32 := broadcastInDim S60000x64 ![] bcast_S_S60000x64 main_cst_0
  let main_v6 : IVec S60000x64 1 := cmpf .olt main_v4 main_v5
  let main_c_1 : IVec S_ 1 := constantI S_ 1 1#1
  let main_v7 : IVec S_ 1 := (fun x v => Host.reduce IntOp.andi x v reducesTo_S60000x64_S_d0_1 h_S_) main_v6 main_c_1
  let main_v8 : IVec S_ 1 := andi main_v3 main_v7
  let main_v9 : FVec F S40000x64 .f32 := Host.absf main_arg4
  let main_cst_2 : FVec F S_ .f32 := constant S_ .f32 0x7F800000#32
  let main_v10 : FVec F S40000x64 .f32 := broadcastInDim S40000x64 ![] bcast_S_S40000x64 main_cst_2
  let main_v11 : IVec S40000x64 1 := cmpf .olt main_v9 main_v10
  let main_c_3 : IVec S_ 1 := constantI S_ 1 1#1
  let main_v12 : IVec S_ 1 := (fun x v => Host.reduce IntOp.andi x v reducesTo_S40000x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S3200000 : Shape := ⟨1, ![3200000]⟩
abbrev S60000x64 : Shape := ⟨2, ![60000, 64]⟩
abbrev S40000x64 : Shape := ⟨2, ![40000, 64]⟩
abbrev S3x64x64 : Shape := ⟨3, ![3, 64, 64]⟩
abbrev S3x1x64 : Shape := ⟨3, ![3, 1, 64]⟩
abbrev S1024 : Shape := ⟨1, ![1024]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S10000x64 : Shape := ⟨2, ![10000, 64]⟩
abbrev S100000x256 : Shape := ⟨2, ![100000, 256]⟩
abbrev S60000x256 : Shape := ⟨2, ![60000, 256]⟩
abbrev S40000x256 : Shape := ⟨2, ![40000, 256]⟩
abbrev S1024x1 : Shape := ⟨2, ![1024, 1]⟩
abbrev S1024x256 : Shape := ⟨2, ![1024, 256]⟩

abbrev nBuf : Space → Nat
  | .hbm => 118
  | .vmem => 30
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S60000x64, .f32⟩
  | .hbm, ⟨4, _⟩ => ⟨S40000x64, .f32⟩
  | .hbm, ⟨5, _⟩ => ⟨S3x64x64, .f32⟩
  | .hbm, ⟨6, _⟩ => ⟨S3x64x64, .f32⟩
  | .hbm, ⟨7, _⟩ => ⟨S3x1x64, .f32⟩
  | .hbm, ⟨8, _⟩ => ⟨S3x1x64, .f32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S100000x64, .f32⟩
  | .hbm, ⟨13, _⟩ => ⟨S3200000x1, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x64, .f32⟩
  | .hbm, ⟨23, _⟩ => ⟨S3200000x64, .f32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S1x64x64, .f32⟩
  | .hbm, ⟨30, _⟩ => ⟨S64x64, .f32⟩
  | .hbm, ⟨31, _⟩ => ⟨S1x1x64, .f32⟩
  | .hbm, ⟨32, _⟩ => ⟨S1x64, .f32⟩
  | .hbm, ⟨33, _⟩ => ⟨S1x64x64, .f32⟩
  | .hbm, ⟨34, _⟩ => ⟨S64x64, .f32⟩
  | .hbm, ⟨35, _⟩ => ⟨S1x1x64, .f32⟩
  | .hbm, ⟨36, _⟩ => ⟨S1x64, .f32⟩
  | .hbm, ⟨37, _⟩ => ⟨S100000x64, .f32⟩
  | .hbm, ⟨38, _⟩ => ⟨S3200000x1, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x64, .f32⟩
  | .hbm, ⟨48, _⟩ => ⟨S3200000x64, .f32⟩
  | .hbm, ⟨49, _⟩ => ⟨S3200000x64, .f32⟩
  | .hbm, ⟨50, _⟩ => ⟨S_, .f32⟩
  | .hbm, ⟨51, _⟩ => ⟨S100000x64, .f32⟩
  | .hbm, ⟨52, _⟩ => ⟨S3200000x1, .i32⟩
  | .hbm, ⟨53, _⟩ => ⟨S100000x64, .f32⟩
  | .hbm, ⟨54, _⟩ => ⟨S1x64x64, .f32⟩
  | .hbm, ⟨55, _⟩ => ⟨S64x64, .f32⟩
  | .hbm, ⟨56, _⟩ => ⟨S1x1x64, .f32⟩
  | .hbm, ⟨57, _⟩ => ⟨S1x64, .f32⟩
  | .hbm, ⟨58, _⟩ => ⟨S1x64x64, .f32⟩
  | .hbm, ⟨59, _⟩ => ⟨S64x64, .f32⟩
  | .hbm, ⟨60, _⟩ => ⟨S1x1x64, .f32⟩
  | .hbm, ⟨61, _⟩ => ⟨S1x64, .f32⟩
  | .hbm, ⟨62, _⟩ => ⟨S100000x64, .f32⟩
  | .hbm, ⟨63, _⟩ => ⟨S3200000x1, .f32⟩
  | .hbm, ⟨64, _⟩ => ⟨S_, .i32⟩
  | .hbm, ⟨65, _⟩ => ⟨S3200000, .i32⟩
  | .hbm, ⟨66, _⟩ => ⟨S3200000, .i1⟩
  | .hbm, ⟨67, _⟩ => ⟨S_, .i32⟩
  | .hbm, ⟨68, _⟩ => ⟨S3200000, .i32⟩
  | .hbm, ⟨69, _⟩ => ⟨S3200000, .i32⟩
  | .hbm, ⟨70, _⟩ => ⟨S3200000, .i32⟩
  | .hbm, ⟨71, _⟩ => ⟨S3200000x1, .i32⟩
  | .hbm, ⟨72, _⟩ => ⟨S3200000x64, .f32⟩
  | .hbm, ⟨73, _⟩ => ⟨S3200000x64, .f32⟩
  | .hbm, ⟨74, _⟩ => ⟨S3200000x64, .f32⟩
  | .hbm, ⟨75, _⟩ => ⟨S_, .f32⟩
  | .hbm, ⟨76, _⟩ => ⟨S100000x64, .f32⟩
  | .hbm, ⟨77, _⟩ => ⟨S3200000x1, .i32⟩
  | .hbm, ⟨78, _⟩ => ⟨S100000x64, .f32⟩
  | .hbm, ⟨79, _⟩ => ⟨S1x64x64, .f32⟩
  | .hbm, ⟨80, _⟩ => ⟨S64x64, .f32⟩
  | .hbm, ⟨81, _⟩ => ⟨S1x1x64, .f32⟩
  | .hbm, ⟨82, _⟩ => ⟨S1x64, .f32⟩
  | .hbm, ⟨83, _⟩ => ⟨S1x64x64, .f32⟩
  | .hbm, ⟨84, _⟩ => ⟨S64x64, .f32⟩
  | .hbm, ⟨85, _⟩ => ⟨S1x1x64, .f32⟩
  | .hbm, ⟨86, _⟩ => ⟨S1x64, .f32⟩
  | .hbm, ⟨87, _⟩ => ⟨S100000x64, .f32⟩
  | .hbm, ⟨88, _⟩ => ⟨S100000x256, .f32⟩
  | .hbm, ⟨89, _⟩ => ⟨S60000x256, .f32⟩
  | .hbm, ⟨90, _⟩ => ⟨S40000x256, .f32⟩
  | .hbm, ⟨91, _⟩ => ⟨S_, .i32⟩
  | .hbm, ⟨92, _⟩ => ⟨S1024, .i32⟩
  | .hbm, ⟨93, _⟩ => ⟨S1024, .i1⟩
  | .hbm, ⟨94, _⟩ => ⟨S_, .i32⟩
  | .hbm, ⟨95, _⟩ => ⟨S1024, .i32⟩
  | .hbm, ⟨96, _⟩ => ⟨S1024, .i32⟩
  | .hbm, ⟨97, _⟩ => ⟨S1024, .i32⟩
  | .hbm, ⟨98, _⟩ => ⟨S1024x1, .i32⟩
  | .hbm, ⟨99, _⟩ => ⟨S1024x256, .f32⟩
  | .hbm, ⟨100, _⟩ => ⟨S_, .i32⟩
  | .hbm, ⟨101, _⟩ => ⟨S1024, .i32⟩
  | .hbm, ⟨102, _⟩ => ⟨S1024, .i1⟩
  | .hbm, ⟨103, _⟩ => ⟨S_, .i32⟩
  | .hbm, ⟨104, _⟩ => ⟨S1024, .i32⟩
  | .hbm, ⟨105, _⟩ => ⟨S1024, .i32⟩
  | .hbm, ⟨106, _⟩ => ⟨S1024, .i32⟩
  | .hbm, ⟨107, _⟩ => ⟨S1024x1, .i32⟩
  | .hbm, ⟨108, _⟩ => ⟨S1024x256, .f32⟩
  | .hbm, ⟨109, _⟩ => ⟨S_, .i32⟩
  | .hbm, ⟨110, _⟩ => ⟨S1024, .i32⟩
  | .hbm, ⟨111, _⟩ => ⟨S1024, .i1⟩
  | .hbm, ⟨112, _⟩ => ⟨S_, .i32⟩
  | .hbm, ⟨113, _⟩ => ⟨S1024, .i32⟩
  | .hbm, ⟨114, _⟩ => ⟨S1024, .i32⟩
  | .hbm, ⟨115, _⟩ => ⟨S1024, .i32⟩
  | .hbm, ⟨116, _⟩ => ⟨S1024x1, .i32⟩
  | .hbm, ⟨117, _⟩ => ⟨S1024x256, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_4 : Ref sig .tc := ⟨.hbm, 64, rfl⟩
abbrev main_v46 : Ref sig .tc := ⟨.hbm, 65, rfl⟩
abbrev main_v47 : Ref sig .tc := ⟨.hbm, 66, rfl⟩
abbrev main_c_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_7 : Ref sig .tc := ⟨.hbm, 91, rfl⟩
abbrev main_v70 : Ref sig .tc := ⟨.hbm, 92, rfl⟩
abbrev main_v71 : Ref sig .tc := ⟨.hbm, 93, rfl⟩
abbrev main_c_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_9 : Ref sig .tc := ⟨.hbm, 100, rfl⟩
abbrev main_v77 : Ref sig .tc := ⟨.hbm, 101, rfl⟩
abbrev main_v78 : Ref sig .tc := ⟨.hbm, 102, rfl⟩
abbrev main_c_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_11 : Ref sig .tc := ⟨.hbm, 109, rfl⟩
abbrev main_v84 : Ref sig .tc := ⟨.hbm, 110, rfl⟩
abbrev main_v85 : Ref sig .tc := ⟨.hbm, 111, rfl⟩
abbrev main_c_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  concatenates_S60000x64_S40000x64_S100000x64_d0 : Shape.Concatenates [S60000x64, S40000x64] S100000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S100000x64_S100000x64_S100000x64_S100000x64_S100000x256_d1 : Shape.Concatenates [S100000x64, S100000x64, S100000x64, S100000x64] S100000x256 1
  slices_S100000x256_S60000x256_0_0 : S100000x256.Slices ![0, 0] S60000x256
  slices_S100000x256_S40000x256_60000_0 : S100000x256.Slices ![60000, 0] S40000x256
  bcast_S_S1024 : S_.BroadcastsInDim S1024 (![] : Fin 0 → Fin S1024.rank)
  bcast_S1024_S1024x1_0 : S1024.BroadcastsInDim S1024x1 (![0] : Fin 1 → Fin S1024x1.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  gather_S60000x256_S1024x1_S1024x256_1_0_n_n_0_1_1256_wf : GatherDims.WF S60000x256 S1024x1 S1024x256 [1] [0] [] [0] [] 1 ![1, 256]
  gather_S40000x256_S1024x1_S1024x256_1_0_n_n_0_1_1256_wf : GatherDims.WF S40000x256 S1024x1 S1024x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S60000x256_S1024x1_S1024x256_1_0_n_n_0_1_1256 : GatherDims S60000x256 S1024x1 S1024x256 where
  offsetDims := [1]
  collapsedSliceDims := [0]
  operandBatchingDims := []
  startIndicesBatchingDims := []
  startIndexMap := [0]
  indexVectorDim := 1
  sliceSizes := ![1, 256]
  wf := gather_S60000x256_S1024x1_S1024x256_1_0_n_n_0_1_1256_wf
def gather_S40000x256_S1024x1_S1024x256_1_0_n_n_0_1_1256 : GatherDims S40000x256 S1024x1 S1024x256 where
  offsetDims := [1]
  collapsedSliceDims := [0]
  operandBatchingDims := []
  startIndicesBatchingDims := []
  startIndexMap := [0]
  indexVectorDim := 1
  sliceSizes := ![1, 256]
  wf := gather_S40000x256_S1024x1_S1024x256_1_0_n_n_0_1_1256_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S3200000 : Shape := ⟨1, ![3200000]⟩
abbrev S60000x64 : Shape := ⟨2, ![60000, 64]⟩
abbrev S40000x64 : Shape := ⟨2, ![40000, 64]⟩
abbrev S3x64x64 : Shape := ⟨3, ![3, 64, 64]⟩
abbrev S3x1x64 : Shape := ⟨3, ![3, 1, 64]⟩
abbrev S1024 : Shape := ⟨1, ![1024]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S100000x256 : Shape := ⟨2, ![100000, 256]⟩
abbrev S60000x256 : Shape := ⟨2, ![60000, 256]⟩
abbrev S40000x256 : Shape := ⟨2, ![40000, 256]⟩
abbrev S1024x1 : Shape := ⟨2, ![1024, 1]⟩
abbrev S1024x256 : Shape := ⟨2, ![1024, 256]⟩

abbrev nBuf : Space → Nat
  | .hbm => 163
  | .vmem => 0
  | .smem => 0
  | _ => 0

abbrev hbmTy0_0 (i : Nat) : BufTy := match i % 128 with
  | 0 => ⟨S3200000, .i32⟩
  | 1 => ⟨S3200000, .i32⟩
  | 2 => ⟨S3200000, .f32⟩
  | 3 => ⟨S60000x64, .f32⟩
  | 4 => ⟨S40000x64, .f32⟩
  | 5 => ⟨S3x64x64, .f32⟩
  | 6 => ⟨S3x64x64, .f32⟩
  | 7 => ⟨S3x1x64, .f32⟩
  | 8 => ⟨S3x1x64, .f32⟩
  | 9 => ⟨S1024, .i32⟩
  | 10 => ⟨S1024, .i32⟩
  | 11 => ⟨S1024, .i32⟩
  | 12 => ⟨S100000x64, .f32⟩
  | 13 => ⟨S3200000x1, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x64, .f32⟩
  | 23 => ⟨S3200000x64, .f32⟩
  | 24 => ⟨S3200000x64, .f32⟩
  | 25 => ⟨S_, .f32⟩
  | 26 => ⟨S100000x64, .f32⟩
  | 27 => ⟨S3200000x1, .i32⟩
  | 28 => ⟨S100000x64, .f32⟩
  | 29 => ⟨S1x64x64, .f32⟩
  | 30 => ⟨S64x64, .f32⟩
  | 31 => ⟨S100000x64, .f32⟩
  | 32 => ⟨S1x1x64, .f32⟩
  | 33 => ⟨S1x64, .f32⟩
  | 34 => ⟨S100000x64, .f32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S1x1x64, .f32⟩
  | 41 => ⟨S1x64, .f32⟩
  | 42 => ⟨S100000x64, .f32⟩
  | 43 => ⟨S100000x64, .f32⟩
  | 44 => ⟨S100000x64, .f32⟩
  | 45 => ⟨S_, .f32⟩
  | 46 => ⟨S_, .f32⟩
  | 47 => ⟨S100000x64, .f32⟩
  | 48 => ⟨S100000x64, .i1⟩
  | 49 => ⟨S_, .f32⟩
  | 50 => ⟨S100000x64, .f32⟩
  | 51 => ⟨S100000x64, .f32⟩
  | 52 => ⟨S100000x64, .f32⟩
  | 53 => ⟨S3200000x1, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x64, .f32⟩
  | 63 => ⟨S3200000x64, .f32⟩
  | 64 => ⟨S3200000x64, .f32⟩
  | 65 => ⟨S_, .f32⟩
  | 66 => ⟨S100000x64, .f32⟩
  | 67 => ⟨S3200000x1, .i32⟩
  | 68 => ⟨S100000x64, .f32⟩
  | 69 => ⟨S1x64x64, .f32⟩
  | 70 => ⟨S64x64, .f32⟩
  | 71 => ⟨S100000x64, .f32⟩
  | 72 => ⟨S1x1x64, .f32⟩
  | 73 => ⟨S1x64, .f32⟩
  | 74 => ⟨S100000x64, .f32⟩
  | 75 => ⟨S100000x64, .f32⟩
  | 76 => ⟨S100000x64, .f32⟩
  | 77 => ⟨S1x64x64, .f32⟩
  | 78 => ⟨S64x64, .f32⟩
  | 79 => ⟨S100000x64, .f32⟩
  | 80 => ⟨S1x1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S100000x64, .f32⟩
  | 88 => ⟨S100000x64, .i1⟩
  | 89 => ⟨S_, .f32⟩
  | 90 => ⟨S100000x64, .f32⟩
  | 91 => ⟨S100000x64, .f32⟩
  | 92 => ⟨S100000x64, .f32⟩
  | 93 => ⟨S3200000x1, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x64, .f32⟩
  | 103 => ⟨S3200000x64, .f32⟩
  | 104 => ⟨S3200000x64, .f32⟩
  | 105 => ⟨S_, .f32⟩
  | 106 => ⟨S100000x64, .f32⟩
  | 107 => ⟨S3200000x1, .i32⟩
  | 108 => ⟨S100000x64, .f32⟩
  | 109 => ⟨S1x64x64, .f32⟩
  | 110 => ⟨S64x64, .f32⟩
  | 111 => ⟨S100000x64, .f32⟩
  | 112 => ⟨S1x1x64, .f32⟩
  | 113 => ⟨S1x64, .f32⟩
  | 114 => ⟨S100000x64, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1x1x64, .f32⟩
  | 121 => ⟨S1x64, .f32⟩
  | 122 => ⟨S100000x64, .f32⟩
  | 123 => ⟨S100000x64, .f32⟩
  | 124 => ⟨S100000x64, .f32⟩
  | 125 => ⟨S_, .f32⟩
  | 126 => ⟨S_, .f32⟩
  | 127 => ⟨S100000x64, .f32⟩
  | _ => ⟨S3200000, .i32⟩

abbrev hbmTy0_1 (i : Nat) : BufTy := match i % 128 with
  | 0 => ⟨S100000x64, .i1⟩
  | 1 => ⟨S_, .f32⟩
  | 2 => ⟨S100000x64, .f32⟩
  | 3 => ⟨S100000x64, .f32⟩
  | 4 => ⟨S100000x64, .f32⟩
  | 5 => ⟨S100000x256, .f32⟩
  | 6 => ⟨S60000x256, .f32⟩
  | 7 => ⟨S40000x256, .f32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1024x256, .f32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S1024x256, .f32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1024x256, .f32⟩
  | _ => ⟨S3200000, .i32⟩

abbrev hbmTy (i : Nat) : BufTy := match i / 128 with
  | 0 => hbmTy0_0 i
  | 1 => hbmTy0_1 i
  | _ => ⟨S3200000, .i32⟩

abbrev bufTy : (tb : Table) → Fin (tcTables nBuf tb) → BufTy
  | .hbm, ⟨i, _⟩ => hbmTy i
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_v31 : Ref sig .tc := ⟨.hbm, 53, rfl⟩
abbrev main_c_2 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v60 : Ref sig .tc := ⟨.hbm, 92, rfl⟩
abbrev main_v61 : Ref sig .tc := ⟨.hbm, 93, rfl⟩
abbrev main_c_6 : Ref sig .tc := ⟨.hbm, 94, rfl⟩
abbrev main_v62 : Ref sig .tc := ⟨.hbm, 95, rfl⟩
abbrev main_v63 : Ref sig .tc := ⟨.hbm, 96, rfl⟩
abbrev main_c_7 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_8 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_9 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_10 : Ref sig .tc := ⟨.hbm, 136, rfl⟩
abbrev main_v94 : Ref sig .tc := ⟨.hbm, 137, rfl⟩
abbrev main_v95 : Ref sig .tc := ⟨.hbm, 138, rfl⟩
abbrev main_c_11 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_12 : Ref sig .tc := ⟨.hbm, 145, rfl⟩
abbrev main_v101 : Ref sig .tc := ⟨.hbm, 146, rfl⟩
abbrev main_v102 : Ref sig .tc := ⟨.hbm, 147, rfl⟩
abbrev main_c_13 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_14 : Ref sig .tc := ⟨.hbm, 154, rfl⟩
abbrev main_v108 : Ref sig .tc := ⟨.hbm, 155, rfl⟩
abbrev main_v109 : Ref sig .tc := ⟨.hbm, 156, rfl⟩
abbrev main_c_15 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩

abbrev nD : Nat := 1
abbrev τ : Topo := Topo.v7x

variable {F : FTy → Type} [FloatOps F]

class Facts₀ : Prop where
  concatenates_S60000x64_S40000x64_S100000x64_d0 : Shape.Concatenates [S60000x64, S40000x64] S100000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S100000x64_S100000x64_S100000x64_S100000x64_S100000x256_d1 : Shape.Concatenates [S100000x64, S100000x64, S100000x64, S100000x64] S100000x256 1
  slices_S100000x256_S60000x256_0_0 : S100000x256.Slices ![0, 0] S60000x256
  slices_S100000x256_S40000x256_60000_0 : S100000x256.Slices ![60000, 0] S40000x256
  bcast_S_S1024 : S_.BroadcastsInDim S1024 (![] : Fin 0 → Fin S1024.rank)
  bcast_S1024_S1024x1_0 : S1024.BroadcastsInDim S1024x1 (![0] : Fin 1 → Fin S1024x1.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  gather_S60000x256_S1024x1_S1024x256_1_0_n_n_0_1_1256_wf : GatherDims.WF S60000x256 S1024x1 S1024x256 [1] [0] [] [0] [] 1 ![1, 256]
  gather_S40000x256_S1024x1_S1024x256_1_0_n_n_0_1_1256_wf : GatherDims.WF S40000x256 S1024x1 S1024x256 [1] [0] [] [0] [] 1 ![1, 256]

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S60000x256_S1024x1_S1024x256_1_0_n_n_0_1_1256 : GatherDims S60000x256 S1024x1 S1024x256 where
  offsetDims := [1]
  collapsedSliceDims := [0]
  operandBatchingDims := []
  startIndicesBatchingDims := []
  startIndexMap := [0]
  indexVectorDim := 1
  sliceSizes := ![1, 256]
  wf := gather_S60000x256_S1024x1_S1024x256_1_0_n_n_0_1_1256_wf
def gather_S40000x256_S1024x1_S1024x256_1_0_n_n_0_1_1256 : GatherDims S40000x256 S1024x1 S1024x256 where
  offsetDims := [1]
  collapsedSliceDims := [0]
  operandBatchingDims := []
  startIndicesBatchingDims := []
  startIndexMap := [0]
  indexVectorDim := 1
  sliceSizes := ![1, 256]
  wf := gather_S40000x256_S1024x1_S1024x256_1_0_n_n_0_1_1256_wf

class Facts : Prop extends Facts₀ where

variable [Facts]
-- ==== Proof.KB.Region0.lean ====
/-
  Region 0 of the program (the first layer's dense kernel), at an arbitrary valuation `V` of the core's buffers on
  entry. The grid has ten points; at point `t` the body is handed rows `10000·t … 10000·t + 9999` of the aggregated
  table and of the node table, the two whole 64×64 weight matrices and the two bias rows, and writes the same rows of the
  result. What it writes is one whole-block store of the payload of the six loaded blocks. The proof data record this per
  point; the body's triple is obtained by symbolic execution of its eight memory operations.
-/
import proofs.«158684_j45715631898814_1_alg».proof.Proof.Gen.Kernel.Launch
import proofs.«158684_j45715631898814_1_alg».proof.Proof.Gen.Kernel.Skeleton
import proofs.«158684_j45715631898814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S10000x64 := Rect.unit (s := S10000x64) ![0, 0] S10000x64.size inb_S10000x64_S10000x64_0_0
abbrev r0_b : Rect S64x64 := Rect.unit (s := S64x64) ![0, 0] S64x64.size inb_S64x64_S64x64_0_0
abbrev r0_c : Rect S1x64 := Rect.unit (s := S1x64) ![0, 0] S1x64.size inb_S1x64_S1x64_0_0

/-- The output block after the body, from the six input blocks: its one store, of the payload of the loads. -/
def out0_6 (x0 x1 : Vec F S10000x64 .f32) (x2 : Vec F S64x64 .f32) (x3 : Vec F S1x64 .f32) (x4 : Vec F S64x64 .f32)
    (x5 : Vec F S1x64 .f32) : Vec F S10000x64 .f32 :=
  View.canon [⟨r0_a, k0_pay1 (View.ld x0 r0_a) (View.ld x1 r0_a) (View.ld x2 r0_b) (View.ld x3 r0_c) (View.ld x4 r0_b) (View.ld x5 r0_c)⟩]

/-- The one store covers the block. -/
theorem cover0_6 (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

set_option maxHeartbeats 4000000 in
/-- The body on whole staging buffers, the inputs' at contents `x0 … x5` and the output's at anything, runs to the
    continuation holding the inputs' as they were and the output's at `out0_6` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of this pipeline on core `c`: the arrays as the region finds them; after the body at point `t`
    each input's buffer at its block and the output's at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  Region 1 of the program (the second layer's dense kernel), at an arbitrary valuation `V` of the core's buffers on
  entry. The grid has ten points; at point `t` the body is handed rows `10000·t … 10000·t + 9999` of the aggregated
  table and of the node table, the two whole 64×64 weight matrices and the two bias rows, and writes the same rows of the
  result. What it writes is one whole-block store of the payload of the six loaded blocks. The proof data record this per
  point; the body's triple is obtained by symbolic execution of its eight memory operations.
-/
import proofs.«158684_j45715631898814_1_alg».proof.Proof.Gen.Kernel.Launch
import proofs.«158684_j45715631898814_1_alg».proof.Proof.Gen.Kernel.Skeleton
import proofs.«158684_j45715631898814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S10000x64 := Rect.unit (s := S10000x64) ![0, 0] S10000x64.size inb_S10000x64_S10000x64_0_0
abbrev r1_b : Rect S64x64 := Rect.unit (s := S64x64) ![0, 0] S64x64.size inb_S64x64_S64x64_0_0
abbrev r1_c : Rect S1x64 := Rect.unit (s := S1x64) ![0, 0] S1x64.size inb_S1x64_S1x64_0_0

/-- The output block after the body, from the six input blocks: its one store, of the payload of the loads. -/
def out1_6 (x0 x1 : Vec F S10000x64 .f32) (x2 : Vec F S64x64 .f32) (x3 : Vec F S1x64 .f32) (x4 : Vec F S64x64 .f32)
    (x5 : Vec F S1x64 .f32) : Vec F S10000x64 .f32 :=
  View.canon [⟨r1_a, k1_pay1 (View.ld x0 r1_a) (View.ld x1 r1_a) (View.ld x2 r1_b) (View.ld x3 r1_c) (View.ld x4 r1_b) (View.ld x5 r1_c)⟩]

/-- The one store covers the block. -/
theorem cover1_6 (p0 : Vec F S10000x64 .f32) (y : S10000x64.Idx) :
    ∃ pc ∈ ([⟨r1_a, p0⟩] : List (View.Piece (Elt F) S10000x64 .f32)), y ∈ pc.1.set :=
  View.cover_of_tiled [⟨r1_a, p0⟩] S10000x64.size (by rfl) y

set_option maxHeartbeats 4000000 in
/-- The body on whole staging buffers, the inputs' at contents `x0 … x5` and the output's at anything, runs to the
    continuation holding the inputs' as they were and the output's at `out1_6` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this pipeline on core `c`: the arrays as the region finds them; after the body at point `t`
    each input's buffer at its block and the output's at `out1_6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  Region 2 of the program (the third layer's dense kernel), at an arbitrary valuation `V` of the core's buffers on
  entry. The grid has ten points; at point `t` the body is handed rows `10000·t … 10000·t + 9999` of the aggregated
  table and of the node table, the two whole 64×64 weight matrices and the two bias rows, and writes the same rows of the
  result. What it writes is one whole-block store of the payload of the six loaded blocks. The proof data record this per
  point; the body's triple is obtained by symbolic execution of its eight memory operations.
-/
import proofs.«158684_j45715631898814_1_alg».proof.Proof.Gen.Kernel.Launch
import proofs.«158684_j45715631898814_1_alg».proof.Proof.Gen.Kernel.Skeleton
import proofs.«158684_j45715631898814_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S10000x64 := Rect.unit (s := S10000x64) ![0, 0] S10000x64.size inb_S10000x64_S10000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

/-- The output block after the body, from the six input blocks: its one store, of the payload of the loads. -/
def out2_6 (x0 x1 : Vec F S10000x64 .f32) (x2 : Vec F S64x64 .f32) (x3 : Vec F S1x64 .f32) (x4 : Vec F S64x64 .f32)
    (x5 : Vec F S1x64 .f32) : Vec F S10000x64 .f32 :=
  View.canon [⟨r2_a, k2_pay1 (View.ld x0 r2_a) (View.ld x1 r2_a) (View.ld x2 r2_b) (View.ld x3 r2_c) (View.ld x4 r2_b) (View.ld x5 r2_c)⟩]

/-- The one store covers the block. -/
theorem cover2_6 (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

set_option maxHeartbeats 4000000 in
/-- The body on whole staging buffers, the inputs' at contents `x0 … x5` and the output's at anything, runs to the
    continuation holding the inputs' as they were and the output's at `out2_6` of them. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of this pipeline on core `c`: the arrays as the region finds them; after the body at point `t`
    each input's buffer at its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole program as seven segments — a stretch of host operations, then a kernel region, three times over, then the
  closing stretch — and the contents of the core's buffers at each of the eight boundaries, folded from the launch memory:
  a host stretch applies its operations' pure functions; a region leaves each of its windows' arrays at what the pipeline's
  write-backs leave and every other buffer alone. Every weakly fair execution terminates with every unscoped buffer at the
  last boundary's contents; no segment writes an argument, so the arguments end as launched.
-/
import proofs.«158684_j45715631898814_1_alg».proof.Proof.KB.Region0
import proofs.«158684_j45715631898814_1_alg».proof.Proof.KB.Region1
import proofs.«158684_j45715631898814_1_alg».proof.Proof.KB.Region2
import proofs.«158684_j45715631898814_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- The same read at the TensorCore's references. -/
abbrev Wv1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (Wv1 m ρ) c).arrAt w cfg0.N
theorem W2_arr (c : Dev nD) (w : Fin cfg0.W) :
    W2 m ρ c (Proc.devRef .tc (Pipeline.arrRef spec0 w)) = (dat0 (Wv1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Wv2 : (c : Dev nD) → (b : Ref sig .tc) → Buf (Elt F) ((c : Thread nD τ).loc b) := fun c b => W2 m ρ c b
theorem hF0 (c : Dev nD) (w : Fin cfg0.W) : (dat0 (Wv1 m ρ) c).arrAt w cfg0.N = Wv2 m ρ c (Pipeline.arrRef spec0 w) :=
  (W2_arr m ρ c w).symm
theorem hrest0 (c : Dev nD) : ∀ b, b ∉ Finset.univ.image (Pipeline.arrRef spec0) → Wv2 m ρ c b = Wv1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- The same read at the TensorCore's references. -/
abbrev Wv3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (Wv3 m ρ) c).arrAt w cfg1.N
theorem W4_arr (c : Dev nD) (w : Fin cfg1.W) :
    W4 m ρ c (Proc.devRef .tc (Pipeline.arrRef spec1 w)) = (dat1 (Wv3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Wv4 : (c : Dev nD) → (b : Ref sig .tc) → Buf (Elt F) ((c : Thread nD τ).loc b) := fun c b => W4 m ρ c b
theorem hF1 (c : Dev nD) (w : Fin cfg1.W) : (dat1 (Wv3 m ρ) c).arrAt w cfg1.N = Wv4 m ρ c (Pipeline.arrRef spec1 w) :=
  (W4_arr m ρ c w).symm
theorem hrest1 (c : Dev nD) : ∀ b, b ∉ Finset.univ.image (Pipeline.arrRef spec1) → Wv4 m ρ c b = Wv3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- The same read at the TensorCore's references. -/
abbrev Wv5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (Wv5 m ρ) c).arrAt w cfg2.N
theorem W6_arr (c : Dev nD) (w : Fin cfg2.W) :
    W6 m ρ c (Proc.devRef .tc (Pipeline.arrRef spec2 w)) = (dat2 (Wv5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Wv6 : (c : Dev nD) → (b : Ref sig .tc) → Buf (Elt F) ((c : Thread nD τ).loc b) := fun c b => W6 m ρ c b
theorem hF2 (c : Dev nD) (w : Fin cfg2.W) : (dat2 (Wv5 m ρ) c).arrAt w cfg2.N = Wv6 m ρ c (Pipeline.arrRef spec2 w) :=
  (W6_arr m ρ c w).symm
theorem hrest2 (c : Dev nD) : ∀ b, b ∉ Finset.univ.image (Pipeline.arrRef spec2) → Wv6 m ρ c b = Wv5 m ρ c b :=
  fun b hb => W6_of_ne m ρ c b fun w e => hb (Finset.mem_image.mpr ⟨w, Finset.mem_univ _, e⟩)

/-- After the closing stretch. -/
abbrev W7 : Dev nD → Valuation τ sig (Elt F) := fun c => StableHlo.after hostOps3 (W6 m ρ c)

/-- A buffer that no host operation writes and that is no window's array of any region ends as launched. -/
theorem W7_keep (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m ρ c (Proc.devRef .tc r) = m ((c : Thread nD τ).loc r) :=
  (StableHlo.after_of_writes_sub hostOps3 _ hostOps3_writes h3).trans <|
  (W6_of_ne m ρ c r a2).trans <|
  (StableHlo.after_of_writes_sub hostOps2 _ hostOps2_writes h2).trans <|
  (W4_of_ne m ρ c r a1).trans <|
  (StableHlo.after_of_writes_sub hostOps1 _ hostOps1_writes h1).trans <|
  (W2_of_ne m ρ c r a0).trans <|
  (StableHlo.after_of_writes_sub hostOps0 _ hostOps0_writes h0).trans rfl

/-! ## The proof data family and the thread state -/

/-- No pipeline has a prefetched table. -/
abbrev hadm : (p : Fin 3) → (pcfgs (F := F) p).Adm := fun p => (cfgs p).toPCfg_adm
/-- Every pipeline's proof data, each at its region's entry contents. -/
def hpdats : (p : Fin 3) → (c : Dev nD) → Dat τ (Elt F) Unit ℕ (UR sig nD τ) ℕ (Pipeline.pin (pcfgs (F := F)) hadm p) c
  | ⟨0, _⟩ => fun c => dat0 (Wv1 m ρ) c
  | ⟨1, _⟩ => fun c => dat1 (Wv3 m ρ) c
  | ⟨2, _⟩ => fun c => dat2 (Wv5 m ρ) c
abbrev h𝒱 : Variants := Variants.none
abbrev hL : GSem nD τ sig → Finset Unit := fun _ => ∅
abbrev hlv : GSem nD τ sig → Unit → ℕ := fun _ _ => 0
/-- What rides beside the buffers through every segment: the generator register at some state, and nothing owed. -/
abbrev hR (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱 hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev hTₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at `W1`, left at `W2`. Its arrays are split out
    of the unscoped buffers and put back at the exit contents; the generator register goes into the class invariant and
    comes out; nothing is owed; the kernel has no semaphore of its own. -/
def hreg0 : Pipeline.RegionSeg (pcfgs (F := F)) hadm (hpdats m ρ) () defs₀ h𝒱 hL hlv 0 where
  win := launch0.win.to₀
  block_pos := launch0.block_pos
  stage_whole := launch0.stage_whole
  K := PEmpty
  osem k := k.elim
  ho := Pipeline.OwnSemFacts.none _
  hbody c := (body_obligation0 (Wv1 m ρ) c).loose
  hwaits := Pipeline.hwaits_of_owed_zero _ _ _ _ hL hlv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (Wv1 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (Wv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (Wv1 m ρ c) (Wv2 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the class invariant and
    comes out; nothing is owed; the kernel has no semaphore of its own. -/
def hreg1 : Pipeline.RegionSeg (pcfgs (F := F)) hadm (hpdats m ρ) () defs₀ h𝒱 hL hlv 1 where
  win := launch1.win.to₀
  block_pos := launch1.block_pos
  stage_whole := launch1.stage_whole
  K := PEmpty
  osem k := k.elim
  ho := Pipeline.OwnSemFacts.none _
  hbody c := (body_obligation1 (Wv3 m ρ) c).loose
  hwaits := Pipeline.hwaits_of_owed_zero _ _ _ _ hL hlv 1 fun _ _ => rfl
  pre c := iprop(StableHlo.held (c : Thread nD τ) (Pipeline.ucRefs τ sig) (W3 m ρ c) ∗ hR c)
  post c := iprop(StableHlo.held (c : Thread nD τ) (Pipeline.ucRefs τ sig) (W4 m ρ c) ∗ hR c)
  X c := iprop(∃ r, prngReg c r)
  Y c := iprop(∃ r, prngReg c r)
  Z c := Pipeline.unscopedRest (Ix := Unit) (Name := ℕ) (U := UR sig nD τ) (Lvl := ℕ) spec1 c (Wv3 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (Wv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (Wv3 m ρ c) (Wv4 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the class invariant and
    comes out; nothing is owed; the kernel has no semaphore of its own. -/
def hreg2 : Pipeline.RegionSeg (pcfgs (F := F)) hadm (hpdats m ρ) () defs₀ h𝒱 hL hlv 2 where
  win := launch2.win.to₀
  block_pos := launch2.block_pos
  stage_whole := launch2.stage_whole
  K := PEmpty
  osem k := k.elim
  ho := Pipeline.OwnSemFacts.none _
  hbody c := (body_obligation2 (Wv5 m ρ) c).loose
  hwaits := Pipeline.hwaits_of_owed_zero _ _ _ _ hL hlv 2 fun _ _ => rfl
  pre c := iprop(StableHlo.held (c : Thread nD τ) (Pipeline.ucRefs τ sig) (W5 m ρ c) ∗ hR c)
  post c := iprop(StableHlo.held (c : Thread nD τ) (Pipeline.ucRefs τ sig) (W6 m ρ c) ∗ hR c)
  X c := iprop(∃ r, prngReg c r)
  Y c := iprop(∃ r, prngReg c r)
  Z c := Pipeline.unscopedRest (Ix := Unit) (Name := ℕ) (U := UR sig nD τ) (Lvl := ℕ) spec2 c (Wv5 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (Wv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (Wv5 m ρ c) (Wv6 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The seven segments in order. -/
abbrev hsegs : List (Pipeline.Seg (pcfgs (F := F)) hadm (hpdats m ρ) () defs₀ h𝒱 hL hlv) :=
  [ .host (hseg hostOps0 hostOps0_sub hostOps0_fresh (W0 m ρ)),
    .region (hreg0 m ρ),
    .host (hseg hostOps1 hostOps1_sub hostOps1_fresh (W2 m ρ)),
    .region (hreg1 m ρ),
    .host (hseg hostOps2 hostOps2_sub hostOps2_fresh (W4 m ρ)),
    .region (hreg2 m ρ),
    .host (hseg hostOps3 hostOps3_sub hostOps3_fresh (W6 m ρ)) ]

/-- The program is the run of the segments. -/
theorem main_run (c : Dev nD) : main (F := F) c = Pipeline.Seg.run (hsegs m ρ) := (main_chain c).trans (by chain_rfl)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit (pcfgs (F := F)) hadm (hpdats m ρ) () cellOf_inj emb₁ defs₀ h𝒱 hL hlv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun _ => .rfl, fun _ => .rfl, fun _ => .rfl, fun c => show iprop(StableHlo.held (c : Thread nD τ) (Pipeline.ucRefs τ sig) (W7 m ρ c) ∗ hR c)
        ⊢ iprop(hTₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

/-- The frame: the program runs to the end, faults nowhere, and leaves its twelve arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c main_arg0 (by decide)).trans (W7_keep m ρ c main_arg0 (by decide) (by decide) (by decide) (by decide) (by decide) (by decide) (by decide)),
    (h c main_arg1 (by decide)).trans (W7_keep m ρ c main_arg1 (by decide) (by decide) (by decide) (by decide) (by decide) (by decide) (by decide)),
    (h c main_arg2 (by decide)).trans (W7_keep m ρ c main_arg2 (by decide) (by decide) (by decide) (by decide) (by decide) (by decide) (by decide)),
    (h c main_arg3 (by decide)).trans (W7_keep m ρ c main_arg3 (by decide) (by decide) (by decide) (by decide) (by decide) (by decide) (by decide)),
    (h c main_arg4 (by decide)).trans (W7_keep m ρ c main_arg4 (by decide) (by decide) (by decide) (by decide) (by decide) (by decide) (by decide)),
    (h c main_arg5 (by decide)).trans (W7_keep m ρ c main_arg5 (by decide) (by decide) (by decide) (by decide) (by decide) (by decide) (by decide)),
    (h c main_arg6 (by decide)).trans (W7_keep m ρ c main_arg6 (by decide) (by decide) (by decide) (by decide) (by decide) (by decide) (by decide)),
    (h c main_arg7 (by decide)).trans (W7_keep m ρ c main_arg7 (by decide) (by decide) (by decide) (by decide) (by decide) (by decide) (by decide)),
    (h c main_arg8 (by decide)).trans (W7_keep m ρ c main_arg8 (by decide) (by decide) (by decide) (by decide) (by decide) (by decide) (by decide)),
    (h c main_arg9 (by decide)).trans (W7_keep m ρ c main_arg9 (by decide) (by decide) (by decide) (by decide) (by decide) (by decide) (by decide)),
    (h c main_arg10 (by decide)).trans (W7_keep m ρ c main_arg10 (by decide) (by decide) (by decide) (by decide) (by decide) (by decide) (by decide)),
    (h c main_arg11 (by decide)).trans (W7_keep m ρ c main_arg11 (by decide) (by decide) (by decide) (by decide) (by decide) (by decide) (by decide))⟩) (run_all m ρ)

end Cert.Kernel.Hand

end
-- ==== Proof.KI.Region0.lean ====
/-
  Region 0 of the program (the first layer's dense kernel), at an arbitrary valuation `V` of the core's buffers on
  entry. The grid has ten points; at point `t` the body is handed rows `10000·t … 10000·t + 9999` of the aggregated
  table and of the node table, the two whole 64×64 weight matrices and the two bias rows, and writes the same rows of the
  result. What it writes is one whole-block store of the payload of the six loaded blocks. The proof data record this per
  point; the body's triple is obtained by symbolic execution of its eight memory operations.
-/
import proofs.«158684_j45715631898814_1_alg».proof.Proof.Gen.KernelIdeal.Launch
import proofs.«158684_j45715631898814_1_alg».proof.Proof.Gen.KernelIdeal.Skeleton
import proofs.«158684_j45715631898814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_a : Rect S10000x64 := Rect.unit (s := S10000x64) ![0, 0] S10000x64.size inb_S10000x64_S10000x64_0_0
abbrev r0_b : Rect S64x64 := Rect.unit (s := S64x64) ![0, 0] S64x64.size inb_S64x64_S64x64_0_0
abbrev r0_c : Rect S1x64 := Rect.unit (s := S1x64) ![0, 0] S1x64.size inb_S1x64_S1x64_0_0

/-- The output block after the body, from the six input blocks: its one store, of the payload of the loads. -/
def out0_6 (x0 x1 : Vec F S10000x64 .f32) (x2 : Vec F S64x64 .f32) (x3 : Vec F S1x64 .f32) (x4 : Vec F S64x64 .f32)
    (x5 : Vec F S1x64 .f32) : Vec F S10000x64 .f32 :=
  View.canon [⟨r0_a, k0_pay1 (View.ld x0 r0_a) (View.ld x1 r0_a) (View.ld x2 r0_b) (View.ld x3 r0_c) (View.ld x4 r0_b) (View.ld x5 r0_c)⟩]

/-- The one store covers the block. -/
theorem cover0_6 (p0 : Vec F S10000x64 .f32) (y : S10000x64.Idx) :
    ∃ pc ∈ ([⟨r0_a, p0⟩] : List (View.Piece (Elt F) S10000x64 .f32)), y ∈ pc.1.set :=
  View.cover_of_tiled [⟨r0_a, p0⟩] S10000x64.size (by rfl) y

set_option maxHeartbeats 4000000 in
/-- The body on whole staging buffers, the inputs' at contents `x0 … x5` and the output's at anything, runs to the
    continuation holding the inputs' as they were and the output's at `out0_6` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of this pipeline on core `c`: the arrays as the region finds them; after the body at point `t`
    each input's buffer at its block and the output's at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program (the second layer's dense kernel), at an arbitrary valuation `V` of the core's buffers on
  entry. The grid has ten points; at point `t` the body is handed rows `10000·t … 10000·t + 9999` of the aggregated
  table and of the node table, the two whole 64×64 weight matrices and the two bias rows, and writes the same rows of the
  result. What it writes is one whole-block store of the payload of the six loaded blocks. The proof data record this per
  point; the body's triple is obtained by symbolic execution of its eight memory operations.
-/
import proofs.«158684_j45715631898814_1_alg».proof.Proof.Gen.KernelIdeal.Launch
import proofs.«158684_j45715631898814_1_alg».proof.Proof.Gen.KernelIdeal.Skeleton
import proofs.«158684_j45715631898814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S10000x64 := Rect.unit (s := S10000x64) ![0, 0] S10000x64.size inb_S10000x64_S10000x64_0_0
abbrev r1_b : Rect S64x64 := Rect.unit (s := S64x64) ![0, 0] S64x64.size inb_S64x64_S64x64_0_0
abbrev r1_c : Rect S1x64 := Rect.unit (s := S1x64) ![0, 0] S1x64.size inb_S1x64_S1x64_0_0

/-- The output block after the body, from the six input blocks: its one store, of the payload of the loads. -/
def out1_6 (x0 x1 : Vec F S10000x64 .f32) (x2 : Vec F S64x64 .f32) (x3 : Vec F S1x64 .f32) (x4 : Vec F S64x64 .f32)
    (x5 : Vec F S1x64 .f32) : Vec F S10000x64 .f32 :=
  View.canon [⟨r1_a, k1_pay1 (View.ld x0 r1_a) (View.ld x1 r1_a) (View.ld x2 r1_b) (View.ld x3 r1_c) (View.ld x4 r1_b) (View.ld x5 r1_c)⟩]

/-- The one store covers the block. -/
theorem cover1_6 (p0 : Vec F S10000x64 .f32) (y : S10000x64.Idx) :
    ∃ pc ∈ ([⟨r1_a, p0⟩] : List (View.Piece (Elt F) S10000x64 .f32)), y ∈ pc.1.set :=
  View.cover_of_tiled [⟨r1_a, p0⟩] S10000x64.size (by rfl) y

set_option maxHeartbeats 4000000 in
/-- The body on whole staging buffers, the inputs' at contents `x0 … x5` and the output's at anything, runs to the
    continuation holding the inputs' as they were and the output's at `out1_6` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this pipeline on core `c`: the arrays as the region finds them; after the body at point `t`
    each input's buffer at its block and the output's at `out1_6` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program (the third layer's dense kernel), at an arbitrary valuation `V` of the core's buffers on
  entry. The grid has ten points; at point `t` the body is handed rows `10000·t … 10000·t + 9999` of the aggregated
  table and of the node table, the two whole 64×64 weight matrices and the two bias rows, and writes the same rows of the
  result. What it writes is one whole-block store of the payload of the six loaded blocks. The proof data record this per
  point; the body's triple is obtained by symbolic execution of its eight memory operations.
-/
import proofs.«158684_j45715631898814_1_alg».proof.Proof.Gen.KernelIdeal.Launch
import proofs.«158684_j45715631898814_1_alg».proof.Proof.Gen.KernelIdeal.Skeleton
import proofs.«158684_j45715631898814_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S10000x64 := Rect.unit (s := S10000x64) ![0, 0] S10000x64.size inb_S10000x64_S10000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

/-- The output block after the body, from the six input blocks: its one store, of the payload of the loads. -/
def out2_6 (x0 x1 : Vec F S10000x64 .f32) (x2 : Vec F S64x64 .f32) (x3 : Vec F S1x64 .f32) (x4 : Vec F S64x64 .f32)
    (x5 : Vec F S1x64 .f32) : Vec F S10000x64 .f32 :=
  View.canon [⟨r2_a, k2_pay1 (View.ld x0 r2_a) (View.ld x1 r2_a) (View.ld x2 r2_b) (View.ld x3 r2_c) (View.ld x4 r2_b) (View.ld x5 r2_c)⟩]

/-- The one store covers the block. -/
theorem cover2_6 (p0 : Vec F S10000x64 .f32) (y : S10000x64.Idx) :
    ∃ pc ∈ ([⟨r2_a, p0⟩] : List (View.Piece (Elt F) S10000x64 .f32)), y ∈ pc.1.set :=
  View.cover_of_tiled [⟨r2_a, p0⟩] S10000x64.size (by rfl) y

set_option maxHeartbeats 4000000 in
/-- The body on whole staging buffers, the inputs' at contents `x0 … x5` and the output's at anything, runs to the
    continuation holding the inputs' as they were and the output's at `out2_6` of them. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S10000x64 .f32) (harg7 : arg7.IsWhole)
    (x0 x1 : Vec F S10000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of this pipeline on core `c`: the arrays as the region finds them; after the body at point `t`
    each input's buffer at its block and the output's at `out2_6` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as seven segments — a stretch of host operations, then a kernel region, three times over, then the
  closing stretch — and the contents of the core's buffers at each of the eight boundaries, folded from the launch memory:
  a host stretch applies its operations' pure functions; a region leaves each of its windows' arrays at what the pipeline's
  write-backs leave and every other buffer alone. Every weakly fair execution terminates with every unscoped buffer at the
  last boundary's contents; no segment writes an argument, so the arguments end as launched.
-/
import proofs.«158684_j45715631898814_1_alg».proof.Proof.KI.Region0
import proofs.«158684_j45715631898814_1_alg».proof.Proof.KI.Region1
import proofs.«158684_j45715631898814_1_alg».proof.Proof.KI.Region2
import proofs.«158684_j45715631898814_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- The same read at the TensorCore's references. -/
abbrev Wv1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (Wv1 m ρ) c).arrAt w cfg0.N
theorem W2_arr (c : Dev nD) (w : Fin cfg0.W) :
    W2 m ρ c (Proc.devRef .tc (Pipeline.arrRef spec0 w)) = (dat0 (Wv1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Wv2 : (c : Dev nD) → (b : Ref sig .tc) → Buf (Elt F) ((c : Thread nD τ).loc b) := fun c b => W2 m ρ c b
theorem hF0 (c : Dev nD) (w : Fin cfg0.W) : (dat0 (Wv1 m ρ) c).arrAt w cfg0.N = Wv2 m ρ c (Pipeline.arrRef spec0 w) :=
  (W2_arr m ρ c w).symm
theorem hrest0 (c : Dev nD) : ∀ b, b ∉ Finset.univ.image (Pipeline.arrRef spec0) → Wv2 m ρ c b = Wv1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- The same read at the TensorCore's references. -/
abbrev Wv3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (Wv3 m ρ) c).arrAt w cfg1.N
theorem W4_arr (c : Dev nD) (w : Fin cfg1.W) :
    W4 m ρ c (Proc.devRef .tc (Pipeline.arrRef spec1 w)) = (dat1 (Wv3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Wv4 : (c : Dev nD) → (b : Ref sig .tc) → Buf (Elt F) ((c : Thread nD τ).loc b) := fun c b => W4 m ρ c b
theorem hF1 (c : Dev nD) (w : Fin cfg1.W) : (dat1 (Wv3 m ρ) c).arrAt w cfg1.N = Wv4 m ρ c (Pipeline.arrRef spec1 w) :=
  (W4_arr m ρ c w).symm
theorem hrest1 (c : Dev nD) : ∀ b, b ∉ Finset.univ.image (Pipeline.arrRef spec1) → Wv4 m ρ c b = Wv3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- The same read at the TensorCore's references. -/
abbrev Wv5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (Wv5 m ρ) c).arrAt w cfg2.N
theorem W6_arr (c : Dev nD) (w : Fin cfg2.W) :
    W6 m ρ c (Proc.devRef .tc (Pipeline.arrRef spec2 w)) = (dat2 (Wv5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Wv6 : (c : Dev nD) → (b : Ref sig .tc) → Buf (Elt F) ((c : Thread nD τ).loc b) := fun c b => W6 m ρ c b
theorem hF2 (c : Dev nD) (w : Fin cfg2.W) : (dat2 (Wv5 m ρ) c).arrAt w cfg2.N = Wv6 m ρ c (Pipeline.arrRef spec2 w) :=
  (W6_arr m ρ c w).symm
theorem hrest2 (c : Dev nD) : ∀ b, b ∉ Finset.univ.image (Pipeline.arrRef spec2) → Wv6 m ρ c b = Wv5 m ρ c b :=
  fun b hb => W6_of_ne m ρ c b fun w e => hb (Finset.mem_image.mpr ⟨w, Finset.mem_univ _, e⟩)

/-- After the closing stretch. -/
abbrev W7 : Dev nD → Valuation τ sig (Elt F) := fun c => StableHlo.after hostOps3 (W6 m ρ c)

/-- A buffer that no host operation writes and that is no window's array of any region ends as launched. -/
theorem W7_keep (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m ρ c (Proc.devRef .tc r) = m ((c : Thread nD τ).loc r) :=
  (StableHlo.after_of_writes_sub hostOps3 _ hostOps3_writes h3).trans <|
  (W6_of_ne m ρ c r a2).trans <|
  (StableHlo.after_of_writes_sub hostOps2 _ hostOps2_writes h2).trans <|
  (W4_of_ne m ρ c r a1).trans <|
  (StableHlo.after_of_writes_sub hostOps1 _ hostOps1_writes h1).trans <|
  (W2_of_ne m ρ c r a0).trans <|
  (StableHlo.after_of_writes_sub hostOps0 _ hostOps0_writes h0).trans rfl

/-! ## The proof data family and the thread state -/

/-- No pipeline has a prefetched table. -/
abbrev hadm : (p : Fin 3) → (pcfgs (F := F) p).Adm := fun p => (cfgs p).toPCfg_adm
/-- Every pipeline's proof data, each at its region's entry contents. -/
def hpdats : (p : Fin 3) → (c : Dev nD) → Dat τ (Elt F) Unit ℕ (UR sig nD τ) ℕ (Pipeline.pin (pcfgs (F := F)) hadm p) c
  | ⟨0, _⟩ => fun c => dat0 (Wv1 m ρ) c
  | ⟨1, _⟩ => fun c => dat1 (Wv3 m ρ) c
  | ⟨2, _⟩ => fun c => dat2 (Wv5 m ρ) c
abbrev h𝒱 : Variants := Variants.none
abbrev hL : GSem nD τ sig → Finset Unit := fun _ => ∅
abbrev hlv : GSem nD τ sig → Unit → ℕ := fun _ _ => 0
/-- What rides beside the buffers through every segment: the generator register at some state, and nothing owed. -/
abbrev hR (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱 hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev hTₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered from every unscoped buffer at `W1`, left at `W2`. Its arrays are split out
    of the unscoped buffers and put back at the exit contents; the generator register goes into the class invariant and
    comes out; nothing is owed; the kernel has no semaphore of its own. -/
def hreg0 : Pipeline.RegionSeg (pcfgs (F := F)) hadm (hpdats m ρ) () defs₀ h𝒱 hL hlv 0 where
  win := launch0.win.to₀
  block_pos := launch0.block_pos
  stage_whole := launch0.stage_whole
  K := PEmpty
  osem k := k.elim
  ho := Pipeline.OwnSemFacts.none _
  hbody c := (body_obligation0 (Wv1 m ρ) c).loose
  hwaits := Pipeline.hwaits_of_owed_zero _ _ _ _ hL hlv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (Wv1 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (Wv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (Wv1 m ρ c) (Wv2 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the class invariant and
    comes out; nothing is owed; the kernel has no semaphore of its own. -/
def hreg1 : Pipeline.RegionSeg (pcfgs (F := F)) hadm (hpdats m ρ) () defs₀ h𝒱 hL hlv 1 where
  win := launch1.win.to₀
  block_pos := launch1.block_pos
  stage_whole := launch1.stage_whole
  K := PEmpty
  osem k := k.elim
  ho := Pipeline.OwnSemFacts.none _
  hbody c := (body_obligation1 (Wv3 m ρ) c).loose
  hwaits := Pipeline.hwaits_of_owed_zero _ _ _ _ hL hlv 1 fun _ _ => rfl
  pre c := iprop(StableHlo.held (c : Thread nD τ) (Pipeline.ucRefs τ sig) (W3 m ρ c) ∗ hR c)
  post c := iprop(StableHlo.held (c : Thread nD τ) (Pipeline.ucRefs τ sig) (W4 m ρ c) ∗ hR c)
  X c := iprop(∃ r, prngReg c r)
  Y c := iprop(∃ r, prngReg c r)
  Z c := Pipeline.unscopedRest (Ix := Unit) (Name := ℕ) (U := UR sig nD τ) (Lvl := ℕ) spec1 c (Wv3 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (Wv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (Wv3 m ρ c) (Wv4 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the class invariant and
    comes out; nothing is owed; the kernel has no semaphore of its own. -/
def hreg2 : Pipeline.RegionSeg (pcfgs (F := F)) hadm (hpdats m ρ) () defs₀ h𝒱 hL hlv 2 where
  win := launch2.win.to₀
  block_pos := launch2.block_pos
  stage_whole := launch2.stage_whole
  K := PEmpty
  osem k := k.elim
  ho := Pipeline.OwnSemFacts.none _
  hbody c := (body_obligation2 (Wv5 m ρ) c).loose
  hwaits := Pipeline.hwaits_of_owed_zero _ _ _ _ hL hlv 2 fun _ _ => rfl
  pre c := iprop(StableHlo.held (c : Thread nD τ) (Pipeline.ucRefs τ sig) (W5 m ρ c) ∗ hR c)
  post c := iprop(StableHlo.held (c : Thread nD τ) (Pipeline.ucRefs τ sig) (W6 m ρ c) ∗ hR c)
  X c := iprop(∃ r, prngReg c r)
  Y c := iprop(∃ r, prngReg c r)
  Z c := Pipeline.unscopedRest (Ix := Unit) (Name := ℕ) (U := UR sig nD τ) (Lvl := ℕ) spec2 c (Wv5 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (Wv5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (Wv5 m ρ c) (Wv6 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The seven segments in order. -/
abbrev hsegs : List (Pipeline.Seg (pcfgs (F := F)) hadm (hpdats m ρ) () defs₀ h𝒱 hL hlv) :=
  [ .host (hseg hostOps0 hostOps0_sub hostOps0_fresh (W0 m ρ)),
    .region (hreg0 m ρ),
    .host (hseg hostOps1 hostOps1_sub hostOps1_fresh (W2 m ρ)),
    .region (hreg1 m ρ),
    .host (hseg hostOps2 hostOps2_sub hostOps2_fresh (W4 m ρ)),
    .region (hreg2 m ρ),
    .host (hseg hostOps3 hostOps3_sub hostOps3_fresh (W6 m ρ)) ]

/-- The program is the run of the segments. -/
theorem main_run (c : Dev nD) : main (F := F) c = Pipeline.Seg.run (hsegs m ρ) := (main_chain c).trans (by chain_rfl)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit (pcfgs (F := F)) hadm (hpdats m ρ) () cellOf_inj emb₁ defs₀ h𝒱 hL hlv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun _ => .rfl, fun _ => .rfl, fun _ => .rfl, fun c => show iprop(StableHlo.held (c : Thread nD τ) (Pipeline.ucRefs τ sig) (W7 m ρ c) ∗ hR c)
        ⊢ iprop(hTₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

/-- The frame: the program runs to the end, faults nowhere, and leaves its twelve arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c main_arg0 (by decide)).trans (W7_keep m ρ c main_arg0 (by decide) (by decide) (by decide) (by decide) (by decide) (by decide) (by decide)),
    (h c main_arg1 (by decide)).trans (W7_keep m ρ c main_arg1 (by decide) (by decide) (by decide) (by decide) (by decide) (by decide) (by decide)),
    (h c main_arg2 (by decide)).trans (W7_keep m ρ c main_arg2 (by decide) (by decide) (by decide) (by decide) (by decide) (by decide) (by decide)),
    (h c main_arg3 (by decide)).trans (W7_keep m ρ c main_arg3 (by decide) (by decide) (by decide) (by decide) (by decide) (by decide) (by decide)),
    (h c main_arg4 (by decide)).trans (W7_keep m ρ c main_arg4 (by decide) (by decide) (by decide) (by decide) (by decide) (by decide) (by decide)),
    (h c main_arg5 (by decide)).trans (W7_keep m ρ c main_arg5 (by decide) (by decide) (by decide) (by decide) (by decide) (by decide) (by decide)),
    (h c main_arg6 (by decide)).trans (W7_keep m ρ c main_arg6 (by decide) (by decide) (by decide) (by decide) (by decide) (by decide) (by decide)),
    (h c main_arg7 (by decide)).trans (W7_keep m ρ c main_arg7 (by decide) (by decide) (by decide) (by decide) (by decide) (by decide) (by decide)),
    (h c main_arg8 (by decide)).trans (W7_keep m ρ c main_arg8 (by decide) (by decide) (by decide) (by decide) (by decide) (by decide) (by decide)),
    (h c main_arg9 (by decide)).trans (W7_keep m ρ c main_arg9 (by decide) (by decide) (by decide) (by decide) (by decide) (by decide) (by decide)),
    (h c main_arg10 (by decide)).trans (W7_keep m ρ c main_arg10 (by decide) (by decide) (by decide) (by decide) (by decide) (by decide) (by decide)),
    (h c main_arg11 (by decide)).trans (W7_keep m ρ c main_arg11 (by decide) (by decide) (by decide) (by decide) (by decide) (by decide) (by decide))⟩) (run_all m ρ)

end Cert.KernelIdeal.Hand

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LayerLaw.lean ====
/-
  One entry of a layer, on the extended reals. With `l` and `x` a row of the aggregated table and of the node table,
  `w1`, `w2` a column of the two weight matrices and `b1`, `b2` an entry of the two bias rows, the entry before the gate is
  `(Σ l·w1 + b1) + (Σ (x·l)·w2 + b2)`. The gate keeps `s` where it is positive (one spelling) or non-negative (the other)
  and multiplies it by the slope elsewhere; the two spellings differ only at `s = 0`, where the product is `0` too.
-/
import Idealize.ShloMosaic.PureOps.Ideal
import Idealize.ShloMosaic.PureOps.Ideal.Laws
import Idealize.ShloMosaic.Lib.ValueIdx

noncomputable section

namespace Cert.Layer

open Idealize.ShloMosaic

/-- The slope: the exact value of the 32-bit pattern of `0.2`. -/
def slope : EReal := Ideal.ofBits .f32 0x3E4CCCCD#32

/-- An entry before the gate. -/
def pre (l x w1 : Fin 64 → EReal) (b1 : EReal) (w2 : Fin 64 → EReal) (b2 : EReal) : EReal :=
  ((∑ c, l c * w1 c) + b1) + ((∑ c, (x c * l c) * w2 c) + b2)

/-- The gate with the strict comparison. -/
def gatePos (s : EReal) : EReal := Scalar.select (Ideal.cmp .ogt s 0) s (slope * s)

/-- The gate with the weak comparison. -/
def gateNonneg (s : EReal) : EReal := Scalar.select (Ideal.cmp .oge s 0) s (slope * s)

/-- The two gates agree: at `s = 0` one returns `s` and the other `slope · 0`, both `0`. -/
theorem gate_eq (s : EReal) : gatePos s = gateNonneg s := by
  show Scalar.select (BitVec.ofBool (decide (0 < s))) s (slope * s) = Scalar.select (BitVec.ofBool (decide (0 ≤ s))) s (slope * s)
  rcases lt_trichotomy 0 s with h | h | h
  · rw [decide_eq_true h, decide_eq_true h.le]
  · subst h
    rw [decide_eq_false (lt_irrefl _), decide_eq_true le_rfl]
    show Scalar.select 0#1 (0 : EReal) (slope * 0) = Scalar.select 1#1 (0 : EReal) (slope * 0)
    rw [ValueIdx.select_zero, ValueIdx.select_one, mul_zero]
  · rw [decide_eq_false (not_lt.2 h.le), decide_eq_false (not_le.2 h)]

end Cert.Layer

end
-- ==== Proof.KI.Payload.lean ====
/-
  The body's payload read at one entry, on the extended reals. The payload is the gate applied to the sum of two
  matrix products with their bias rows; a change of storage format is the identity on the extended reals, a product
  accumulated into the zero splat is the plain sum over the contracted coordinate, and the bias row is repeated down the
  rows. So entry `(p, q)` is the gate of `(Σ_c l(p,c)·w1(c,q) + b1(0,q)) + (Σ_c (x(p,c)·l(p,c))·w2(c,q) + b2(0,q))`.
-/
import proofs.«158684_j45715631898814_1_alg».proof.Proof.Gen.KernelIdeal.Skeleton
import proofs.«158684_j45715631898814_1_alg».proof.Proof.LibDense
import proofs.«158684_j45715631898814_1_alg».proof.Proof.LayerLaw
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.Layer

/-- The gate in the kernel's spelling, read at an index. -/
theorem gateV_apply (s : FVec Ideal S10000x64 .f32) (i : S10000x64.Idx) :
    select (cmpf .ogt s (broadcast S10000x64 (FloatOps.ofBits (F := Ideal) .f32 0x00000000#32))) s
        (mulf (broadcast S10000x64 (FloatOps.ofBits (F := Ideal) .f32 0x3E4CCCCD#32)) s) i = gatePos (s i) := by
  show Scalar.select (Ideal.cmp .ogt (s i) (Ideal.ofBits .f32 0x00000000#32)) (s i) (Ideal.ofBits .f32 0x3E4CCCCD#32 * s i) = _
  rw [Ideal.ofBits_zero_f32]
  rfl

section
variable (x0 x1 : FVec Ideal S10000x64 .f32) (x2 : FVec Ideal S64x64 .f32) (x3 : FVec Ideal S1x64 .f32) (x4 : FVec Ideal S64x64 .f32)
  (x5 : FVec Ideal S1x64 .f32) (p : Fin 10000) (q : Fin 64)

/-- The first product at an entry. -/
theorem prod1_apply :
    matmul dot_S10000x64_S64x64_S10000x64_1_0_0_1_n_n none (truncf .bf16 x0 Gen.bitsLt_bf16_f32) (truncf .bf16 x2 Gen.bitsLt_bf16_f32)
        (constant S10000x64 .f32 0x00000000#32) (ix2 p q) = ∑ c : Fin 64, x0 (ix2 p c) * x2 (ix2 c q) :=
  Cert.Dense.matmul_plain_apply Gen.dot_S10000x64_S64x64_S10000x64_1_0_0_1_n_n_wf (truncf .bf16 x0 Gen.bitsLt_bf16_f32)
    (truncf .bf16 x2 Gen.bitsLt_bf16_f32) p q

/-- The second product at an entry: its left factor is the entrywise product of the two tables. -/
theorem prod2_apply :
    matmul dot_S10000x64_S64x64_S10000x64_1_0_0_1_n_n none (truncf .bf16 (mulf x1 x0) Gen.bitsLt_bf16_f32) (truncf .bf16 x4 Gen.bitsLt_bf16_f32)
        (constant S10000x64 .f32 0x00000000#32) (ix2 p q) = ∑ c : Fin 64, (x1 (ix2 p c) * x0 (ix2 p c)) * x4 (ix2 c q) :=
  Cert.Dense.matmul_plain_apply Gen.dot_S10000x64_S64x64_S10000x64_1_0_0_1_n_n_wf (truncf .bf16 (mulf x1 x0) Gen.bitsLt_bf16_f32)
    (truncf .bf16 x4 Gen.bitsLt_bf16_f32) p q

/-- A bias row repeated down the rows, at an entry. -/
theorem bias_apply (b : FVec Ideal S1x64 .f32) :
    broadcastTo S10000x64 b Gen.broadcasts_S1x64_S10000x64 (ix2 p q) = b (ix2 (0 : Fin 1) q) :=
  broadcastTo_1b_ab_apply b Gen.broadcasts_S1x64_S10000x64 p q

/-- Region 0's payload at entry `(p, q)`. -/
theorem pay0_apply :
    Gen.k0_pay1 (F := Ideal) x0 x1 x2 x3 x4 x5 (ix2 p q)
      = gatePos (pre (fun c => x0 (ix2 p c)) (fun c => x1 (ix2 p c)) (fun c => x2 (ix2 c q)) (x3 (ix2 (0 : Fin 1) q))
          (fun c => x4 (ix2 c q)) (x5 (ix2 (0 : Fin 1) q))) := by
  unfold Gen.k0_pay1
  refine (gateV_apply _ (ix2 p q)).trans (congrArg gatePos ?_)
  simp only [shapeCast_self]
  rw [addf_apply, addf_apply, addf_apply, prod1_apply, prod2_apply, bias_apply, bias_apply]
  rfl

/-- Region 1's payload at entry `(p, q)`. -/
theorem pay1_apply :
    Gen.k1_pay1 (F := Ideal) x0 x1 x2 x3 x4 x5 (ix2 p q)
      = gatePos (pre (fun c => x0 (ix2 p c)) (fun c => x1 (ix2 p c)) (fun c => x2 (ix2 c q)) (x3 (ix2 (0 : Fin 1) q))
          (fun c => x4 (ix2 c q)) (x5 (ix2 (0 : Fin 1) q))) := by
  unfold Gen.k1_pay1
  refine (gateV_apply _ (ix2 p q)).trans (congrArg gatePos ?_)
  simp only [shapeCast_self]
  rw [addf_apply, addf_apply, addf_apply, prod1_apply, prod2_apply, bias_apply, bias_apply]
  rfl

/-- Region 2's payload at entry `(p, q)`. -/
theorem pay2_apply :
    Gen.k2_pay1 (F := Ideal) x0 x1 x2 x3 x4 x5 (ix2 p q)
      = gatePos (pre (fun c => x0 (ix2 p c)) (fun c => x1 (ix2 p c)) (fun c => x2 (ix2 c q)) (x3 (ix2 (0 : Fin 1) q))
          (fun c => x4 (ix2 c q)) (x5 (ix2 (0 : Fin 1) q))) := by
  unfold Gen.k2_pay1
  refine (gateV_apply _ (ix2 p q)).trans (congrArg gatePos ?_)
  simp only [shapeCast_self]
  rw [addf_apply, addf_apply, addf_apply, prod1_apply, prod2_apply, bias_apply, bias_apply]
  rfl

end

/-- A layer as one function of the whole tables, in the kernel's spelling of the gate: entry `(r, q)` from row `r` of the
    aggregated table and of the node table, column `q` of the two weight matrices and entry `q` of the two bias rows. -/
def layerK (L X : FVec Ideal S100000x64 .f32) (w1 : FVec Ideal S64x64 .f32) (b1 : FVec Ideal S1x64 .f32) (w2 : FVec Ideal S64x64 .f32)
    (b2 : FVec Ideal S1x64 .f32) : FVec Ideal S100000x64 .f32 :=
  fun i => gatePos (pre (fun c => L (ix2 (i 0) c)) (fun c => X (ix2 (i 0) c)) (fun c => w1 (ix2 c (i 1))) (b1 (ix2 (0 : Fin 1) (i 1)))
    (fun c => w2 (ix2 c (i 1))) (b2 (ix2 (0 : Fin 1) (i 1))))

end Cert.KernelIdeal.Hand

end
-- ==== Proof.KI.Blocks0.lean ====
/-
  Region 0's result array as one function of the arrays it was entered with. At point `t` the body is handed rows
  `10000·t + p` of the two tables and the whole weight matrices and bias rows; the block it writes back is the same rows of
  the whole-table layer function. The ten blocks tile the array (row `r` lies in block `r / 10000`), so after the region the
  array is that function everywhere.
-/
import proofs.«158684_j45715631898814_1_alg».proof.Proof.KI.Region0
import proofs.«158684_j45715631898814_1_alg».proof.Proof.KI.Payload
import Idealize.ShloMosaic.Lib.Pipeline.Value

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the two tables' windows and the result's sit at block row `t`, the weights' and
    biases' at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt0 (t : Fin cfg0.N) : t.val < 10 := lt_of_lt_of_eq t.isLt N_0

/-- Row `p` of block `t` is row `10000·t + p` of the table. -/
def gRow0 (t : Fin cfg0.N) (p : Fin 10000) : Fin 100000 := ⟨t.val * 10000 + p.val, by have := t_lt0 t; have := p.isLt; omega⟩

theorem iblk0_0_apply (c : Dev nD) (t : Fin cfg0.N) (p : Fin 10000) (q : Fin 64) :
    iblk0 V c 0 t (ix2 p q) = V c (Pipeline.arrRef spec0 0) (ix2 (gRow0 t p) q) := by
  show V c (Pipeline.arrRef spec0 0) (((cfg0.win 0).blk t).view.emb (ix2 p q)) = _
  refine congrArg _ ?_
  obtain ⟨e0, e1, e2, e3, -⟩ := idx_facts0 t
  funext a; apply Fin.ext
  match a with
  | ⟨0, _⟩ => show win0_0.index t (0 : Fin 2) * 10000 + 1 * p.val = t.val * 10000 + p.val; omega
  | ⟨1, _⟩ => show win0_0.index t (1 : Fin 2) * 64 + 1 * q.val = q.val; omega

theorem iblk0_1_apply (c : Dev nD) (t : Fin cfg0.N) (p : Fin 10000) (q : Fin 64) :
    iblk0 V c 1 t (ix2 p q) = V c (Pipeline.arrRef spec0 1) (ix2 (gRow0 t p) q) := by
  show V c (Pipeline.arrRef spec0 1) (((cfg0.win 1).blk t).view.emb (ix2 p q)) = _
  refine congrArg _ ?_
  obtain ⟨e0, e1, e2, e3, -⟩ := idx_facts0 t
  funext a; apply Fin.ext
  match a with
  | ⟨0, _⟩ => show win0_1.index t (0 : Fin 2) * 10000 + 1 * p.val = t.val * 10000 + p.val; omega
  | ⟨1, _⟩ => show win0_1.index t (1 : Fin 2) * 64 + 1 * q.val = q.val; omega

theorem iblk0_2_apply (c : Dev nD) (t : Fin cfg0.N) (p : Fin 64) (q : Fin 64) :
    iblk0 V c 2 t (ix2 p q) = V c (Pipeline.arrRef spec0 2) (ix2 p q) := by
  show V c (Pipeline.arrRef spec0 2) (((cfg0.win 2).blk t).view.emb (ix2 p q)) = _
  refine congrArg _ ?_
  obtain ⟨-, -, -, -, e4, e5, e6, e7, e8, e9, e10, e11, -⟩ := idx_facts0 t
  funext a; apply Fin.ext
  match a with
  | ⟨0, _⟩ => show win0_2.index t (0 : Fin 2) * 64 + 1 * p.val = p.val; omega
  | ⟨1, _⟩ => show win0_2.index t (1 : Fin 2) * 64 + 1 * q.val = q.val; omega

theorem iblk0_3_apply (c : Dev nD) (t : Fin cfg0.N) (p : Fin 1) (q : Fin 64) :
    iblk0 V c 3 t (ix2 p q) = V c (Pipeline.arrRef spec0 3) (ix2 p q) := by
  show V c (Pipeline.arrRef spec0 3) (((cfg0.win 3).blk t).view.emb (ix2 p q)) = _
  refine congrArg _ ?_
  obtain ⟨-, -, -, -, e4, e5, e6, e7, e8, e9, e10, e11, -⟩ := idx_facts0 t
  funext a; apply Fin.ext
  match a with
  | ⟨0, _⟩ => show win0_3.index t (0 : Fin 2) * 1 + 1 * p.val = p.val; omega
  | ⟨1, _⟩ => show win0_3.index t (1 : Fin 2) * 64 + 1 * q.val = q.val; omega

theorem iblk0_4_apply (c : Dev nD) (t : Fin cfg0.N) (p : Fin 64) (q : Fin 64) :
    iblk0 V c 4 t (ix2 p q) = V c (Pipeline.arrRef spec0 4) (ix2 p q) := by
  show V c (Pipeline.arrRef spec0 4) (((cfg0.win 4).blk t).view.emb (ix2 p q)) = _
  refine congrArg _ ?_
  obtain ⟨-, -, -, -, e4, e5, e6, e7, e8, e9, e10, e11, -⟩ := idx_facts0 t
  funext a; apply Fin.ext
  match a with
  | ⟨0, _⟩ => show win0_4.index t (0 : Fin 2) * 64 + 1 * p.val = p.val; omega
  | ⟨1, _⟩ => show win0_4.index t (1 : Fin 2) * 64 + 1 * q.val = q.val; omega

theorem iblk0_5_apply (c : Dev nD) (t : Fin cfg0.N) (p : Fin 1) (q : Fin 64) :
    iblk0 V c 5 t (ix2 p q) = V c (Pipeline.arrRef spec0 5) (ix2 p q) := by
  show V c (Pipeline.arrRef spec0 5) (((cfg0.win 5).blk t).view.emb (ix2 p q)) = _
  refine congrArg _ ?_
  obtain ⟨-, -, -, -, e4, e5, e6, e7, e8, e9, e10, e11, -⟩ := idx_facts0 t
  funext a; apply Fin.ext
  match a with
  | ⟨0, _⟩ => show win0_5.index t (0 : Fin 2) * 1 + 1 * p.val = p.val; omega
  | ⟨1, _⟩ => show win0_5.index t (1 : Fin 2) * 64 + 1 * q.val = q.val; omega

/-- Where entry `(p, q)` of the result's block `t` sits in the result array. -/
theorem emb0_6 (t : Fin cfg0.N) (p : Fin 10000) (q : Fin 64) :
    ((cfg0.win 6).blk t).view.emb (ix2 p q) = ix2 (gRow0 t p) q := by
  obtain ⟨-, -, -, -, -, -, -, -, -, -, -, -, e12, e13⟩ := idx_facts0 t
  funext a; apply Fin.ext
  match a with
  | ⟨0, _⟩ => show win0_6.index t (0 : Fin 2) * 10000 + 1 * p.val = t.val * 10000 + p.val; omega
  | ⟨1, _⟩ => show win0_6.index t (1 : Fin 2) * 64 + 1 * q.val = q.val; omega

set_option maxHeartbeats 2000000 in
/-- What point `t` writes back is block `t` of the layer function of the arrays as the region finds them. -/
theorem flushed0_eq (c : Dev nD) (t : Fin cfg0.N) :
    (dat0 V c).flushed 6 t = ((cfg0.win 6).blk t).view.read (Elt Ideal)
      (layerK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz0]
  simp only [View.ld_unit_zero (S := S10000x64) hz0, View.ld_unit_zero (S := S64x64) hz0, View.ld_unit_zero (S := S1x64) hz0]
  funext j
  obtain ⟨p, q, rfl⟩ : ∃ (p : Fin 10000) (q : Fin 64), j = ix2 p q := ⟨j 0, j 1, eq_ix2 j⟩
  refine (pay0_apply (iblk0 V c 0 t) (iblk0 V c 1 t) (iblk0 V c 2 t) (iblk0 V c 3 t) (iblk0 V c 4 t) (iblk0 V c 5 t) p q).trans ?_
  show _ = layerK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 p q))
  rw [emb0_6 t p q]
  unfold layerK
  simp only [iblk0_0_apply, iblk0_1_apply, iblk0_2_apply, iblk0_3_apply, iblk0_4_apply, iblk0_5_apply]

/-- An index of the result array is in point `t`'s block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- Every index of the result array lies in some point's block: row `r` in block `r / 10000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_6 _, ?_⟩
  obtain ⟨-, -, -, -, -, -, -, -, -, -, -, -, e12, e13⟩ := idx_facts0 ⟨(i 0).val / 10000, by rw [hN]; omega⟩
  rw [mem_blk0]
  intro a
  match a with
  | ⟨0, _⟩ =>
    show win0_6.index _ (0 : Fin 2) * 10000 ≤ (i 0).val ∧ (i 0).val < win0_6.index _ (0 : Fin 2) * 10000 + 10000
    rw [e12]; show (i 0).val / 10000 * 10000 ≤ (i 0).val ∧ (i 0).val < (i 0).val / 10000 * 10000 + 10000; omega
  | ⟨1, _⟩ =>
    show win0_6.index _ (1 : Fin 2) * 64 ≤ (i 1).val ∧ (i 1).val < win0_6.index _ (1 : Fin 2) * 64 + 64
    rw [e13]; omega

/-- The result array after the region: the layer function of the arrays it was entered with. -/
theorem final0 (c : Dev nD) :
    (dat0 V c).arrAt 6 cfg0.N = layerK (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 _ (fun t _ => flushed0_eq V c t) (cover0)

end Cert.KernelIdeal.Hand

end
-- ==== Proof.KI.Blocks1.lean ====
/-
  Region 1's result array as one function of the arrays it was entered with. At point `t` the body is handed rows
  `10000·t + p` of the two tables and the whole weight matrices and bias rows; the block it writes back is the same rows of
  the whole-table layer function. The ten blocks tile the array (row `r` lies in block `r / 10000`), so after the region the
  array is that function everywhere.
-/
import proofs.«158684_j45715631898814_1_alg».proof.Proof.KI.Region1
import proofs.«158684_j45715631898814_1_alg».proof.Proof.KI.Payload
import Idealize.ShloMosaic.Lib.Pipeline.Value

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the two tables' windows and the result's sit at block row `t`, the weights' and
    biases' at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt1 (t : Fin cfg1.N) : t.val < 10 := lt_of_lt_of_eq t.isLt N_1

/-- Row `p` of block `t` is row `10000·t + p` of the table. -/
def gRow1 (t : Fin cfg1.N) (p : Fin 10000) : Fin 100000 := ⟨t.val * 10000 + p.val, by have := t_lt1 t; have := p.isLt; omega⟩

theorem iblk1_0_apply (c : Dev nD) (t : Fin cfg1.N) (p : Fin 10000) (q : Fin 64) :
    iblk1 V c 0 t (ix2 p q) = V c (Pipeline.arrRef spec1 0) (ix2 (gRow1 t p) q) := by
  show V c (Pipeline.arrRef spec1 0) (((cfg1.win 0).blk t).view.emb (ix2 p q)) = _
  refine congrArg _ ?_
  obtain ⟨e0, e1, e2, e3, -⟩ := idx_facts1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega

theorem iblk1_1_apply (c : Dev nD) (t : Fin cfg1.N) (p : Fin 10000) (q : Fin 64) :
    iblk1 V c 1 t (ix2 p q) = V c (Pipeline.arrRef spec1 1) (ix2 (gRow1 t p) q) := by
  show V c (Pipeline.arrRef spec1 1) (((cfg1.win 1).blk t).view.emb (ix2 p q)) = _
  refine congrArg _ ?_
  obtain ⟨e0, e1, e2, e3, -⟩ := idx_facts1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * q.val = q.val; omega

theorem iblk1_2_apply (c : Dev nD) (t : Fin cfg1.N) (p : Fin 64) (q : Fin 64) :
    iblk1 V c 2 t (ix2 p q) = V c (Pipeline.arrRef spec1 2) (ix2 p q) := by
  show V c (Pipeline.arrRef spec1 2) (((cfg1.win 2).blk t).view.emb (ix2 p q)) = _
  refine congrArg _ ?_
  obtain ⟨-, -, -, -, e4, e5, e6, e7, e8, e9, e10, e11, -⟩ := idx_facts1 t
  funext a; apply Fin.ext
  match a with
  | ⟨0, _⟩ => show win1_2.index t (0 : Fin 2) * 64 + 1 * p.val = p.val; omega
  | ⟨1, _⟩ => show win1_2.index t (1 : Fin 2) * 64 + 1 * q.val = q.val; omega

theorem iblk1_3_apply (c : Dev nD) (t : Fin cfg1.N) (p : Fin 1) (q : Fin 64) :
    iblk1 V c 3 t (ix2 p q) = V c (Pipeline.arrRef spec1 3) (ix2 p q) := by
  show V c (Pipeline.arrRef spec1 3) (((cfg1.win 3).blk t).view.emb (ix2 p q)) = _
  refine congrArg _ ?_
  obtain ⟨-, -, -, -, e4, e5, e6, e7, e8, e9, e10, e11, -⟩ := idx_facts1 t
  funext a; apply Fin.ext
  match a with
  | ⟨0, _⟩ => show win1_3.index t (0 : Fin 2) * 1 + 1 * p.val = p.val; omega
  | ⟨1, _⟩ => show win1_3.index t (1 : Fin 2) * 64 + 1 * q.val = q.val; omega

theorem iblk1_4_apply (c : Dev nD) (t : Fin cfg1.N) (p : Fin 64) (q : Fin 64) :
    iblk1 V c 4 t (ix2 p q) = V c (Pipeline.arrRef spec1 4) (ix2 p q) := by
  show V c (Pipeline.arrRef spec1 4) (((cfg1.win 4).blk t).view.emb (ix2 p q)) = _
  refine congrArg _ ?_
  obtain ⟨-, -, -, -, e4, e5, e6, e7, e8, e9, e10, e11, -⟩ := idx_facts1 t
  funext a; apply Fin.ext
  match a with
  | ⟨0, _⟩ => show win1_4.index t (0 : Fin 2) * 64 + 1 * p.val = p.val; omega
  | ⟨1, _⟩ => show win1_4.index t (1 : Fin 2) * 64 + 1 * q.val = q.val; omega

theorem iblk1_5_apply (c : Dev nD) (t : Fin cfg1.N) (p : Fin 1) (q : Fin 64) :
    iblk1 V c 5 t (ix2 p q) = V c (Pipeline.arrRef spec1 5) (ix2 p q) := by
  show V c (Pipeline.arrRef spec1 5) (((cfg1.win 5).blk t).view.emb (ix2 p q)) = _
  refine congrArg _ ?_
  obtain ⟨-, -, -, -, e4, e5, e6, e7, e8, e9, e10, e11, -⟩ := idx_facts1 t
  funext a; apply Fin.ext
  match a with
  | ⟨0, _⟩ => show win1_5.index t (0 : Fin 2) * 1 + 1 * p.val = p.val; omega
  | ⟨1, _⟩ => show win1_5.index t (1 : Fin 2) * 64 + 1 * q.val = q.val; omega

/-- Where entry `(p, q)` of the result's block `t` sits in the result array. -/
theorem emb1_6 (t : Fin cfg1.N) (p : Fin 10000) (q : Fin 64) :
    ((cfg1.win 6).blk t).view.emb (ix2 p q) = ix2 (gRow1 t p) q := by
  obtain ⟨-, -, -, -, -, -, -, -, -, -, -, -, e12, e13⟩ := idx_facts1 t
  funext a; apply Fin.ext
  match a with
  | ⟨0, _⟩ => show win1_6.index t (0 : Fin 2) * 10000 + 1 * p.val = t.val * 10000 + p.val; omega
  | ⟨1, _⟩ => show win1_6.index t (1 : Fin 2) * 64 + 1 * q.val = q.val; omega

set_option maxHeartbeats 2000000 in
/-- What point `t` writes back is block `t` of the layer function of the arrays as the region finds them. -/
theorem flushed1_eq (c : Dev nD) (t : Fin cfg1.N) :
    (dat1 V c).flushed 6 t = ((cfg1.win 6).blk t).view.read (Elt Ideal)
      (layerK (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz1]
  simp only [View.ld_unit_zero (S := S10000x64) hz1, View.ld_unit_zero (S := S64x64) hz1, View.ld_unit_zero (S := S1x64) hz1]
  funext j
  obtain ⟨p, q, rfl⟩ : ∃ (p : Fin 10000) (q : Fin 64), j = ix2 p q := ⟨j 0, j 1, eq_ix2 j⟩
  refine (pay1_apply (iblk1 V c 0 t) (iblk1 V c 1 t) (iblk1 V c 2 t) (iblk1 V c 3 t) (iblk1 V c 4 t) (iblk1 V c 5 t) p q).trans ?_
  show _ = layerK (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p q))
  rw [emb1_6 t p q]
  unfold layerK
  simp only [iblk1_0_apply, iblk1_1_apply, iblk1_2_apply, iblk1_3_apply, iblk1_4_apply, iblk1_5_apply]

/-- An index of the result array is in point `t`'s block iff each coordinate is in the block's range on its axis. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v44).slice (win1_6.rect t)).set ↔ _
  rw [View.set_slice_whole, Rect.mem_set_unit]
  exact Iff.rfl

/-- Every index of the result array lies in some point's block: row `r` in block `r / 10000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_6 _, ?_⟩
  obtain ⟨-, -, -, -, -, -, -, -, -, -, -, -, e12, e13⟩ := idx_facts1 ⟨(i 0).val / 10000, by rw [hN]; omega⟩
  rw [mem_blk1]
  intro a
  match a with
  | ⟨0, _⟩ =>
    show win1_6.index _ (0 : Fin 2) * 10000 ≤ (i 0).val ∧ (i 0).val < win1_6.index _ (0 : Fin 2) * 10000 + 10000
    rw [e12]; show (i 0).val / 10000 * 10000 ≤ (i 0).val ∧ (i 0).val < (i 0).val / 10000 * 10000 + 10000; omega
  | ⟨1, _⟩ =>
    show win1_6.index _ (1 : Fin 2) * 64 ≤ (i 1).val ∧ (i 1).val < win1_6.index _ (1 : Fin 2) * 64 + 64
    rw [e13]; omega

/-- The result array after the region: the layer function of the arrays it was entered with. -/
theorem final1 (c : Dev nD) :
    (dat1 V c).arrAt 6 cfg1.N = layerK (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_eq V c t) (cover1)

end Cert.KernelIdeal.Hand

end
-- ==== Proof.KI.Blocks2.lean ====
/-
  Region 2's result array as one function of the arrays it was entered with. At point `t` the body is handed rows
  `10000·t + p` of the two tables and the whole weight matrices and bias rows; the block it writes back is the same rows of
  the whole-table layer function. The ten blocks tile the array (row `r` lies in block `r / 10000`), so after the region the
  array is that function everywhere.
-/
import proofs.«158684_j45715631898814_1_alg».proof.Proof.KI.Region2
import proofs.«158684_j45715631898814_1_alg».proof.Proof.KI.Payload
import Idealize.ShloMosaic.Lib.Pipeline.Value

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the two tables' windows and the result's sit at block row `t`, the weights' and
    biases' at the origin. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt2 (t : Fin cfg2.N) : t.val < 10 := lt_of_lt_of_eq t.isLt N_2

/-- Row `p` of block `t` is row `10000·t + p` of the table. -/
def gRow2 (t : Fin cfg2.N) (p : Fin 10000) : Fin 100000 := ⟨t.val * 10000 + p.val, by have := t_lt2 t; have := p.isLt; omega⟩

theorem iblk2_0_apply (c : Dev nD) (t : Fin cfg2.N) (p : Fin 10000) (q : Fin 64) :
    iblk2 V c 0 t (ix2 p q) = V c (Pipeline.arrRef spec2 0) (ix2 (gRow2 t p) q) := by
  show V c (Pipeline.arrRef spec2 0) (((cfg2.win 0).blk t).view.emb (ix2 p q)) = _
  refine congrArg _ ?_
  obtain ⟨e0, e1, e2, e3, -⟩ := idx_facts2 t
  funext a; apply Fin.ext
  match a with
  | ⟨0, _⟩ => show win2_0.index t (0 : Fin 2) * 10000 + 1 * p.val = t.val * 10000 + p.val; omega
  | ⟨1, _⟩ => show win2_0.index t (1 : Fin 2) * 64 + 1 * q.val = q.val; omega

theorem iblk2_1_apply (c : Dev nD) (t : Fin cfg2.N) (p : Fin 10000) (q : Fin 64) :
    iblk2 V c 1 t (ix2 p q) = V c (Pipeline.arrRef spec2 1) (ix2 (gRow2 t p) q) := by
  show V c (Pipeline.arrRef spec2 1) (((cfg2.win 1).blk t).view.emb (ix2 p q)) = _
  refine congrArg _ ?_
  obtain ⟨e0, e1, e2, e3, -⟩ := idx_facts2 t
  funext a; apply Fin.ext
  match a with
  | ⟨0, _⟩ => show win2_1.index t (0 : Fin 2) * 10000 + 1 * p.val = t.val * 10000 + p.val; omega
  | ⟨1, _⟩ => show win2_1.index t (1 : Fin 2) * 64 + 1 * q.val = q.val; omega

theorem iblk2_2_apply (c : Dev nD) (t : Fin cfg2.N) (p : Fin 64) (q : Fin 64) :
    iblk2 V c 2 t (ix2 p q) = V c (Pipeline.arrRef spec2 2) (ix2 p q) := by
  show V c (Pipeline.arrRef spec2 2) (((cfg2.win 2).blk t).view.emb (ix2 p q)) = _
  refine congrArg _ ?_
  obtain ⟨-, -, -, -, e4, e5, e6, e7, e8, e9, e10, e11, -⟩ := idx_facts2 t
  funext a; apply Fin.ext
  match a with
  | ⟨0, _⟩ => show win2_2.index t (0 : Fin 2) * 64 + 1 * p.val = p.val; omega
  | ⟨1, _⟩ => show win2_2.index t (1 : Fin 2) * 64 + 1 * q.val = q.val; omega

theorem iblk2_3_apply (c : Dev nD) (t : Fin cfg2.N) (p : Fin 1) (q : Fin 64) :
    iblk2 V c 3 t (ix2 p q) = V c (Pipeline.arrRef spec2 3) (ix2 p q) := by
  show V c (Pipeline.arrRef spec2 3) (((cfg2.win 3).blk t).view.emb (ix2 p q)) = _
  refine congrArg _ ?_
  obtain ⟨-, -, -, -, e4, e5, e6, e7, e8, e9, e10, e11, -⟩ := idx_facts2 t
  funext a; apply Fin.ext
  match a with
  | ⟨0, _⟩ => show win2_3.index t (0 : Fin 2) * 1 + 1 * p.val = p.val; omega
  | ⟨1, _⟩ => show win2_3.index t (1 : Fin 2) * 64 + 1 * q.val = q.val; omega

theorem iblk2_4_apply (c : Dev nD) (t : Fin cfg2.N) (p : Fin 64) (q : Fin 64) :
    iblk2 V c 4 t (ix2 p q) = V c (Pipeline.arrRef spec2 4) (ix2 p q) := by
  show V c (Pipeline.arrRef spec2 4) (((cfg2.win 4).blk t).view.emb (ix2 p q)) = _
  refine congrArg _ ?_
  obtain ⟨-, -, -, -, e4, e5, e6, e7, e8, e9, e10, e11, -⟩ := idx_facts2 t
  funext a; apply Fin.ext
  match a with
  | ⟨0, _⟩ => show win2_4.index t (0 : Fin 2) * 64 + 1 * p.val = p.val; omega
  | ⟨1, _⟩ => show win2_4.index t (1 : Fin 2) * 64 + 1 * q.val = q.val; omega

theorem iblk2_5_apply (c : Dev nD) (t : Fin cfg2.N) (p : Fin 1) (q : Fin 64) :
    iblk2 V c 5 t (ix2 p q) = V c (Pipeline.arrRef spec2 5) (ix2 p q) := by
  show V c (Pipeline.arrRef spec2 5) (((cfg2.win 5).blk t).view.emb (ix2 p q)) = _
  refine congrArg _ ?_
  obtain ⟨-, -, -, -, e4, e5, e6, e7, e8, e9, e10, e11, -⟩ := idx_facts2 t
  funext a; apply Fin.ext
  match a with
  | ⟨0, _⟩ => show win2_5.index t (0 : Fin 2) * 1 + 1 * p.val = p.val; omega
  | ⟨1, _⟩ => show win2_5.index t (1 : Fin 2) * 64 + 1 * q.val = q.val; omega

/-- Where entry `(p, q)` of the result's block `t` sits in the result array. -/
theorem emb2_6 (t : Fin cfg2.N) (p : Fin 10000) (q : Fin 64) :
    ((cfg2.win 6).blk t).view.emb (ix2 p q) = ix2 (gRow2 t p) q := by
  obtain ⟨-, -, -, -, -, -, -, -, -, -, -, -, e12, e13⟩ := idx_facts2 t
  funext a; apply Fin.ext
  match a with
  | ⟨0, _⟩ => show win2_6.index t (0 : Fin 2) * 10000 + 1 * p.val = t.val * 10000 + p.val; omega
  | ⟨1, _⟩ => show win2_6.index t (1 : Fin 2) * 64 + 1 * q.val = q.val; omega

set_option maxHeartbeats 2000000 in
/-- What point `t` writes back is block `t` of the layer function of the arrays as the region finds them. -/
theorem flushed2_eq (c : Dev nD) (t : Fin cfg2.N) :
    (dat2 V c).flushed 6 t = ((cfg2.win 6).blk t).view.read (Elt Ideal)
      (layerK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S64x64) hz2, View.ld_unit_zero (S := S1x64) hz2]
  funext j
  obtain ⟨p, q, rfl⟩ : ∃ (p : Fin 10000) (q : Fin 64), j = ix2 p q := ⟨j 0, j 1, eq_ix2 j⟩
  refine (pay2_apply (iblk2 V c 0 t) (iblk2 V c 1 t) (iblk2 V c 2 t) (iblk2 V c 3 t) (iblk2 V c 4 t) (iblk2 V c 5 t) p q).trans ?_
  show _ = layerK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 p q))
  rw [emb2_6 t p q]
  unfold layerK
  simp only [iblk2_0_apply, iblk2_1_apply, iblk2_2_apply, iblk2_3_apply, iblk2_4_apply, iblk2_5_apply]

/-- An index of the result array is in point `t`'s block iff each coordinate is in the block's range on its axis. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v66).slice (win2_6.rect t)).set ↔ _
  rw [View.set_slice_whole, Rect.mem_set_unit]
  exact Iff.rfl

/-- Every index of the result array lies in some point's block: row `r` in block `r / 10000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_6 _, ?_⟩
  obtain ⟨-, -, -, -, -, -, -, -, -, -, -, -, e12, e13⟩ := idx_facts2 ⟨(i 0).val / 10000, by rw [hN]; omega⟩
  rw [mem_blk2]
  intro a
  match a with
  | ⟨0, _⟩ =>
    show win2_6.index _ (0 : Fin 2) * 10000 ≤ (i 0).val ∧ (i 0).val < win2_6.index _ (0 : Fin 2) * 10000 + 10000
    rw [e12]; show (i 0).val / 10000 * 10000 ≤ (i 0).val ∧ (i 0).val < (i 0).val / 10000 * 10000 + 10000; omega
  | ⟨1, _⟩ =>
    show win2_6.index _ (1 : Fin 2) * 64 ≤ (i 1).val ∧ (i 1).val < win2_6.index _ (1 : Fin 2) * 64 + 64
    rw [e13]; omega

/-- The result array after the region: the layer function of the arrays it was entered with. -/
theorem final2 (c : Dev nD) :
    (dat2 V c).arrAt 6 cfg2.N = layerK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => flushed2_eq V c t) (cover2)

end Cert.KernelIdeal.Hand

end
-- ==== Proof.RefSpec.lean ====
/-
  The common specification of both programs, as pure functions of the twelve argument arrays.

  The node table starts as the users' embeddings stacked on the items'. One layer sends a table `x` to
  `leaky (lie · W1ₖ + b1ₖ + (x ⊙ lie) · W2ₖ + b2ₖ)`, where `lie = A · x` is the sparse product with the edge list
  (a row gather of `x` at the edges' columns, scaled by the edges' values, summed into the edges' rows) and
  `leaky s = s` where `s ≥ 0`, `0.2 · s` elsewhere. The three results are rows of the four tables laid side by
  side: the sampled users', the observed items', the unobserved items'.
-/
import proofs.«158684_j45715631898814_1_alg».proof.ReferenceIdeal
import proofs.«158684_j45715631898814_1_alg».proof.Proof.Gen.ReferenceIdeal

noncomputable section

namespace Cert.RefSpec

open Idealize.ShloMosaic Cert.ReferenceIdeal
open Cert.ReferenceIdeal.Facts₀ Cert.ReferenceIdeal.Facts

variable {F : FTy → Type} [FloatOps F]

/-- The contents of a buffer of shape `S` and element type `e`. -/
abbrev T (F : FTy → Type) [FloatOps F] (S : Shape) (e : EltTy) : Type := (⟨S, e⟩ : BufTy).Contents (Elt F)

/-- The users' rows on top of the items' rows. -/
def nodes0 (eu : T F S60000x64 .f32) (ei : T F S40000x64 .f32) : T F S100000x64 .f32 :=
  concatenate S100000x64 0 [⟨S60000x64, eu⟩, ⟨S40000x64, ei⟩] concatenates_S60000x64_S40000x64_S100000x64_d0

/-- An index vector with Python's wrap of negative entries, as a column. -/
def wrapCol (col : T F S3200000 .i32) : T F S3200000x1 .i32 :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- The sparse product: row `r` of the result is the sum over the edges `e` with `row e = r` of `val e` times row
    `col e` of `x`. -/
def spmm (row col : T F S3200000 .i32) (val : T F S3200000 .f32) (x : T F S100000x64 .f32) : T F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 row)
    (mulf (broadcastInDim S3200000x64 ![0, 1] bcast_S3200000x1_S3200000x64_0_1
        (broadcastInDim S3200000x1 ![0] bcast_S3200000_S3200000x1_0 val))
      (Host.gather gather_S100000x64_S3200000x1_S3200000x64_1_0_n_n_0_1_164 x (wrapCol col)))

/-- Layer `k`'s weight matrix out of the stack of three. -/
def wsl0 (W : T F S3x64x64 .f32) : T F S64x64 .f32 :=
  shapeCast S64x64 (extractStridedSlice S1x64x64 ![0, 0, 0] W slices_S3x64x64_S1x64x64_0_0_0) shapeCasts_S1x64x64_S64x64
def wsl1 (W : T F S3x64x64 .f32) : T F S64x64 .f32 :=
  shapeCast S64x64 (extractStridedSlice S1x64x64 ![1, 0, 0] W slices_S3x64x64_S1x64x64_1_0_0) shapeCasts_S1x64x64_S64x64
def wsl2 (W : T F S3x64x64 .f32) : T F S64x64 .f32 :=
  shapeCast S64x64 (extractStridedSlice S1x64x64 ![2, 0, 0] W slices_S3x64x64_S1x64x64_2_0_0) shapeCasts_S1x64x64_S64x64

/-- Layer `k`'s bias row out of the stack of three. -/
def bsl0 (b : T F S3x1x64 .f32) : T F S1x64 .f32 :=
  shapeCast S1x64 (extractStridedSlice S1x1x64 ![0, 0, 0] b slices_S3x1x64_S1x1x64_0_0_0) shapeCasts_S1x1x64_S1x64
def bsl1 (b : T F S3x1x64 .f32) : T F S1x64 .f32 :=
  shapeCast S1x64 (extractStridedSlice S1x1x64 ![1, 0, 0] b slices_S3x1x64_S1x1x64_1_0_0) shapeCasts_S1x1x64_S1x64
def bsl2 (b : T F S3x1x64 .f32) : T F S1x64 .f32 :=
  shapeCast S1x64 (extractStridedSlice S1x1x64 ![2, 0, 0] b slices_S3x1x64_S1x1x64_2_0_0) shapeCasts_S1x1x64_S1x64

/-- `s` where `s ≥ 0`, the slope `0.2` (as its 32-bit pattern) times `s` elsewhere. -/
def leaky (s : T F S100000x64 .f32) : T F S100000x64 .f32 :=
  select (cmpf .oge s (broadcastInDim S100000x64 ![] bcast_S_S100000x64 (constant S_ .f32 0x00000000#32))) s
    (mulf (broadcastInDim S100000x64 ![] bcast_S_S100000x64 (id (constant S_ .f32 0x3E4CCCCD#32))) s)

/-- One layer: `leaky ((lie · w1 + b1) + ((x ⊙ lie) · w2 + b2))`, the bias rows repeated down the table. -/
def layer (lie x : T F S100000x64 .f32) (w1 : T F S64x64 .f32) (b1 : T F S1x64 .f32) (w2 : T F S64x64 .f32)
    (b2 : T F S1x64 .f32) : T F S100000x64 .f32 :=
  leaky (addf
    (addf (Host.dotGeneral dot_S100000x64_S64x64_S100000x64_1_0_0_1_n_n none lie w1)
      (broadcastInDim S100000x64 ![0, 1] bcast_S1x64_S100000x64_0_1 b1))
    (addf (Host.dotGeneral dot_S100000x64_S64x64_S100000x64_1_0_0_1_n_n none (mulf x lie) w2)
      (broadcastInDim S100000x64 ![0, 1] bcast_S1x64_S100000x64_0_1 b2)))

/-- Four node tables side by side. -/
def cat4 (a b c d : T F S100000x64 .f32) : T F S100000x256 .f32 :=
  concatenate S100000x256 1 [⟨S100000x64, a⟩, ⟨S100000x64, b⟩, ⟨S100000x64, c⟩, ⟨S100000x64, d⟩]
    concatenates_S100000x64_S100000x64_S100000x64_S100000x64_S100000x256_d1

/-- The rows of the users' part (the first 60000 rows) at the given indices, negative ones wrapped. -/
def takeUsers (full : T F S100000x256 .f32) (idx : T F S1024 .i32) : T F S1024x256 .f32 :=
  Host.gather gather_S60000x256_S1024x1_S1024x256_1_0_n_n_0_1_1256
    (extractStridedSlice S60000x256 ![0, 0] full slices_S100000x256_S60000x256_0_0)
    (broadcastInDim S1024x1 ![0] bcast_S1024_S1024x1_0
      (select (cmpi .slt idx (broadcastInDim S1024 ![] bcast_S_S1024 (constantI S_ 32 0#32)))
        (addi idx (broadcastInDim S1024 ![] bcast_S_S1024 (constantI S_ 32 60000#32))) idx))

/-- The rows of the items' part (the last 40000 rows) at the given indices, negative ones wrapped. -/
def takeItems (full : T F S100000x256 .f32) (idx : T F S1024 .i32) : T F S1024x256 .f32 :=
  Host.gather gather_S40000x256_S1024x1_S1024x256_1_0_n_n_0_1_1256
    (extractStridedSlice S40000x256 ![60000, 0] full slices_S100000x256_S40000x256_60000_0)
    (broadcastInDim S1024x1 ![0] bcast_S1024_S1024x1_0
      (select (cmpi .slt idx (broadcastInDim S1024 ![] bcast_S_S1024 (constantI S_ 32 0#32)))
        (addi idx (broadcastInDim S1024 ![] bcast_S_S1024 (constantI S_ 32 40000#32))) idx))

section Tables
variable (row col : T F S3200000 .i32) (val : T F S3200000 .f32) (eu : T F S60000x64 .f32) (ei : T F S40000x64 .f32)
  (W1 W2 : T F S3x64x64 .f32) (b1 b2 : T F S3x1x64 .f32)

/-- The node table after one, two and three layers. -/
def x1 : T F S100000x64 .f32 :=
  layer (spmm row col val (nodes0 eu ei)) (nodes0 eu ei) (wsl0 W1) (bsl0 b1) (wsl0 W2) (bsl0 b2)
def x2 : T F S100000x64 .f32 :=
  layer (spmm row col val (x1 row col val eu ei W1 W2 b1 b2)) (x1 row col val eu ei W1 W2 b1 b2) (wsl1 W1) (bsl1 b1) (wsl1 W2) (bsl1 b2)
def x3 : T F S100000x64 .f32 :=
  layer (spmm row col val (x2 row col val eu ei W1 W2 b1 b2)) (x2 row col val eu ei W1 W2 b1 b2) (wsl2 W1) (bsl2 b1) (wsl2 W2) (bsl2 b2)

/-- The four tables side by side. -/
def full : T F S100000x256 .f32 :=
  cat4 (nodes0 eu ei) (x1 row col val eu ei W1 W2 b1 b2) (x2 row col val eu ei W1 W2 b1 b2) (x3 row col val eu ei W1 W2 b1 b2)

variable (su oi ui : T F S1024 .i32)

/-- The three results. -/
def out0 : T F S1024x256 .f32 := takeUsers (full row col val eu ei W1 W2 b1 b2) su
def out1 : T F S1024x256 .f32 := takeItems (full row col val eu ei W1 W2 b1 b2) oi
def out2 : T F S1024x256 .f32 := takeItems (full row col val eu ei W1 W2 b1 b2) ui
end Tables

end Cert.RefSpec

end
-- ==== Proof.KI.HostStretch.lean ====
/-
  The host stretches around the three regions, each read from an ARBITRARY valuation of the buffers it starts from: the
  buffer an operation chain ends in holds the chain's pure function of the buffers the chain reads. The chains are the
  common specification's own: the stacked embeddings, the sparse product, a layer's weight matrix and bias row, and the
  three row selections out of the four tables laid side by side.
-/
import proofs.«158684_j45715631898814_1_alg».proof.Proof.Gen.KernelIdeal.Launch
import proofs.«158684_j45715631898814_1_alg».proof.Proof.RefSpec
import Idealize.ShloMosaic.Lib.StableHlo.Run
import Idealize.ShloMosaic.PureOps.Ideal

noncomputable section

namespace Cert.KernelIdeal.Hand

open Idealize.ShloMosaic Idealize.ShloMosaic.TcCoe Idealize.ShloMosaic.StableHlo Cert.KernelIdeal Cert.KernelIdeal.Gen

variable (Wp : Valuation τ sig (Elt Ideal))

/-! ## Before the first region -/

theorem s0_v0 : after (hostOps0 (F := Ideal)) Wp (main_v0 : DevRef τ sig) = Cert.RefSpec.nodes0 (Wp (main_arg3 : DevRef τ sig)) (Wp (main_arg4 : DevRef τ sig)) := by
  after_results_simp; rfl
theorem s0_v13 : after (hostOps0 (F := Ideal)) Wp (main_v13 : DevRef τ sig)
    = Cert.RefSpec.spmm (Wp (main_arg0 : DevRef τ sig)) (Wp (main_arg1 : DevRef τ sig)) (Wp (main_arg2 : DevRef τ sig)) (Cert.RefSpec.nodes0 (Wp (main_arg3 : DevRef τ sig)) (Wp (main_arg4 : DevRef τ sig))) := by
  after_results_simp; rfl
theorem s0_v15 : after (hostOps0 (F := Ideal)) Wp (main_v15 : DevRef τ sig) = Cert.RefSpec.wsl0 (Wp (main_arg5 : DevRef τ sig)) := by
  after_results_simp; rfl
theorem s0_v17 : after (hostOps0 (F := Ideal)) Wp (main_v17 : DevRef τ sig) = Cert.RefSpec.bsl0 (Wp (main_arg7 : DevRef τ sig)) := by
  after_results_simp; rfl
theorem s0_v19 : after (hostOps0 (F := Ideal)) Wp (main_v19 : DevRef τ sig) = Cert.RefSpec.wsl0 (Wp (main_arg6 : DevRef τ sig)) := by
  after_results_simp; rfl
theorem s0_v21 : after (hostOps0 (F := Ideal)) Wp (main_v21 : DevRef τ sig) = Cert.RefSpec.bsl0 (Wp (main_arg8 : DevRef τ sig)) := by
  after_results_simp; rfl

/-! ## Between the first and the second region -/

theorem s1_v35 : after (hostOps1 (F := Ideal)) Wp (main_v35 : DevRef τ sig)
    = Cert.RefSpec.spmm (Wp (main_arg0 : DevRef τ sig)) (Wp (main_arg1 : DevRef τ sig)) (Wp (main_arg2 : DevRef τ sig)) (Wp (main_v22 : DevRef τ sig)) := by
  after_results_simp; rfl
theorem s1_v37 : after (hostOps1 (F := Ideal)) Wp (main_v37 : DevRef τ sig) = Cert.RefSpec.wsl1 (Wp (main_arg5 : DevRef τ sig)) := by
  after_results_simp; rfl
theorem s1_v39 : after (hostOps1 (F := Ideal)) Wp (main_v39 : DevRef τ sig) = Cert.RefSpec.bsl1 (Wp (main_arg7 : DevRef τ sig)) := by
  after_results_simp; rfl
theorem s1_v41 : after (hostOps1 (F := Ideal)) Wp (main_v41 : DevRef τ sig) = Cert.RefSpec.wsl1 (Wp (main_arg6 : DevRef τ sig)) := by
  after_results_simp; rfl
theorem s1_v43 : after (hostOps1 (F := Ideal)) Wp (main_v43 : DevRef τ sig) = Cert.RefSpec.bsl1 (Wp (main_arg8 : DevRef τ sig)) := by
  after_results_simp; rfl

/-! ## Between the second and the third region -/

theorem s2_v57 : after (hostOps2 (F := Ideal)) Wp (main_v57 : DevRef τ sig)
    = Cert.RefSpec.spmm (Wp (main_arg0 : DevRef τ sig)) (Wp (main_arg1 : DevRef τ sig)) (Wp (main_arg2 : DevRef τ sig)) (Wp (main_v44 : DevRef τ sig)) := by
  after_results_simp; rfl
theorem s2_v59 : after (hostOps2 (F := Ideal)) Wp (main_v59 : DevRef τ sig) = Cert.RefSpec.wsl2 (Wp (main_arg5 : DevRef τ sig)) := by
  after_results_simp; rfl
theorem s2_v61 : after (hostOps2 (F := Ideal)) Wp (main_v61 : DevRef τ sig) = Cert.RefSpec.bsl2 (Wp (main_arg7 : DevRef τ sig)) := by
  after_results_simp; rfl
theorem s2_v63 : after (hostOps2 (F := Ideal)) Wp (main_v63 : DevRef τ sig) = Cert.RefSpec.wsl2 (Wp (main_arg6 : DevRef τ sig)) := by
  after_results_simp; rfl
theorem s2_v65 : after (hostOps2 (F := Ideal)) Wp (main_v65 : DevRef τ sig) = Cert.RefSpec.bsl2 (Wp (main_arg8 : DevRef τ sig)) := by
  after_results_simp; rfl

end Cert.KernelIdeal.Hand

end
-- ==== Proof.KI.HostTail.lean ====
/-
  The closing host stretch read from an arbitrary valuation: the three results are the common specification's row
  selections out of the four tables laid side by side.
-/
import proofs.«158684_j45715631898814_1_alg».proof.Proof.Gen.KernelIdeal.Launch
import proofs.«158684_j45715631898814_1_alg».proof.Proof.RefSpec
import Idealize.ShloMosaic.Lib.StableHlo.Run
import Idealize.ShloMosaic.PureOps.Ideal

noncomputable section

namespace Cert.KernelIdeal.Hand

open Idealize.ShloMosaic Idealize.ShloMosaic.TcCoe Idealize.ShloMosaic.StableHlo Cert.KernelIdeal Cert.KernelIdeal.Gen

variable (Wp : Valuation τ sig (Elt Ideal))

theorem s3_v76 : after (hostOps3 (F := Ideal)) Wp (main_v76 : DevRef τ sig)
    = Cert.RefSpec.takeUsers (Cert.RefSpec.cat4 (Wp (main_v0 : DevRef τ sig)) (Wp (main_v22 : DevRef τ sig)) (Wp (main_v44 : DevRef τ sig)) (Wp (main_v66 : DevRef τ sig))) (Wp (main_arg9 : DevRef τ sig)) := by
  after_results_simp; rfl
theorem s3_v83 : after (hostOps3 (F := Ideal)) Wp (main_v83 : DevRef τ sig)
    = Cert.RefSpec.takeItems (Cert.RefSpec.cat4 (Wp (main_v0 : DevRef τ sig)) (Wp (main_v22 : DevRef τ sig)) (Wp (main_v44 : DevRef τ sig)) (Wp (main_v66 : DevRef τ sig))) (Wp (main_arg10 : DevRef τ sig)) := by
  after_results_simp; rfl
theorem s3_v90 : after (hostOps3 (F := Ideal)) Wp (main_v90 : DevRef τ sig)
    = Cert.RefSpec.takeItems (Cert.RefSpec.cat4 (Wp (main_v0 : DevRef τ sig)) (Wp (main_v22 : DevRef τ sig)) (Wp (main_v44 : DevRef τ sig)) (Wp (main_v66 : DevRef τ sig))) (Wp (main_arg11 : DevRef τ sig)) := by
  after_results_simp; rfl

end Cert.KernelIdeal.Hand

end
-- ==== Proof.RefLayer.lean ====
/-
  The reference's layer read at one entry, on the extended reals: the host's dot product is the plain sum over the
  contracted coordinate, a bias row is repeated down the rows, a scalar is repeated over the table, and the gate keeps
  `s` where `s ≥ 0`.
-/
import proofs.«158684_j45715631898814_1_alg».proof.Proof.RefSpec
import proofs.«158684_j45715631898814_1_alg».proof.Proof.LibDense
import proofs.«158684_j45715631898814_1_alg».proof.Proof.LayerLaw
import Idealize.ShloMosaic.Lib.ValueLayout
import Idealize.ShloMosaic.Lib.Pipeline.Value

noncomputable section

namespace Cert.RefSpec

open Idealize.ShloMosaic Idealize.ShloMosaic.ValueIdx Cert.ReferenceIdeal Cert.Layer

/-- The gate in the reference's spelling, read at an index. -/
theorem leaky_apply (s : FVec Ideal S100000x64 .f32) (i : S100000x64.Idx) : leaky (F := Ideal) s i = gateNonneg (s i) := by
  unfold leaky
  rw [select_apply, cmpf_apply, mulf_apply, Cert.Dense.bcastScalar_apply, Cert.Dense.bcastScalar_apply]
  show Scalar.select (Ideal.cmp .oge (s i) (Ideal.ofBits .f32 0x00000000#32)) (s i) (Ideal.ofBits .f32 0x3E4CCCCD#32 * s i) = _
  rw [Ideal.ofBits_zero_f32]
  rfl

section
variable (L X : FVec Ideal S100000x64 .f32) (w1 : FVec Ideal S64x64 .f32) (b1 : FVec Ideal S1x64 .f32) (w2 : FVec Ideal S64x64 .f32)
  (b2 : FVec Ideal S1x64 .f32) (r : Fin 100000) (q : Fin 64)

theorem dot1_apply :
    Host.dotGeneral (F := Ideal) dot_S100000x64_S64x64_S100000x64_1_0_0_1_n_n none L w1 (ix2 r q) = ∑ c : Fin 64, L (ix2 r c) * w1 (ix2 c q) :=
  Cert.Dense.hostDot_plain_apply Gen.dot_S100000x64_S64x64_S100000x64_1_0_0_1_n_n_wf L w1 r q

theorem dot2_apply :
    Host.dotGeneral (F := Ideal) dot_S100000x64_S64x64_S100000x64_1_0_0_1_n_n none (mulf X L) w2 (ix2 r q)
      = ∑ c : Fin 64, (X (ix2 r c) * L (ix2 r c)) * w2 (ix2 c q) :=
  Cert.Dense.hostDot_plain_apply Gen.dot_S100000x64_S64x64_S100000x64_1_0_0_1_n_n_wf (mulf X L) w2 r q

/-- The reference's layer at entry `(r, q)`. -/
theorem layer_apply :
    layer (F := Ideal) L X w1 b1 w2 b2 (ix2 r q)
      = gateNonneg (pre (fun c => L (ix2 r c)) (fun c => X (ix2 r c)) (fun c => w1 (ix2 c q)) (b1 (ix2 (0 : Fin 1) q))
          (fun c => w2 (ix2 c q)) (b2 (ix2 (0 : Fin 1) q))) := by
  unfold layer
  rw [leaky_apply]
  refine congrArg gateNonneg ?_
  rw [addf_apply, addf_apply, addf_apply, dot1_apply, dot2_apply, Cert.Dense.bcastRows_apply, Cert.Dense.bcastRows_apply]
  rfl

end

end Cert.RefSpec

end
-- ==== Proof.KI.Value.lean ====
/-
  The idealized kernel's results as functions of its arguments. Walking the eight boundaries of the run: an argument is
  never written; the stacked embeddings and every finished layer's table survive the later segments (a host stretch does
  not write them, a region either does not touch them or only reads them through an input window); each host stretch
  leaves the sparse product of the current table and the layer's weights and biases; each region leaves the layer function
  of these, which is the specification's layer because the two spellings of the gate agree; the closing stretch selects
  the result rows. So the three results are the specification's.
-/
import proofs.«158684_j45715631898814_1_alg».proof.Proof.KI.Run
import proofs.«158684_j45715631898814_1_alg».proof.Proof.KI.Blocks0
import proofs.«158684_j45715631898814_1_alg».proof.Proof.KI.Blocks1
import proofs.«158684_j45715631898814_1_alg».proof.Proof.KI.Blocks2
import proofs.«158684_j45715631898814_1_alg».proof.Proof.KI.HostStretch
import proofs.«158684_j45715631898814_1_alg».proof.Proof.KI.HostTail
import proofs.«158684_j45715631898814_1_alg».proof.Proof.RefLayer

set_option maxRecDepth 16384

noncomputable section

namespace Cert.KernelIdeal.Hand

open Cert.KernelIdeal Cert.KernelIdeal.Gen Cert.Layer
open Idealize.ShloMosaic Idealize.ShloMosaic.TcCoe Idealize.ShloMosaic.ValueIdx Idealize.SL.Sem
open Idealize.ShloMosaic.Pipeline (Dat)

/-- The layer function in the kernel's spelling of the gate is the specification's layer. -/
theorem layerK_eq_layer (L X : FVec Ideal S100000x64 .f32) (w1 : FVec Ideal S64x64 .f32) (b1 : FVec Ideal S1x64 .f32)
    (w2 : FVec Ideal S64x64 .f32) (b2 : FVec Ideal S1x64 .f32) :
    layerK L X w1 b1 w2 b2 = Cert.RefSpec.layer (F := Ideal) L X w1 b1 w2 b2 := by
  funext i
  obtain ⟨r, q, rfl⟩ : ∃ (r : Fin 100000) (q : Fin 64), i = ix2 r q := ⟨i 0, i 1, eq_ix2 i⟩
  rw [Cert.RefSpec.layer_apply]
  exact gate_eq _

variable (m : (ℓ : Loc nD τ sig) → Buf (Elt Ideal) ℓ) (ρ : Dev nD → PrngReg) (c : Dev nD)

/-! ## At region 0's entry -/

theorem W1_arg (r : Ref sig .tc) (h0 : r ∉ hostOps0_W) : W1 m ρ c (r : DevRef τ sig) = m ((c : Thread nD τ).loc r) :=
  (StableHlo.after_of_writes_sub hostOps0 _ hostOps0_writes h0).trans rfl
theorem W1_v0 : W1 m ρ c (main_v0 : DevRef τ sig) = (Cert.RefSpec.nodes0 (m ((c : Thread nD τ).loc main_arg3)) (m ((c : Thread nD τ).loc main_arg4))) := s0_v0 (W0 m ρ c)
theorem W1_v13 : W1 m ρ c (main_v13 : DevRef τ sig) = Cert.RefSpec.spmm (m ((c : Thread nD τ).loc main_arg0)) (m ((c : Thread nD τ).loc main_arg1)) (m ((c : Thread nD τ).loc main_arg2)) (Cert.RefSpec.nodes0 (m ((c : Thread nD τ).loc main_arg3)) (m ((c : Thread nD τ).loc main_arg4))) := s0_v13 (W0 m ρ c)
theorem W1_v15 : W1 m ρ c (main_v15 : DevRef τ sig) = Cert.RefSpec.wsl0 (m ((c : Thread nD τ).loc main_arg5)) := s0_v15 (W0 m ρ c)
theorem W1_v17 : W1 m ρ c (main_v17 : DevRef τ sig) = Cert.RefSpec.bsl0 (m ((c : Thread nD τ).loc main_arg7)) := s0_v17 (W0 m ρ c)
theorem W1_v19 : W1 m ρ c (main_v19 : DevRef τ sig) = Cert.RefSpec.wsl0 (m ((c : Thread nD τ).loc main_arg6)) := s0_v19 (W0 m ρ c)
theorem W1_v21 : W1 m ρ c (main_v21 : DevRef τ sig) = Cert.RefSpec.bsl0 (m ((c : Thread nD τ).loc main_arg8)) := s0_v21 (W0 m ρ c)

/-! ## At region 0's exit -/

theorem W2_arg (r : Ref sig .tc) (h0 : r ∉ hostOps0_W) (a0 : ∀ w, Pipeline.arrRef spec0 w ≠ r) : W2 m ρ c (r : DevRef τ sig) = m ((c : Thread nD τ).loc r) :=
  (W2_of_ne m ρ c r a0).trans (W1_arg m ρ c r h0)
theorem W2_v0 : W2 m ρ c (main_v0 : DevRef τ sig) = (Cert.RefSpec.nodes0 (m ((c : Thread nD τ).loc main_arg3)) (m ((c : Thread nD τ).loc main_arg4))) :=
  ((W2_arr m ρ c 1).trans (((dat0 (Wv1 m ρ) c).arrAt_in 1 rfl _).trans (A_eq0 (Wv1 m ρ) c 1))).trans (W1_v0 m ρ c)
theorem W2_v22 : W2 m ρ c (main_v22 : DevRef τ sig) = (Cert.RefSpec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W2_arr m ρ c 6).trans <| (final0 (Wv1 m ρ) c).trans <| (layerK_eq_layer _ _ _ _ _ _).trans <| by
    show Cert.RefSpec.layer (F := Ideal) (W1 m ρ c (main_v13 : DevRef τ sig)) (W1 m ρ c (main_v0 : DevRef τ sig)) (W1 m ρ c (main_v15 : DevRef τ sig))
      (W1 m ρ c (main_v17 : DevRef τ sig)) (W1 m ρ c (main_v19 : DevRef τ sig)) (W1 m ρ c (main_v21 : DevRef τ sig)) = _
    rw [W1_v13, W1_v0, W1_v15, W1_v17, W1_v19, W1_v21]
    rfl

/-! ## At region 1's entry -/

theorem W3_arg (r : Ref sig .tc) (h0 : r ∉ hostOps0_W) (h1 : r ∉ hostOps1_W) (a0 : ∀ w, Pipeline.arrRef spec0 w ≠ r) : W3 m ρ c (r : DevRef τ sig) = m ((c : Thread nD τ).loc r) :=
  (StableHlo.after_of_writes_sub hostOps1 _ hostOps1_writes h1).trans (W2_arg m ρ c r h0 a0)
theorem W3_v0 : W3 m ρ c (main_v0 : DevRef τ sig) = (Cert.RefSpec.nodes0 (m ((c : Thread nD τ).loc main_arg3)) (m ((c : Thread nD τ).loc main_arg4))) :=
  (StableHlo.after_of_writes_sub hostOps1 _ hostOps1_writes (by decide)).trans (W2_v0 m ρ c)
theorem W3_v22 : W3 m ρ c (main_v22 : DevRef τ sig) = (Cert.RefSpec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_writes_sub hostOps1 _ hostOps1_writes (by decide)).trans (W2_v22 m ρ c)
theorem W3_v35 : W3 m ρ c (main_v35 : DevRef τ sig) = Cert.RefSpec.spmm (m ((c : Thread nD τ).loc main_arg0)) (m ((c : Thread nD τ).loc main_arg1)) (m ((c : Thread nD τ).loc main_arg2)) (Cert.RefSpec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (s1_v35 (W2 m ρ c)).trans (by
    rw [W2_arg m ρ c main_arg0 (by decide) (by decide), W2_arg m ρ c main_arg1 (by decide) (by decide), W2_arg m ρ c main_arg2 (by decide) (by decide), W2_v22])
theorem W3_v37 : W3 m ρ c (main_v37 : DevRef τ sig) = Cert.RefSpec.wsl1 (m ((c : Thread nD τ).loc main_arg5)) :=
  (s1_v37 (W2 m ρ c)).trans (by rw [W2_arg m ρ c main_arg5 (by decide) (by decide)])
theorem W3_v39 : W3 m ρ c (main_v39 : DevRef τ sig) = Cert.RefSpec.bsl1 (m ((c : Thread nD τ).loc main_arg7)) :=
  (s1_v39 (W2 m ρ c)).trans (by rw [W2_arg m ρ c main_arg7 (by decide) (by decide)])
theorem W3_v41 : W3 m ρ c (main_v41 : DevRef τ sig) = Cert.RefSpec.wsl1 (m ((c : Thread nD τ).loc main_arg6)) :=
  (s1_v41 (W2 m ρ c)).trans (by rw [W2_arg m ρ c main_arg6 (by decide) (by decide)])
theorem W3_v43 : W3 m ρ c (main_v43 : DevRef τ sig) = Cert.RefSpec.bsl1 (m ((c : Thread nD τ).loc main_arg8)) :=
  (s1_v43 (W2 m ρ c)).trans (by rw [W2_arg m ρ c main_arg8 (by decide) (by decide)])

/-! ## At region 1's exit -/

theorem W4_arg (r : Ref sig .tc) (h0 : r ∉ hostOps0_W) (h1 : r ∉ hostOps1_W) (a0 : ∀ w, Pipeline.arrRef spec0 w ≠ r) (a1 : ∀ w, Pipeline.arrRef spec1 w ≠ r) : W4 m ρ c (r : DevRef τ sig) = m ((c : Thread nD τ).loc r) :=
  (W4_of_ne m ρ c r a1).trans (W3_arg m ρ c r h0 h1 a0)
theorem W4_v0 : W4 m ρ c (main_v0 : DevRef τ sig) = (Cert.RefSpec.nodes0 (m ((c : Thread nD τ).loc main_arg3)) (m ((c : Thread nD τ).loc main_arg4))) := (W4_of_ne m ρ c main_v0 (by decide)).trans (W3_v0 m ρ c)
theorem W4_v22 : W4 m ρ c (main_v22 : DevRef τ sig) = (Cert.RefSpec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  ((W4_arr m ρ c 1).trans (((dat1 (Wv3 m ρ) c).arrAt_in 1 rfl _).trans (A_eq1 (Wv3 m ρ) c 1))).trans (W3_v22 m ρ c)
theorem W4_v44 : W4 m ρ c (main_v44 : DevRef τ sig) = (Cert.RefSpec.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_arr m ρ c 6).trans <| (final1 (Wv3 m ρ) c).trans <| (layerK_eq_layer _ _ _ _ _ _).trans <| by
    show Cert.RefSpec.layer (F := Ideal) (W3 m ρ c (main_v35 : DevRef τ sig)) (W3 m ρ c (main_v22 : DevRef τ sig)) (W3 m ρ c (main_v37 : DevRef τ sig))
      (W3 m ρ c (main_v39 : DevRef τ sig)) (W3 m ρ c (main_v41 : DevRef τ sig)) (W3 m ρ c (main_v43 : DevRef τ sig)) = _
    rw [W3_v35, W3_v22, W3_v37, W3_v39, W3_v41, W3_v43]
    rfl

/-! ## At region 2's entry -/

theorem W5_arg (r : Ref sig .tc) (h0 : r ∉ hostOps0_W) (h1 : r ∉ hostOps1_W) (h2 : r ∉ hostOps2_W) (a0 : ∀ w, Pipeline.arrRef spec0 w ≠ r) (a1 : ∀ w, Pipeline.arrRef spec1 w ≠ r) : W5 m ρ c (r : DevRef τ sig) = m ((c : Thread nD τ).loc r) :=
  (StableHlo.after_of_writes_sub hostOps2 _ hostOps2_writes h2).trans (W4_arg m ρ c r h0 h1 a0 a1)
theorem W5_v0 : W5 m ρ c (main_v0 : DevRef τ sig) = (Cert.RefSpec.nodes0 (m ((c : Thread nD τ).loc main_arg3)) (m ((c : Thread nD τ).loc main_arg4))) :=
  (StableHlo.after_of_writes_sub hostOps2 _ hostOps2_writes (by decide)).trans (W4_v0 m ρ c)
theorem W5_v22 : W5 m ρ c (main_v22 : DevRef τ sig) = (Cert.RefSpec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_writes_sub hostOps2 _ hostOps2_writes (by decide)).trans (W4_v22 m ρ c)
theorem W5_v44 : W5 m ρ c (main_v44 : DevRef τ sig) = (Cert.RefSpec.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_writes_sub hostOps2 _ hostOps2_writes (by decide)).trans (W4_v44 m ρ c)
theorem W5_v57 : W5 m ρ c (main_v57 : DevRef τ sig) = Cert.RefSpec.spmm (m ((c : Thread nD τ).loc main_arg0)) (m ((c : Thread nD τ).loc main_arg1)) (m ((c : Thread nD τ).loc main_arg2)) (Cert.RefSpec.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (s2_v57 (W4 m ρ c)).trans (by
    rw [W4_arg m ρ c main_arg0 (by decide) (by decide) (by decide) (by decide), W4_arg m ρ c main_arg1 (by decide) (by decide) (by decide) (by decide), W4_arg m ρ c main_arg2 (by decide) (by decide) (by decide) (by decide), W4_v44])
theorem W5_v59 : W5 m ρ c (main_v59 : DevRef τ sig) = Cert.RefSpec.wsl2 (m ((c : Thread nD τ).loc main_arg5)) :=
  (s2_v59 (W4 m ρ c)).trans (by rw [W4_arg m ρ c main_arg5 (by decide) (by decide) (by decide) (by decide)])
theorem W5_v61 : W5 m ρ c (main_v61 : DevRef τ sig) = Cert.RefSpec.bsl2 (m ((c : Thread nD τ).loc main_arg7)) :=
  (s2_v61 (W4 m ρ c)).trans (by rw [W4_arg m ρ c main_arg7 (by decide) (by decide) (by decide) (by decide)])
theorem W5_v63 : W5 m ρ c (main_v63 : DevRef τ sig) = Cert.RefSpec.wsl2 (m ((c : Thread nD τ).loc main_arg6)) :=
  (s2_v63 (W4 m ρ c)).trans (by rw [W4_arg m ρ c main_arg6 (by decide) (by decide) (by decide) (by decide)])
theorem W5_v65 : W5 m ρ c (main_v65 : DevRef τ sig) = Cert.RefSpec.bsl2 (m ((c : Thread nD τ).loc main_arg8)) :=
  (s2_v65 (W4 m ρ c)).trans (by rw [W4_arg m ρ c main_arg8 (by decide) (by decide) (by decide) (by decide)])

/-! ## At region 2's exit -/

theorem W6_arg (r : Ref sig .tc) (h0 : r ∉ hostOps0_W) (h1 : r ∉ hostOps1_W) (h2 : r ∉ hostOps2_W) (a0 : ∀ w, Pipeline.arrRef spec0 w ≠ r) (a1 : ∀ w, Pipeline.arrRef spec1 w ≠ r) (a2 : ∀ w, Pipeline.arrRef spec2 w ≠ r) : W6 m ρ c (r : DevRef τ sig) = m ((c : Thread nD τ).loc r) :=
  (W6_of_ne m ρ c r a2).trans (W5_arg m ρ c r h0 h1 h2 a0 a1)
theorem W6_v0 : W6 m ρ c (main_v0 : DevRef τ sig) = (Cert.RefSpec.nodes0 (m ((c : Thread nD τ).loc main_arg3)) (m ((c : Thread nD τ).loc main_arg4))) := (W6_of_ne m ρ c main_v0 (by decide)).trans (W5_v0 m ρ c)
theorem W6_v22 : W6 m ρ c (main_v22 : DevRef τ sig) = (Cert.RefSpec.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := (W6_of_ne m ρ c main_v22 (by decide)).trans (W5_v22 m ρ c)
theorem W6_v44 : W6 m ρ c (main_v44 : DevRef τ sig) = (Cert.RefSpec.x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  ((W6_arr m ρ c 1).trans (((dat2 (Wv5 m ρ) c).arrAt_in 1 rfl _).trans (A_eq2 (Wv5 m ρ) c 1))).trans (W5_v44 m ρ c)
theorem W6_v66 : W6 m ρ c (main_v66 : DevRef τ sig) = (Cert.RefSpec.x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_arr m ρ c 6).trans <| (final2 (Wv5 m ρ) c).trans <| (layerK_eq_layer _ _ _ _ _ _).trans <| by
    show Cert.RefSpec.layer (F := Ideal) (W5 m ρ c (main_v57 : DevRef τ sig)) (W5 m ρ c (main_v44 : DevRef τ sig)) (W5 m ρ c (main_v59 : DevRef τ sig))
      (W5 m ρ c (main_v61 : DevRef τ sig)) (W5 m ρ c (main_v63 : DevRef τ sig)) (W5 m ρ c (main_v65 : DevRef τ sig)) = _
    rw [W5_v57, W5_v44, W5_v59, W5_v61, W5_v63, W5_v65]
    rfl

/-! ## After the closing stretch -/

theorem W7_v76 : W7 m ρ c (main_v76 : DevRef τ sig) = Cert.RefSpec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (s3_v76 (W6 m ρ c)).trans (by
    rw [W6_v0, W6_v22, W6_v44, W6_v66, W6_arg m ρ c main_arg9 (by decide) (by decide) (by decide) (by decide) (by decide) (by decide)]
    rfl)
theorem W7_v83 : W7 m ρ c (main_v83 : DevRef τ sig) = Cert.RefSpec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) :=
  (s3_v83 (W6 m ρ c)).trans (by
    rw [W6_v0, W6_v22, W6_v44, W6_v66, W6_arg m ρ c main_arg10 (by decide) (by decide) (by decide) (by decide) (by decide) (by decide)]
    rfl)
theorem W7_v90 : W7 m ρ c (main_v90 : DevRef τ sig) = Cert.RefSpec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) :=
  (s3_v90 (W6 m ρ c)).trans (by
    rw [W6_v0, W6_v22, W6_v44, W6_v66, W6_arg m ρ c main_arg11 (by decide) (by decide) (by decide) (by decide) (by decide) (by decide)]
    rfl)

/-- The idealized kernel's run, read: every weakly fair execution terminates with the three results at the
    specification's functions of the arguments, and the arguments unchanged. -/
theorem run_value : θ_run defs (onTc (τ := τ) (main (F := Ideal))) ⟨m, fun _ => 0, ρ⟩ (fun r => ∀ c : Dev nD,
      r.2.mem ((c.tc : Thread nD τ).loc main_v76) = Cert.RefSpec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v83) = Cert.RefSpec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10))
      ∧ r.2.mem ((c.tc : Thread nD τ).loc main_v90) = Cert.RefSpec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c main_v76 (by decide)).trans (W7_v76 m ρ c),
    (h c main_v83 (by decide)).trans (W7_v83 m ρ c),
    (h c main_v90 (by decide)).trans (W7_v90 m ρ c),
    (h c main_arg0 (by decide)).trans (W7_keep m ρ c main_arg0 (by decide) (by decide) (by decide) (by decide) (by decide) (by decide) (by decide)),
    (h c main_arg1 (by decide)).trans (W7_keep m ρ c main_arg1 (by decide) (by decide) (by decide) (by decide) (by decide) (by decide) (by decide)),
    (h c main_arg2 (by decide)).trans (W7_keep m ρ c main_arg2 (by decide) (by decide) (by decide) (by decide) (by decide) (by decide) (by decide)),
    (h c main_arg3 (by decide)).trans (W7_keep m ρ c main_arg3 (by decide) (by decide) (by decide) (by decide) (by decide) (by decide) (by decide)),
    (h c main_arg4 (by decide)).trans (W7_keep m ρ c main_arg4 (by decide) (by decide) (by decide) (by decide) (by decide) (by decide) (by decide)),
    (h c main_arg5 (by decide)).trans (W7_keep m ρ c main_arg5 (by decide) (by decide) (by decide) (by decide) (by decide) (by decide) (by decide)),
    (h c main_arg6 (by decide)).trans (W7_keep m ρ c main_arg6 (by decide) (by decide) (by decide) (by decide) (by decide) (by decide) (by decide)),
    (h c main_arg7 (by decide)).trans (W7_keep m ρ c main_arg7 (by decide) (by decide) (by decide) (by decide) (by decide) (by decide) (by decide)),
    (h c main_arg8 (by decide)).trans (W7_keep m ρ c main_arg8 (by decide) (by decide) (by decide) (by decide) (by decide) (by decide) (by decide)),
    (h c main_arg9 (by decide)).trans (W7_keep m ρ c main_arg9 (by decide) (by decide) (by decide) (by decide) (by decide) (by decide) (by decide)),
    (h c main_arg10 (by decide)).trans (W7_keep m ρ c main_arg10 (by decide) (by decide) (by decide) (by decide) (by decide) (by decide) (by decide)),
    (h c main_arg11 (by decide)).trans (W7_keep m ρ c main_arg11 (by decide) (by decide) (by decide) (by decide) (by decide) (by decide) (by decide))⟩) (run_all m ρ)

end Cert.KernelIdeal.Hand

end
-- ==== Proof.RefOps.lean ====
/-
  The reference program's @main as the list of its 151 host operations, in program order, and its run.

  @main is a straight line: the node table (users' rows on the items' rows), then three times the same
  stretch — the sparse product with the edge list (sixteen operations), the two dense products with
  their bias rows and their sum (seventeen), the slope constant, and the seven operations of the
  outlined leaky-rectifier (its zero, the zero's broadcast, the comparison, the slope's conversion and
  broadcast, the scaled table, the select of its inner function) written at the call site over the
  call's own buffers —, then the four tables side by side, the users' and the items' rows of that, and
  three row gathers at wrapped indices. Unfolding the two outlined functions at their calls and
  reassociating the sequencing turns @main into that line; every weakly fair execution of it then
  terminates with each buffer at the fold of the operations' results over the launch contents.
-/
import proofs.«158684_j45715631898814_1_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- @main's 151 operations, in order: its own 130 and, at each of the three calls, the seven of the outlined
    function and of the function that one calls, over the call's buffers. -/
abbrev ops : List (HloOp τ sig (Elt F)) :=
  [
    StableHlo.binary main_arg3 main_arg4 main_v0 ((fun a b => concatenate S100000x64 0 [⟨S60000x64, a⟩, ⟨S40000x64, b⟩] concatenates_S60000x64_S40000x64_S100000x64_d0) : (⟨S60000x64, .f32⟩ : BufTy).Contents (Elt F) → (⟨S40000x64, .f32⟩ : BufTy).Contents (Elt F) → (⟨S100000x64, .f32⟩ : BufTy).Contents (Elt F)),
    StableHlo.unary main_arg2 main_v1 (broadcastInDim S3200000x1 ![0] bcast_S3200000_S3200000x1_0 : (⟨S3200000, .f32⟩ : BufTy).Contents (Elt F) → (⟨S3200000x1, .f32⟩ : BufTy).Contents (Elt F)),
    StableHlo.nullary main_c (constantI S_ 32 0#32),
    StableHlo.unary main_c main_v2 (broadcastInDim S3200000 ![] bcast_S_S3200000 : (⟨S_, .i32⟩ : BufTy).Contents (Elt F) → (⟨S3200000, .i32⟩ : BufTy).Contents (Elt F)),
    StableHlo.binary main_arg1 main_v2 main_v3 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v4 (broadcastInDim S3200000 ![] bcast_S_S3200000 : (⟨S_, .i32⟩ : BufTy).Contents (Elt F) → (⟨S3200000, .i32⟩ : BufTy).Contents (Elt F)),
    StableHlo.binary main_arg1 main_v4 main_v5 (addi : (⟨S3200000, .i32⟩ : BufTy).Contents (Elt F) → (⟨S3200000, .i32⟩ : BufTy).Contents (Elt F) → (⟨S3200000, .i32⟩ : BufTy).Contents (Elt F)),
    StableHlo.ternary main_v3 main_v5 main_arg1 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v6 main_v7 (broadcastInDim S3200000x1 ![0] bcast_S3200000_S3200000x1_0 : (⟨S3200000, .i32⟩ : BufTy).Contents (Elt F) → (⟨S3200000x1, .i32⟩ : BufTy).Contents (Elt F)),
    StableHlo.binary main_v0 main_v7 main_v8 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v1 main_v9 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v9 main_v8 main_v10 (mulf : (⟨S3200000x64, .f32⟩ : BufTy).Contents (Elt F) → (⟨S3200000x64, .f32⟩ : BufTy).Contents (Elt F) → (⟨S3200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg0 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v19 main_v20 (addf : (⟨S100000x64, .f32⟩ : BufTy).Contents (Elt F) → (⟨S100000x64, .f32⟩ : BufTy).Contents (Elt F) → (⟨S100000x64, .f32⟩ : BufTy).Contents (Elt F)),
    StableHlo.binary main_v0 main_v13 main_v21 (mulf : (⟨S100000x64, .f32⟩ : BufTy).Contents (Elt F) → (⟨S100000x64, .f32⟩ : BufTy).Contents (Elt F) → (⟨S100000x64, .f32⟩ : BufTy).Contents (Elt F)),
    StableHlo.unary main_arg6 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v27 main_v28 (addf : (⟨S100000x64, .f32⟩ : BufTy).Contents (Elt F) → (⟨S100000x64, .f32⟩ : BufTy).Contents (Elt F) → (⟨S100000x64, .f32⟩ : BufTy).Contents (Elt F)),
    StableHlo.binary main_v20 main_v28 main_v29 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    TRef.nullary main_call0.cst (constant S_ .f32 0x00000000#32),
    TRef.unary main_call0.cst main_call0.v0 (broadcastInDim S100000x64 ![] bcast_S_S100000x64),
    TRef.binary (.of main_v29 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v29 : TRef sig ⟨S100000x64, .f32⟩) main_call0.v4 mulf,
    TRef.ternary main_call0.v1 (.of main_v29 : TRef sig ⟨S100000x64, .f32⟩) main_call0.v4 main_call0.call0.v0 select,
    StableHlo.unary main_arg2 main_v31 (broadcastInDim S3200000x1 ![0] bcast_S3200000_S3200000x1_0 : (⟨S3200000, .f32⟩ : BufTy).Contents (Elt F) → (⟨S3200000x1, .f32⟩ : BufTy).Contents (Elt F)),
    StableHlo.nullary main_c_2 (constantI S_ 32 0#32),
    StableHlo.unary main_c_2 main_v32 (broadcastInDim S3200000 ![] bcast_S_S3200000 : (⟨S_, .i32⟩ : BufTy).Contents (Elt F) → (⟨S3200000, .i32⟩ : BufTy).Contents (Elt F)),
    StableHlo.binary main_arg1 main_v32 main_v33 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v34 (broadcastInDim S3200000 ![] bcast_S_S3200000 : (⟨S_, .i32⟩ : BufTy).Contents (Elt F) → (⟨S3200000, .i32⟩ : BufTy).Contents (Elt F)),
    StableHlo.binary main_arg1 main_v34 main_v35 (addi : (⟨S3200000, .i32⟩ : BufTy).Contents (Elt F) → (⟨S3200000, .i32⟩ : BufTy).Contents (Elt F) → (⟨S3200000, .i32⟩ : BufTy).Contents (Elt F)),
    StableHlo.ternary main_v33 main_v35 main_arg1 main_v36 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v36 main_v37 (broadcastInDim S3200000x1 ![0] bcast_S3200000_S3200000x1_0 : (⟨S3200000, .i32⟩ : BufTy).Contents (Elt F) → (⟨S3200000x1, .i32⟩ : BufTy).Contents (Elt F)),
    StableHlo.binary main_v30 main_v37 main_v38 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v31 main_v39 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v39 main_v38 main_v40 (mulf : (⟨S3200000x64, .f32⟩ : BufTy).Contents (Elt F) → (⟨S3200000x64, .f32⟩ : BufTy).Contents (Elt F) → (⟨S3200000x64, .f32⟩ : BufTy).Contents (Elt F)),
    StableHlo.nullary main_cst_4 (constant S_ .f32 0x00000000#32),
    StableHlo.unary main_cst_4 main_v41 (broadcastInDim S100000x64 ![] bcast_S_S100000x64 : (⟨S_, .f32⟩ : BufTy).Contents (Elt F) → (⟨S100000x64, .f32⟩ : BufTy).Contents (Elt F)),
    StableHlo.unary main_arg0 main_v42 (broadcastInDim S3200000x1 ![0] bcast_S3200000_S3200000x1_0 : (⟨S3200000, .i32⟩ : BufTy).Contents (Elt F) → (⟨S3200000x1, .i32⟩ : BufTy).Contents (Elt F)),
    StableHlo.ternary main_v41 main_v42 main_v40 main_v43 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg5 main_v44 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v44 main_v45 rfl shapeCasts_S1x64x64_S64x64,
    StableHlo.binary main_v43 main_v45 main_v46 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v47 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v47 main_v48 rfl shapeCasts_S1x1x64_S1x64,
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v49 main_v50 (addf : (⟨S100000x64, .f32⟩ : BufTy).Contents (Elt F) → (⟨S100000x64, .f32⟩ : BufTy).Contents (Elt F) → (⟨S100000x64, .f32⟩ : BufTy).Contents (Elt F)),
    StableHlo.binary main_v30 main_v43 main_v51 (mulf : (⟨S100000x64, .f32⟩ : BufTy).Contents (Elt F) → (⟨S100000x64, .f32⟩ : BufTy).Contents (Elt F) → (⟨S100000x64, .f32⟩ : BufTy).Contents (Elt F)),
    StableHlo.unary main_arg6 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.binary main_v51 main_v53 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v55 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v55 main_v56 rfl shapeCasts_S1x1x64_S1x64,
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v57 main_v58 (addf : (⟨S100000x64, .f32⟩ : BufTy).Contents (Elt F) → (⟨S100000x64, .f32⟩ : BufTy).Contents (Elt F) → (⟨S100000x64, .f32⟩ : BufTy).Contents (Elt F)),
    StableHlo.binary main_v50 main_v58 main_v59 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3E4CCCCD#32),
    TRef.nullary main_call1.cst (constant S_ .f32 0x00000000#32),
    TRef.unary main_call1.cst main_call1.v0 (broadcastInDim S100000x64 ![] bcast_S_S100000x64),
    TRef.binary (.of main_v59 : TRef sig ⟨S100000x64, .f32⟩) main_call1.v0 main_call1.v1 (cmpf .oge),
    TRef.unary (.of main_cst_5 : TRef sig ⟨S_, .f32⟩) main_call1.v2 id,
    TRef.unary main_call1.v2 main_call1.v3 (broadcastInDim S100000x64 ![] bcast_S_S100000x64),
    TRef.binary main_call1.v3 (.of main_v59 : TRef sig ⟨S100000x64, .f32⟩) main_call1.v4 mulf,
    TRef.ternary main_call1.v1 (.of main_v59 : TRef sig ⟨S100000x64, .f32⟩) main_call1.v4 main_call1.call0.v0 select,
    StableHlo.unary main_arg2 main_v61 (broadcastInDim S3200000x1 ![0] bcast_S3200000_S3200000x1_0 : (⟨S3200000, .f32⟩ : BufTy).Contents (Elt F) → (⟨S3200000x1, .f32⟩ : BufTy).Contents (Elt F)),
    StableHlo.nullary main_c_6 (constantI S_ 32 0#32),
    StableHlo.unary main_c_6 main_v62 (broadcastInDim S3200000 ![] bcast_S_S3200000 : (⟨S_, .i32⟩ : BufTy).Contents (Elt F) → (⟨S3200000, .i32⟩ : BufTy).Contents (Elt F)),
    StableHlo.binary main_arg1 main_v62 main_v63 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v64 (broadcastInDim S3200000 ![] bcast_S_S3200000 : (⟨S_, .i32⟩ : BufTy).Contents (Elt F) → (⟨S3200000, .i32⟩ : BufTy).Contents (Elt F)),
    StableHlo.binary main_arg1 main_v64 main_v65 (addi : (⟨S3200000, .i32⟩ : BufTy).Contents (Elt F) → (⟨S3200000, .i32⟩ : BufTy).Contents (Elt F) → (⟨S3200000, .i32⟩ : BufTy).Contents (Elt F)),
    StableHlo.ternary main_v63 main_v65 main_arg1 main_v66 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v66 main_v67 (broadcastInDim S3200000x1 ![0] bcast_S3200000_S3200000x1_0 : (⟨S3200000, .i32⟩ : BufTy).Contents (Elt F) → (⟨S3200000x1, .i32⟩ : BufTy).Contents (Elt F)),
    StableHlo.binary main_v60 main_v67 main_v68 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v61 main_v69 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v69 main_v68 main_v70 (mulf : (⟨S3200000x64, .f32⟩ : BufTy).Contents (Elt F) → (⟨S3200000x64, .f32⟩ : BufTy).Contents (Elt F) → (⟨S3200000x64, .f32⟩ : BufTy).Contents (Elt F)),
    StableHlo.nullary main_cst_8 (constant S_ .f32 0x00000000#32),
    StableHlo.unary main_cst_8 main_v71 (broadcastInDim S100000x64 ![] bcast_S_S100000x64 : (⟨S_, .f32⟩ : BufTy).Contents (Elt F) → (⟨S100000x64, .f32⟩ : BufTy).Contents (Elt F)),
    StableHlo.unary main_arg0 main_v72 (broadcastInDim S3200000x1 ![0] bcast_S3200000_S3200000x1_0 : (⟨S3200000, .i32⟩ : BufTy).Contents (Elt F) → (⟨S3200000x1, .i32⟩ : BufTy).Contents (Elt F)),
    StableHlo.ternary main_v71 main_v72 main_v70 main_v73 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg5 main_v74 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v74 main_v75 rfl shapeCasts_S1x64x64_S64x64,
    StableHlo.binary main_v73 main_v75 main_v76 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v77 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v77 main_v78 rfl shapeCasts_S1x1x64_S1x64,
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v76 main_v79 main_v80 (addf : (⟨S100000x64, .f32⟩ : BufTy).Contents (Elt F) → (⟨S100000x64, .f32⟩ : BufTy).Contents (Elt F) → (⟨S100000x64, .f32⟩ : BufTy).Contents (Elt F)),
    StableHlo.binary main_v60 main_v73 main_v81 (mulf : (⟨S100000x64, .f32⟩ : BufTy).Contents (Elt F) → (⟨S100000x64, .f32⟩ : BufTy).Contents (Elt F) → (⟨S100000x64, .f32⟩ : BufTy).Contents (Elt F)),
    StableHlo.unary main_arg6 main_v82 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v82 main_v83 rfl shapeCasts_S1x64x64_S64x64,
    StableHlo.binary main_v81 main_v83 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v85 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v85 main_v86 rfl shapeCasts_S1x1x64_S1x64,
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v87 main_v88 (addf : (⟨S100000x64, .f32⟩ : BufTy).Contents (Elt F) → (⟨S100000x64, .f32⟩ : BufTy).Contents (Elt F) → (⟨S100000x64, .f32⟩ : BufTy).Contents (Elt F)),
    StableHlo.binary main_v80 main_v88 main_v89 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3E4CCCCD#32),
    TRef.nullary main_call2.cst (constant S_ .f32 0x00000000#32),
    TRef.unary main_call2.cst main_call2.v0 (broadcastInDim S100000x64 ![] bcast_S_S100000x64),
    TRef.binary (.of main_v89 : TRef sig ⟨S100000x64, .f32⟩) main_call2.v0 main_call2.v1 (cmpf .oge),
    TRef.unary (.of main_cst_9 : TRef sig ⟨S_, .f32⟩) main_call2.v2 id,
    TRef.unary main_call2.v2 main_call2.v3 (broadcastInDim S100000x64 ![] bcast_S_S100000x64),
    TRef.binary main_call2.v3 (.of main_v89 : TRef sig ⟨S100000x64, .f32⟩) main_call2.v4 mulf,
    TRef.ternary main_call2.v1 (.of main_v89 : TRef sig ⟨S100000x64, .f32⟩) main_call2.v4 main_call2.call0.v0 select,
    StableHlo.nary ![main_v0, main_v30, main_v60, main_v90] main_v91 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.unary main_v91 main_v92 ((extractStridedSlice S60000x256 ![0, 0] · slices_S100000x256_S60000x256_0_0) : (⟨S100000x256, .f32⟩ : BufTy).Contents (Elt F) → (⟨S60000x256, .f32⟩ : BufTy).Contents (Elt F)),
    StableHlo.unary main_v91 main_v93 ((extractStridedSlice S40000x256 ![60000, 0] · slices_S100000x256_S40000x256_60000_0) : (⟨S100000x256, .f32⟩ : BufTy).Contents (Elt F) → (⟨S40000x256, .f32⟩ : BufTy).Contents (Elt F)),
    StableHlo.nullary main_c_10 (constantI S_ 32 0#32),
    StableHlo.unary main_c_10 main_v94 (broadcastInDim S1024 ![] bcast_S_S1024 : (⟨S_, .i32⟩ : BufTy).Contents (Elt F) → (⟨S1024, .i32⟩ : BufTy).Contents (Elt F)),
    StableHlo.binary main_arg9 main_v94 main_v95 (cmpi .slt : (⟨S1024, .i32⟩ : BufTy).Contents (Elt F) → (⟨S1024, .i32⟩ : BufTy).Contents (Elt F) → (⟨S1024, .i1⟩ : BufTy).Contents (Elt F)),
    StableHlo.nullary main_c_11 (constantI S_ 32 60000#32),
    StableHlo.unary main_c_11 main_v96 (broadcastInDim S1024 ![] bcast_S_S1024 : (⟨S_, .i32⟩ : BufTy).Contents (Elt F) → (⟨S1024, .i32⟩ : BufTy).Contents (Elt F)),
    StableHlo.binary main_arg9 main_v96 main_v97 (addi : (⟨S1024, .i32⟩ : BufTy).Contents (Elt F) → (⟨S1024, .i32⟩ : BufTy).Contents (Elt F) → (⟨S1024, .i32⟩ : BufTy).Contents (Elt F)),
    StableHlo.ternary main_v95 main_v97 main_arg9 main_v98 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v98 main_v99 (broadcastInDim S1024x1 ![0] bcast_S1024_S1024x1_0 : (⟨S1024, .i32⟩ : BufTy).Contents (Elt F) → (⟨S1024x1, .i32⟩ : BufTy).Contents (Elt F)),
    StableHlo.binary main_v92 main_v99 main_v100 ((fun x i => Host.gather gather_S60000x256_S1024x1_S1024x256_1_0_n_n_0_1_1256 x i) : (⟨S60000x256, .f32⟩ : BufTy).Contents (Elt F) → (⟨S1024x1, .i32⟩ : BufTy).Contents (Elt F) → (⟨S1024x256, .f32⟩ : BufTy).Contents (Elt F)),
    StableHlo.nullary main_c_12 (constantI S_ 32 0#32),
    StableHlo.unary main_c_12 main_v101 (broadcastInDim S1024 ![] bcast_S_S1024 : (⟨S_, .i32⟩ : BufTy).Contents (Elt F) → (⟨S1024, .i32⟩ : BufTy).Contents (Elt F)),
    StableHlo.binary main_arg10 main_v101 main_v102 (cmpi .slt : (⟨S1024, .i32⟩ : BufTy).Contents (Elt F) → (⟨S1024, .i32⟩ : BufTy).Contents (Elt F) → (⟨S1024, .i1⟩ : BufTy).Contents (Elt F)),
    StableHlo.nullary main_c_13 (constantI S_ 32 40000#32),
    StableHlo.unary main_c_13 main_v103 (broadcastInDim S1024 ![] bcast_S_S1024 : (⟨S_, .i32⟩ : BufTy).Contents (Elt F) → (⟨S1024, .i32⟩ : BufTy).Contents (Elt F)),
    StableHlo.binary main_arg10 main_v103 main_v104 (addi : (⟨S1024, .i32⟩ : BufTy).Contents (Elt F) → (⟨S1024, .i32⟩ : BufTy).Contents (Elt F) → (⟨S1024, .i32⟩ : BufTy).Contents (Elt F)),
    StableHlo.ternary main_v102 main_v104 main_arg10 main_v105 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v105 main_v106 (broadcastInDim S1024x1 ![0] bcast_S1024_S1024x1_0 : (⟨S1024, .i32⟩ : BufTy).Contents (Elt F) → (⟨S1024x1, .i32⟩ : BufTy).Contents (Elt F)),
    StableHlo.binary main_v93 main_v106 main_v107 ((fun x i => Host.gather gather_S40000x256_S1024x1_S1024x256_1_0_n_n_0_1_1256 x i) : (⟨S40000x256, .f32⟩ : BufTy).Contents (Elt F) → (⟨S1024x1, .i32⟩ : BufTy).Contents (Elt F) → (⟨S1024x256, .f32⟩ : BufTy).Contents (Elt F)),
    StableHlo.nullary main_c_14 (constantI S_ 32 0#32),
    StableHlo.unary main_c_14 main_v108 (broadcastInDim S1024 ![] bcast_S_S1024 : (⟨S_, .i32⟩ : BufTy).Contents (Elt F) → (⟨S1024, .i32⟩ : BufTy).Contents (Elt F)),
    StableHlo.binary main_arg11 main_v108 main_v109 (cmpi .slt : (⟨S1024, .i32⟩ : BufTy).Contents (Elt F) → (⟨S1024, .i32⟩ : BufTy).Contents (Elt F) → (⟨S1024, .i1⟩ : BufTy).Contents (Elt F)),
    StableHlo.nullary main_c_15 (constantI S_ 32 40000#32),
    StableHlo.unary main_c_15 main_v110 (broadcastInDim S1024 ![] bcast_S_S1024 : (⟨S_, .i32⟩ : BufTy).Contents (Elt F) → (⟨S1024, .i32⟩ : BufTy).Contents (Elt F)),
    StableHlo.binary main_arg11 main_v110 main_v111 (addi : (⟨S1024, .i32⟩ : BufTy).Contents (Elt F) → (⟨S1024, .i32⟩ : BufTy).Contents (Elt F) → (⟨S1024, .i32⟩ : BufTy).Contents (Elt F)),
    StableHlo.ternary main_v109 main_v111 main_arg11 main_v112 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v112 main_v113 (broadcastInDim S1024x1 ![0] bcast_S1024_S1024x1_0 : (⟨S1024, .i32⟩ : BufTy).Contents (Elt F) → (⟨S1024x1, .i32⟩ : BufTy).Contents (Elt F)),
    StableHlo.binary main_v93 main_v113 main_v114 ((fun x i => Host.gather gather_S40000x256_S1024x1_S1024x256_1_0_n_n_0_1_1256 x i) : (⟨S40000x256, .f32⟩ : BufTy).Contents (Elt F) → (⟨S1024x1, .i32⟩ : BufTy).Contents (Elt F) → (⟨S1024x256, .f32⟩ : BufTy).Contents (Elt F)) ]

-- 151 binds reassociated: the rewrite under the chain recurses once per statement
set_option maxRecDepth 8192 in
set_option maxHeartbeats 4000000 in
/-- @main is that straight line: the three windows and the two outlined functions unfolded, the records at
    their fields, both sides are one chain of steps once sequencing is reassociated. -/
theorem main_eq (c : Dev nD) : main (F := F) c = seq ops := by
  simp only [main, main_part0, main_part1, main_part2, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., binary_bufs_sub ..,
    binary_bufs_sub .., unary_bufs_sub .., reshape_bufs_sub .., binary_bufs_sub .., unary_bufs_sub .., reshape_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., reshape_bufs_sub .., binary_bufs_sub ..,
    unary_bufs_sub .., reshape_bufs_sub .., unary_bufs_sub .., binary_bufs_sub .., binary_bufs_sub .., unary_bufs_sub ..,
    reshape_bufs_sub .., binary_bufs_sub .., unary_bufs_sub .., reshape_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., reshape_bufs_sub .., binary_bufs_sub .., unary_bufs_sub .., reshape_bufs_sub ..,
    unary_bufs_sub .., binary_bufs_sub .., binary_bufs_sub .., unary_bufs_sub .., reshape_bufs_sub .., binary_bufs_sub ..,
    unary_bufs_sub .., reshape_bufs_sub .., unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub .., nary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..⟩

set_option maxRecDepth 8192 in
set_option maxHeartbeats 4000000 in
/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

end Cert.ReferenceIdeal.RefRun

end
-- ==== Proof.RefPieces.lean ====
/-
  The reference's 151 operations cut into twelve consecutive stretches — the node table; three times
  the sparse product and the dense part with its rectifier; the wide table, its two row ranges, and
  the three row gathers — so that what a buffer holds after the whole line is read stretch by stretch.
  Each stretch comes with the list of the buffers it writes: a buffer outside that list keeps its
  contents across the stretch.
-/
import proofs.«158684_j45715631898814_1_alg».proof.Proof.RefOps

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- Operations 1 … 1 of 151: the node table: the users' rows on the items' rows. -/
abbrev cat0 : List (HloOp τ sig (Elt F)) :=
  [
    StableHlo.binary main_arg3 main_arg4 main_v0 ((fun a b => concatenate S100000x64 0 [⟨S60000x64, a⟩, ⟨S40000x64, b⟩] concatenates_S60000x64_S40000x64_S100000x64_d0) : (⟨S60000x64, .f32⟩ : BufTy).Contents (Elt F) → (⟨S40000x64, .f32⟩ : BufTy).Contents (Elt F) → (⟨S100000x64, .f32⟩ : BufTy).Contents (Elt F)) ]

/-- The buffers that stretch writes, in order. -/
abbrev wr_cat0 : List (Ref sig .tc) :=
  [main_v0]

/-- Operations 2 … 17 of 151: the first sparse product with the edge list. -/
abbrev sp1 : List (HloOp τ sig (Elt F)) :=
  [
    StableHlo.unary main_arg2 main_v1 (broadcastInDim S3200000x1 ![0] bcast_S3200000_S3200000x1_0 : (⟨S3200000, .f32⟩ : BufTy).Contents (Elt F) → (⟨S3200000x1, .f32⟩ : BufTy).Contents (Elt F)),
    StableHlo.nullary main_c (constantI S_ 32 0#32),
    StableHlo.unary main_c main_v2 (broadcastInDim S3200000 ![] bcast_S_S3200000 : (⟨S_, .i32⟩ : BufTy).Contents (Elt F) → (⟨S3200000, .i32⟩ : BufTy).Contents (Elt F)),
    StableHlo.binary main_arg1 main_v2 main_v3 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v4 (broadcastInDim S3200000 ![] bcast_S_S3200000 : (⟨S_, .i32⟩ : BufTy).Contents (Elt F) → (⟨S3200000, .i32⟩ : BufTy).Contents (Elt F)),
    StableHlo.binary main_arg1 main_v4 main_v5 (addi : (⟨S3200000, .i32⟩ : BufTy).Contents (Elt F) → (⟨S3200000, .i32⟩ : BufTy).Contents (Elt F) → (⟨S3200000, .i32⟩ : BufTy).Contents (Elt F)),
    StableHlo.ternary main_v3 main_v5 main_arg1 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v6 main_v7 (broadcastInDim S3200000x1 ![0] bcast_S3200000_S3200000x1_0 : (⟨S3200000, .i32⟩ : BufTy).Contents (Elt F) → (⟨S3200000x1, .i32⟩ : BufTy).Contents (Elt F)),
    StableHlo.binary main_v0 main_v7 main_v8 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v1 main_v9 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v9 main_v8 main_v10 (mulf : (⟨S3200000x64, .f32⟩ : BufTy).Contents (Elt F) → (⟨S3200000x64, .f32⟩ : BufTy).Contents (Elt F) → (⟨S3200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg0 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- The buffers that stretch writes, in order. -/
abbrev wr_sp1 : List (Ref sig .tc) :=
  [main_v1, main_c, main_v2, main_v3, main_c_0, main_v4, main_v5, main_v6, main_v7, main_v8, main_v9, main_v10, main_cst, main_v11, main_v12, main_v13]

/-- Operations 18 … 41 of 151: the first layer's dense products, bias rows, sum and leaky rectifier. -/
abbrev ly1 : List (HloOp τ sig (Elt F)) :=
  [
    StableHlo.unary main_arg5 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v19 main_v20 (addf : (⟨S100000x64, .f32⟩ : BufTy).Contents (Elt F) → (⟨S100000x64, .f32⟩ : BufTy).Contents (Elt F) → (⟨S100000x64, .f32⟩ : BufTy).Contents (Elt F)),
    StableHlo.binary main_v0 main_v13 main_v21 (mulf : (⟨S100000x64, .f32⟩ : BufTy).Contents (Elt F) → (⟨S100000x64, .f32⟩ : BufTy).Contents (Elt F) → (⟨S100000x64, .f32⟩ : BufTy).Contents (Elt F)),
    StableHlo.unary main_arg6 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v27 main_v28 (addf : (⟨S100000x64, .f32⟩ : BufTy).Contents (Elt F) → (⟨S100000x64, .f32⟩ : BufTy).Contents (Elt F) → (⟨S100000x64, .f32⟩ : BufTy).Contents (Elt F)),
    StableHlo.binary main_v20 main_v28 main_v29 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    TRef.nullary main_call0.cst (constant S_ .f32 0x00000000#32),
    TRef.unary main_call0.cst main_call0.v0 (broadcastInDim S100000x64 ![] bcast_S_S100000x64),
    TRef.binary (.of main_v29 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v29 : TRef sig ⟨S100000x64, .f32⟩) main_call0.v4 mulf,
    TRef.ternary main_call0.v1 (.of main_v29 : TRef sig ⟨S100000x64, .f32⟩) main_call0.v4 main_call0.call0.v0 select ]

/-- The buffers that stretch writes, in order. -/
abbrev wr_ly1 : List (Ref sig .tc) :=
  [main_v14, main_v15, main_v16, main_v17, main_v18, main_v19, main_v20, main_v21, main_v22, main_v23, main_v24, main_v25, main_v26, main_v27, main_v28, main_v29, main_cst_1, main_call0_cst, main_call0_v0, main_call0_v1, main_call0_v2, main_call0_v3, main_call0_v4, main_v30]

/-- Operations 42 … 57 of 151: the second sparse product. -/
abbrev sp2 : List (HloOp τ sig (Elt F)) :=
  [
    StableHlo.unary main_arg2 main_v31 (broadcastInDim S3200000x1 ![0] bcast_S3200000_S3200000x1_0 : (⟨S3200000, .f32⟩ : BufTy).Contents (Elt F) → (⟨S3200000x1, .f32⟩ : BufTy).Contents (Elt F)),
    StableHlo.nullary main_c_2 (constantI S_ 32 0#32),
    StableHlo.unary main_c_2 main_v32 (broadcastInDim S3200000 ![] bcast_S_S3200000 : (⟨S_, .i32⟩ : BufTy).Contents (Elt F) → (⟨S3200000, .i32⟩ : BufTy).Contents (Elt F)),
    StableHlo.binary main_arg1 main_v32 main_v33 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v34 (broadcastInDim S3200000 ![] bcast_S_S3200000 : (⟨S_, .i32⟩ : BufTy).Contents (Elt F) → (⟨S3200000, .i32⟩ : BufTy).Contents (Elt F)),
    StableHlo.binary main_arg1 main_v34 main_v35 (addi : (⟨S3200000, .i32⟩ : BufTy).Contents (Elt F) → (⟨S3200000, .i32⟩ : BufTy).Contents (Elt F) → (⟨S3200000, .i32⟩ : BufTy).Contents (Elt F)),
    StableHlo.ternary main_v33 main_v35 main_arg1 main_v36 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v36 main_v37 (broadcastInDim S3200000x1 ![0] bcast_S3200000_S3200000x1_0 : (⟨S3200000, .i32⟩ : BufTy).Contents (Elt F) → (⟨S3200000x1, .i32⟩ : BufTy).Contents (Elt F)),
    StableHlo.binary main_v30 main_v37 main_v38 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v31 main_v39 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v39 main_v38 main_v40 (mulf : (⟨S3200000x64, .f32⟩ : BufTy).Contents (Elt F) → (⟨S3200000x64, .f32⟩ : BufTy).Contents (Elt F) → (⟨S3200000x64, .f32⟩ : BufTy).Contents (Elt F)),
    StableHlo.nullary main_cst_4 (constant S_ .f32 0x00000000#32),
    StableHlo.unary main_cst_4 main_v41 (broadcastInDim S100000x64 ![] bcast_S_S100000x64 : (⟨S_, .f32⟩ : BufTy).Contents (Elt F) → (⟨S100000x64, .f32⟩ : BufTy).Contents (Elt F)),
    StableHlo.unary main_arg0 main_v42 (broadcastInDim S3200000x1 ![0] bcast_S3200000_S3200000x1_0 : (⟨S3200000, .i32⟩ : BufTy).Contents (Elt F) → (⟨S3200000x1, .i32⟩ : BufTy).Contents (Elt F)),
    StableHlo.ternary main_v41 main_v42 main_v40 main_v43 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- The buffers that stretch writes, in order. -/
abbrev wr_sp2 : List (Ref sig .tc) :=
  [main_v31, main_c_2, main_v32, main_v33, main_c_3, main_v34, main_v35, main_v36, main_v37, main_v38, main_v39, main_v40, main_cst_4, main_v41, main_v42, main_v43]

/-- Operations 58 … 81 of 151: the second layer's dense part and rectifier. -/
abbrev ly2 : List (HloOp τ sig (Elt F)) :=
  [
    StableHlo.unary main_arg5 main_v44 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v44 main_v45 rfl shapeCasts_S1x64x64_S64x64,
    StableHlo.binary main_v43 main_v45 main_v46 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v47 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v47 main_v48 rfl shapeCasts_S1x1x64_S1x64,
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v49 main_v50 (addf : (⟨S100000x64, .f32⟩ : BufTy).Contents (Elt F) → (⟨S100000x64, .f32⟩ : BufTy).Contents (Elt F) → (⟨S100000x64, .f32⟩ : BufTy).Contents (Elt F)),
    StableHlo.binary main_v30 main_v43 main_v51 (mulf : (⟨S100000x64, .f32⟩ : BufTy).Contents (Elt F) → (⟨S100000x64, .f32⟩ : BufTy).Contents (Elt F) → (⟨S100000x64, .f32⟩ : BufTy).Contents (Elt F)),
    StableHlo.unary main_arg6 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.binary main_v51 main_v53 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v55 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v55 main_v56 rfl shapeCasts_S1x1x64_S1x64,
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v57 main_v58 (addf : (⟨S100000x64, .f32⟩ : BufTy).Contents (Elt F) → (⟨S100000x64, .f32⟩ : BufTy).Contents (Elt F) → (⟨S100000x64, .f32⟩ : BufTy).Contents (Elt F)),
    StableHlo.binary main_v50 main_v58 main_v59 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3E4CCCCD#32),
    TRef.nullary main_call1.cst (constant S_ .f32 0x00000000#32),
    TRef.unary main_call1.cst main_call1.v0 (broadcastInDim S100000x64 ![] bcast_S_S100000x64),
    TRef.binary (.of main_v59 : TRef sig ⟨S100000x64, .f32⟩) main_call1.v0 main_call1.v1 (cmpf .oge),
    TRef.unary (.of main_cst_5 : TRef sig ⟨S_, .f32⟩) main_call1.v2 id,
    TRef.unary main_call1.v2 main_call1.v3 (broadcastInDim S100000x64 ![] bcast_S_S100000x64),
    TRef.binary main_call1.v3 (.of main_v59 : TRef sig ⟨S100000x64, .f32⟩) main_call1.v4 mulf,
    TRef.ternary main_call1.v1 (.of main_v59 : TRef sig ⟨S100000x64, .f32⟩) main_call1.v4 main_call1.call0.v0 select ]

/-- The buffers that stretch writes, in order. -/
abbrev wr_ly2 : List (Ref sig .tc) :=
  [main_v44, main_v45, main_v46, main_v47, main_v48, main_v49, main_v50, main_v51, main_v52, main_v53, main_v54, main_v55, main_v56, main_v57, main_v58, main_v59, main_cst_5, main_call1_cst, main_call1_v0, main_call1_v1, main_call1_v2, main_call1_v3, main_call1_v4, main_v60]

/-- Operations 82 … 97 of 151: the third sparse product. -/
abbrev sp3 : List (HloOp τ sig (Elt F)) :=
  [
    StableHlo.unary main_arg2 main_v61 (broadcastInDim S3200000x1 ![0] bcast_S3200000_S3200000x1_0 : (⟨S3200000, .f32⟩ : BufTy).Contents (Elt F) → (⟨S3200000x1, .f32⟩ : BufTy).Contents (Elt F)),
    StableHlo.nullary main_c_6 (constantI S_ 32 0#32),
    StableHlo.unary main_c_6 main_v62 (broadcastInDim S3200000 ![] bcast_S_S3200000 : (⟨S_, .i32⟩ : BufTy).Contents (Elt F) → (⟨S3200000, .i32⟩ : BufTy).Contents (Elt F)),
    StableHlo.binary main_arg1 main_v62 main_v63 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v64 (broadcastInDim S3200000 ![] bcast_S_S3200000 : (⟨S_, .i32⟩ : BufTy).Contents (Elt F) → (⟨S3200000, .i32⟩ : BufTy).Contents (Elt F)),
    StableHlo.binary main_arg1 main_v64 main_v65 (addi : (⟨S3200000, .i32⟩ : BufTy).Contents (Elt F) → (⟨S3200000, .i32⟩ : BufTy).Contents (Elt F) → (⟨S3200000, .i32⟩ : BufTy).Contents (Elt F)),
    StableHlo.ternary main_v63 main_v65 main_arg1 main_v66 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v66 main_v67 (broadcastInDim S3200000x1 ![0] bcast_S3200000_S3200000x1_0 : (⟨S3200000, .i32⟩ : BufTy).Contents (Elt F) → (⟨S3200000x1, .i32⟩ : BufTy).Contents (Elt F)),
    StableHlo.binary main_v60 main_v67 main_v68 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v61 main_v69 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v69 main_v68 main_v70 (mulf : (⟨S3200000x64, .f32⟩ : BufTy).Contents (Elt F) → (⟨S3200000x64, .f32⟩ : BufTy).Contents (Elt F) → (⟨S3200000x64, .f32⟩ : BufTy).Contents (Elt F)),
    StableHlo.nullary main_cst_8 (constant S_ .f32 0x00000000#32),
    StableHlo.unary main_cst_8 main_v71 (broadcastInDim S100000x64 ![] bcast_S_S100000x64 : (⟨S_, .f32⟩ : BufTy).Contents (Elt F) → (⟨S100000x64, .f32⟩ : BufTy).Contents (Elt F)),
    StableHlo.unary main_arg0 main_v72 (broadcastInDim S3200000x1 ![0] bcast_S3200000_S3200000x1_0 : (⟨S3200000, .i32⟩ : BufTy).Contents (Elt F) → (⟨S3200000x1, .i32⟩ : BufTy).Contents (Elt F)),
    StableHlo.ternary main_v71 main_v72 main_v70 main_v73 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- The buffers that stretch writes, in order. -/
abbrev wr_sp3 : List (Ref sig .tc) :=
  [main_v61, main_c_6, main_v62, main_v63, main_c_7, main_v64, main_v65, main_v66, main_v67, main_v68, main_v69, main_v70, main_cst_8, main_v71, main_v72, main_v73]

/-- Operations 98 … 121 of 151: the third layer's dense part and rectifier. -/
abbrev ly3 : List (HloOp τ sig (Elt F)) :=
  [
    StableHlo.unary main_arg5 main_v74 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v74 main_v75 rfl shapeCasts_S1x64x64_S64x64,
    StableHlo.binary main_v73 main_v75 main_v76 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v77 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v77 main_v78 rfl shapeCasts_S1x1x64_S1x64,
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v76 main_v79 main_v80 (addf : (⟨S100000x64, .f32⟩ : BufTy).Contents (Elt F) → (⟨S100000x64, .f32⟩ : BufTy).Contents (Elt F) → (⟨S100000x64, .f32⟩ : BufTy).Contents (Elt F)),
    StableHlo.binary main_v60 main_v73 main_v81 (mulf : (⟨S100000x64, .f32⟩ : BufTy).Contents (Elt F) → (⟨S100000x64, .f32⟩ : BufTy).Contents (Elt F) → (⟨S100000x64, .f32⟩ : BufTy).Contents (Elt F)),
    StableHlo.unary main_arg6 main_v82 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v82 main_v83 rfl shapeCasts_S1x64x64_S64x64,
    StableHlo.binary main_v81 main_v83 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v85 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v85 main_v86 rfl shapeCasts_S1x1x64_S1x64,
    StableHlo.unary main_v86 main_v87 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v87 main_v88 (addf : (⟨S100000x64, .f32⟩ : BufTy).Contents (Elt F) → (⟨S100000x64, .f32⟩ : BufTy).Contents (Elt F) → (⟨S100000x64, .f32⟩ : BufTy).Contents (Elt F)),
    StableHlo.binary main_v80 main_v88 main_v89 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3E4CCCCD#32),
    TRef.nullary main_call2.cst (constant S_ .f32 0x00000000#32),
    TRef.unary main_call2.cst main_call2.v0 (broadcastInDim S100000x64 ![] bcast_S_S100000x64),
    TRef.binary (.of main_v89 : TRef sig ⟨S100000x64, .f32⟩) main_call2.v0 main_call2.v1 (cmpf .oge),
    TRef.unary (.of main_cst_9 : TRef sig ⟨S_, .f32⟩) main_call2.v2 id,
    TRef.unary main_call2.v2 main_call2.v3 (broadcastInDim S100000x64 ![] bcast_S_S100000x64),
    TRef.binary main_call2.v3 (.of main_v89 : TRef sig ⟨S100000x64, .f32⟩) main_call2.v4 mulf,
    TRef.ternary main_call2.v1 (.of main_v89 : TRef sig ⟨S100000x64, .f32⟩) main_call2.v4 main_call2.call0.v0 select ]

/-- The buffers that stretch writes, in order. -/
abbrev wr_ly3 : List (Ref sig .tc) :=
  [main_v74, main_v75, main_v76, main_v77, main_v78, main_v79, main_v80, main_v81, main_v82, main_v83, main_v84, main_v85, main_v86, main_v87, main_v88, main_v89, main_cst_9, main_call2_cst, main_call2_v0, main_call2_v1, main_call2_v2, main_call2_v3, main_call2_v4, main_v90]

/-- Operations 122 … 122 of 151: the four tables side by side. -/
abbrev cat : List (HloOp τ sig (Elt F)) :=
  [
    StableHlo.nary ![main_v0, main_v30, main_v60, main_v90] main_v91 (fun u => concatenate S100000x256 1 [⟨S100000x64, u 0⟩, ⟨S100000x64, u 1⟩, ⟨S100000x64, u 2⟩, ⟨S100000x64, u 3⟩] concatenates_S100000x64_S100000x64_S100000x64_S100000x64_S100000x256_d1) ]

/-- The buffers that stretch writes, in order. -/
abbrev wr_cat : List (Ref sig .tc) :=
  [main_v91]

/-- Operations 123 … 124 of 151: the users' rows and the items' rows of the wide table. -/
abbrev cut : List (HloOp τ sig (Elt F)) :=
  [
    StableHlo.unary main_v91 main_v92 ((extractStridedSlice S60000x256 ![0, 0] · slices_S100000x256_S60000x256_0_0) : (⟨S100000x256, .f32⟩ : BufTy).Contents (Elt F) → (⟨S60000x256, .f32⟩ : BufTy).Contents (Elt F)),
    StableHlo.unary main_v91 main_v93 ((extractStridedSlice S40000x256 ![60000, 0] · slices_S100000x256_S40000x256_60000_0) : (⟨S100000x256, .f32⟩ : BufTy).Contents (Elt F) → (⟨S40000x256, .f32⟩ : BufTy).Contents (Elt F)) ]

/-- The buffers that stretch writes, in order. -/
abbrev wr_cut : List (Ref sig .tc) :=
  [main_v92, main_v93]

/-- Operations 125 … 133 of 151: the users' rows at the sampled indices, negative ones wrapped. -/
abbrev tk0 : List (HloOp τ sig (Elt F)) :=
  [
    StableHlo.nullary main_c_10 (constantI S_ 32 0#32),
    StableHlo.unary main_c_10 main_v94 (broadcastInDim S1024 ![] bcast_S_S1024 : (⟨S_, .i32⟩ : BufTy).Contents (Elt F) → (⟨S1024, .i32⟩ : BufTy).Contents (Elt F)),
    StableHlo.binary main_arg9 main_v94 main_v95 (cmpi .slt : (⟨S1024, .i32⟩ : BufTy).Contents (Elt F) → (⟨S1024, .i32⟩ : BufTy).Contents (Elt F) → (⟨S1024, .i1⟩ : BufTy).Contents (Elt F)),
    StableHlo.nullary main_c_11 (constantI S_ 32 60000#32),
    StableHlo.unary main_c_11 main_v96 (broadcastInDim S1024 ![] bcast_S_S1024 : (⟨S_, .i32⟩ : BufTy).Contents (Elt F) → (⟨S1024, .i32⟩ : BufTy).Contents (Elt F)),
    StableHlo.binary main_arg9 main_v96 main_v97 (addi : (⟨S1024, .i32⟩ : BufTy).Contents (Elt F) → (⟨S1024, .i32⟩ : BufTy).Contents (Elt F) → (⟨S1024, .i32⟩ : BufTy).Contents (Elt F)),
    StableHlo.ternary main_v95 main_v97 main_arg9 main_v98 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v98 main_v99 (broadcastInDim S1024x1 ![0] bcast_S1024_S1024x1_0 : (⟨S1024, .i32⟩ : BufTy).Contents (Elt F) → (⟨S1024x1, .i32⟩ : BufTy).Contents (Elt F)),
    StableHlo.binary main_v92 main_v99 main_v100 ((fun x i => Host.gather gather_S60000x256_S1024x1_S1024x256_1_0_n_n_0_1_1256 x i) : (⟨S60000x256, .f32⟩ : BufTy).Contents (Elt F) → (⟨S1024x1, .i32⟩ : BufTy).Contents (Elt F) → (⟨S1024x256, .f32⟩ : BufTy).Contents (Elt F)) ]

/-- The buffers that stretch writes, in order. -/
abbrev wr_tk0 : List (Ref sig .tc) :=
  [main_c_10, main_v94, main_v95, main_c_11, main_v96, main_v97, main_v98, main_v99, main_v100]

/-- Operations 134 … 142 of 151: the items' rows at the observed indices. -/
abbrev tk1 : List (HloOp τ sig (Elt F)) :=
  [
    StableHlo.nullary main_c_12 (constantI S_ 32 0#32),
    StableHlo.unary main_c_12 main_v101 (broadcastInDim S1024 ![] bcast_S_S1024 : (⟨S_, .i32⟩ : BufTy).Contents (Elt F) → (⟨S1024, .i32⟩ : BufTy).Contents (Elt F)),
    StableHlo.binary main_arg10 main_v101 main_v102 (cmpi .slt : (⟨S1024, .i32⟩ : BufTy).Contents (Elt F) → (⟨S1024, .i32⟩ : BufTy).Contents (Elt F) → (⟨S1024, .i1⟩ : BufTy).Contents (Elt F)),
    StableHlo.nullary main_c_13 (constantI S_ 32 40000#32),
    StableHlo.unary main_c_13 main_v103 (broadcastInDim S1024 ![] bcast_S_S1024 : (⟨S_, .i32⟩ : BufTy).Contents (Elt F) → (⟨S1024, .i32⟩ : BufTy).Contents (Elt F)),
    StableHlo.binary main_arg10 main_v103 main_v104 (addi : (⟨S1024, .i32⟩ : BufTy).Contents (Elt F) → (⟨S1024, .i32⟩ : BufTy).Contents (Elt F) → (⟨S1024, .i32⟩ : BufTy).Contents (Elt F)),
    StableHlo.ternary main_v102 main_v104 main_arg10 main_v105 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v105 main_v106 (broadcastInDim S1024x1 ![0] bcast_S1024_S1024x1_0 : (⟨S1024, .i32⟩ : BufTy).Contents (Elt F) → (⟨S1024x1, .i32⟩ : BufTy).Contents (Elt F)),
    StableHlo.binary main_v93 main_v106 main_v107 ((fun x i => Host.gather gather_S40000x256_S1024x1_S1024x256_1_0_n_n_0_1_1256 x i) : (⟨S40000x256, .f32⟩ : BufTy).Contents (Elt F) → (⟨S1024x1, .i32⟩ : BufTy).Contents (Elt F) → (⟨S1024x256, .f32⟩ : BufTy).Contents (Elt F)) ]

/-- The buffers that stretch writes, in order. -/
abbrev wr_tk1 : List (Ref sig .tc) :=
  [main_c_12, main_v101, main_v102, main_c_13, main_v103, main_v104, main_v105, main_v106, main_v107]

/-- Operations 143 … 151 of 151: the items' rows at the unobserved indices. -/
abbrev tk2 : List (HloOp τ sig (Elt F)) :=
  [
    StableHlo.nullary main_c_14 (constantI S_ 32 0#32),
    StableHlo.unary main_c_14 main_v108 (broadcastInDim S1024 ![] bcast_S_S1024 : (⟨S_, .i32⟩ : BufTy).Contents (Elt F) → (⟨S1024, .i32⟩ : BufTy).Contents (Elt F)),
    StableHlo.binary main_arg11 main_v108 main_v109 (cmpi .slt : (⟨S1024, .i32⟩ : BufTy).Contents (Elt F) → (⟨S1024, .i32⟩ : BufTy).Contents (Elt F) → (⟨S1024, .i1⟩ : BufTy).Contents (Elt F)),
    StableHlo.nullary main_c_15 (constantI S_ 32 40000#32),
    StableHlo.unary main_c_15 main_v110 (broadcastInDim S1024 ![] bcast_S_S1024 : (⟨S_, .i32⟩ : BufTy).Contents (Elt F) → (⟨S1024, .i32⟩ : BufTy).Contents (Elt F)),
    StableHlo.binary main_arg11 main_v110 main_v111 (addi : (⟨S1024, .i32⟩ : BufTy).Contents (Elt F) → (⟨S1024, .i32⟩ : BufTy).Contents (Elt F) → (⟨S1024, .i32⟩ : BufTy).Contents (Elt F)),
    StableHlo.ternary main_v109 main_v111 main_arg11 main_v112 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v112 main_v113 (broadcastInDim S1024x1 ![0] bcast_S1024_S1024x1_0 : (⟨S1024, .i32⟩ : BufTy).Contents (Elt F) → (⟨S1024x1, .i32⟩ : BufTy).Contents (Elt F)),
    StableHlo.binary main_v93 main_v113 main_v114 ((fun x i => Host.gather gather_S40000x256_S1024x1_S1024x256_1_0_n_n_0_1_1256 x i) : (⟨S40000x256, .f32⟩ : BufTy).Contents (Elt F) → (⟨S1024x1, .i32⟩ : BufTy).Contents (Elt F) → (⟨S1024x256, .f32⟩ : BufTy).Contents (Elt F)) ]

/-- The buffers that stretch writes, in order. -/
abbrev wr_tk2 : List (Ref sig .tc) :=
  [main_c_14, main_v108, main_v109, main_c_15, main_v110, main_v111, main_v112, main_v113, main_v114]

/-- The line is its stretches in a row. -/
theorem ops_split : (ops : List (HloOp τ sig (Elt F)))
    = cat0 ++ (sp1 ++ (ly1 ++ (sp2 ++ (ly2 ++ (sp3 ++ (ly3 ++ (cat ++ (cut ++ (tk0 ++ (tk1 ++ (tk2))))))))))) := rfl

/-- The fold over two lines in a row is the second's fold after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the line is the folds over the stretches, one after the other. -/
theorem after_ops (V : Valuation τ sig (Elt F)) :
    after ops V = after tk2 (after tk1 (after tk0 (after cut (after cat (after ly3 (after sp3 (after ly2 (after sp2 (after ly1 (after sp1 (after cat0 V))))))))))) := by
  rw [ops_split]; simp only [after_app]

/-- An operation whose one written buffer is in a list writes inside that list. -/
theorem writes_sub_of_mem {Wl : List (Ref sig .tc)} (op : HloOp τ sig (Elt F)) (y : Ref sig .tc)
    (hw : op.writes = {(y : DevRef τ sig)}) (hy : y ∈ Wl) :
    op.writes ⊆ (Wl.map (Proc.devRef (τ := τ) .tc)).toFinset := by
  rw [hw, Finset.singleton_subset_iff, List.mem_toFinset]
  exact List.mem_map_of_mem hy

/-- A buffer that stretch does not write keeps its contents across it. -/
theorem keep_cat0 (W : Valuation τ sig (Elt F)) {r : Ref sig .tc} (hr : r ∉ wr_cat0) :
    after cat0 W (no_index (r : DevRef τ sig)) = W (r : DevRef τ sig) :=
  after_of_writes_sub cat0 W (W := wr_cat0)
    (writes_sub_of_mem _ main_v0 rfl (by decide)) hr

/-- A buffer that stretch does not write keeps its contents across it. -/
theorem keep_sp1 (W : Valuation τ sig (Elt F)) {r : Ref sig .tc} (hr : r ∉ wr_sp1) :
    after sp1 W (no_index (r : DevRef τ sig)) = W (r : DevRef τ sig) :=
  after_of_writes_sub sp1 W (W := wr_sp1)
    ⟨writes_sub_of_mem _ main_v1 rfl (by decide),
     writes_sub_of_mem _ main_c rfl (by decide),
     writes_sub_of_mem _ main_v2 rfl (by decide),
     writes_sub_of_mem _ main_v3 rfl (by decide),
     writes_sub_of_mem _ main_c_0 rfl (by decide),
     writes_sub_of_mem _ main_v4 rfl (by decide),
     writes_sub_of_mem _ main_v5 rfl (by decide),
     writes_sub_of_mem _ main_v6 rfl (by decide),
     writes_sub_of_mem _ main_v7 rfl (by decide),
     writes_sub_of_mem _ main_v8 rfl (by decide),
     writes_sub_of_mem _ main_v9 rfl (by decide),
     writes_sub_of_mem _ main_v10 rfl (by decide),
     writes_sub_of_mem _ main_cst rfl (by decide),
     writes_sub_of_mem _ main_v11 rfl (by decide),
     writes_sub_of_mem _ main_v12 rfl (by decide),
     writes_sub_of_mem _ main_v13 rfl (by decide)⟩ hr

/-- A buffer that stretch does not write keeps its contents across it. -/
theorem keep_ly1 (W : Valuation τ sig (Elt F)) {r : Ref sig .tc} (hr : r ∉ wr_ly1) :
    after ly1 W (no_index (r : DevRef τ sig)) = W (r : DevRef τ sig) :=
  after_of_writes_sub ly1 W (W := wr_ly1)
    ⟨writes_sub_of_mem _ main_v14 rfl (by decide),
     writes_sub_of_mem _ main_v15 rfl (by decide),
     writes_sub_of_mem _ main_v16 rfl (by decide),
     writes_sub_of_mem _ main_v17 rfl (by decide),
     writes_sub_of_mem _ main_v18 rfl (by decide),
     writes_sub_of_mem _ main_v19 rfl (by decide),
     writes_sub_of_mem _ main_v20 rfl (by decide),
     writes_sub_of_mem _ main_v21 rfl (by decide),
     writes_sub_of_mem _ main_v22 rfl (by decide),
     writes_sub_of_mem _ main_v23 rfl (by decide),
     writes_sub_of_mem _ main_v24 rfl (by decide),
     writes_sub_of_mem _ main_v25 rfl (by decide),
     writes_sub_of_mem _ main_v26 rfl (by decide),
     writes_sub_of_mem _ main_v27 rfl (by decide),
     writes_sub_of_mem _ main_v28 rfl (by decide),
     writes_sub_of_mem _ main_v29 rfl (by decide),
     writes_sub_of_mem _ main_cst_1 rfl (by decide),
     writes_sub_of_mem _ main_call0_cst rfl (by decide),
     writes_sub_of_mem _ main_call0_v0 rfl (by decide),
     writes_sub_of_mem _ main_call0_v1 rfl (by decide),
     writes_sub_of_mem _ main_call0_v2 rfl (by decide),
     writes_sub_of_mem _ main_call0_v3 rfl (by decide),
     writes_sub_of_mem _ main_call0_v4 rfl (by decide),
     writes_sub_of_mem _ main_v30 rfl (by decide)⟩ hr

/-- A buffer that stretch does not write keeps its contents across it. -/
theorem keep_sp2 (W : Valuation τ sig (Elt F)) {r : Ref sig .tc} (hr : r ∉ wr_sp2) :
    after sp2 W (no_index (r : DevRef τ sig)) = W (r : DevRef τ sig) :=
  after_of_writes_sub sp2 W (W := wr_sp2)
    ⟨writes_sub_of_mem _ main_v31 rfl (by decide),
     writes_sub_of_mem _ main_c_2 rfl (by decide),
     writes_sub_of_mem _ main_v32 rfl (by decide),
     writes_sub_of_mem _ main_v33 rfl (by decide),
     writes_sub_of_mem _ main_c_3 rfl (by decide),
     writes_sub_of_mem _ main_v34 rfl (by decide),
     writes_sub_of_mem _ main_v35 rfl (by decide),
     writes_sub_of_mem _ main_v36 rfl (by decide),
     writes_sub_of_mem _ main_v37 rfl (by decide),
     writes_sub_of_mem _ main_v38 rfl (by decide),
     writes_sub_of_mem _ main_v39 rfl (by decide),
     writes_sub_of_mem _ main_v40 rfl (by decide),
     writes_sub_of_mem _ main_cst_4 rfl (by decide),
     writes_sub_of_mem _ main_v41 rfl (by decide),
     writes_sub_of_mem _ main_v42 rfl (by decide),
     writes_sub_of_mem _ main_v43 rfl (by decide)⟩ hr

/-- A buffer that stretch does not write keeps its contents across it. -/
theorem keep_ly2 (W : Valuation τ sig (Elt F)) {r : Ref sig .tc} (hr : r ∉ wr_ly2) :
    after ly2 W (no_index (r : DevRef τ sig)) = W (r : DevRef τ sig) :=
  after_of_writes_sub ly2 W (W := wr_ly2)
    ⟨writes_sub_of_mem _ main_v44 rfl (by decide),
     writes_sub_of_mem _ main_v45 rfl (by decide),
     writes_sub_of_mem _ main_v46 rfl (by decide),
     writes_sub_of_mem _ main_v47 rfl (by decide),
     writes_sub_of_mem _ main_v48 rfl (by decide),
     writes_sub_of_mem _ main_v49 rfl (by decide),
     writes_sub_of_mem _ main_v50 rfl (by decide),
     writes_sub_of_mem _ main_v51 rfl (by decide),
     writes_sub_of_mem _ main_v52 rfl (by decide),
     writes_sub_of_mem _ main_v53 rfl (by decide),
     writes_sub_of_mem _ main_v54 rfl (by decide),
     writes_sub_of_mem _ main_v55 rfl (by decide),
     writes_sub_of_mem _ main_v56 rfl (by decide),
     writes_sub_of_mem _ main_v57 rfl (by decide),
     writes_sub_of_mem _ main_v58 rfl (by decide),
     writes_sub_of_mem _ main_v59 rfl (by decide),
     writes_sub_of_mem _ main_cst_5 rfl (by decide),
     writes_sub_of_mem _ main_call1_cst rfl (by decide),
     writes_sub_of_mem _ main_call1_v0 rfl (by decide),
     writes_sub_of_mem _ main_call1_v1 rfl (by decide),
     writes_sub_of_mem _ main_call1_v2 rfl (by decide),
     writes_sub_of_mem _ main_call1_v3 rfl (by decide),
     writes_sub_of_mem _ main_call1_v4 rfl (by decide),
     writes_sub_of_mem _ main_v60 rfl (by decide)⟩ hr

/-- A buffer that stretch does not write keeps its contents across it. -/
theorem keep_sp3 (W : Valuation τ sig (Elt F)) {r : Ref sig .tc} (hr : r ∉ wr_sp3) :
    after sp3 W (no_index (r : DevRef τ sig)) = W (r : DevRef τ sig) :=
  after_of_writes_sub sp3 W (W := wr_sp3)
    ⟨writes_sub_of_mem _ main_v61 rfl (by decide),
     writes_sub_of_mem _ main_c_6 rfl (by decide),
     writes_sub_of_mem _ main_v62 rfl (by decide),
     writes_sub_of_mem _ main_v63 rfl (by decide),
     writes_sub_of_mem _ main_c_7 rfl (by decide),
     writes_sub_of_mem _ main_v64 rfl (by decide),
     writes_sub_of_mem _ main_v65 rfl (by decide),
     writes_sub_of_mem _ main_v66 rfl (by decide),
     writes_sub_of_mem _ main_v67 rfl (by decide),
     writes_sub_of_mem _ main_v68 rfl (by decide),
     writes_sub_of_mem _ main_v69 rfl (by decide),
     writes_sub_of_mem _ main_v70 rfl (by decide),
     writes_sub_of_mem _ main_cst_8 rfl (by decide),
     writes_sub_of_mem _ main_v71 rfl (by decide),
     writes_sub_of_mem _ main_v72 rfl (by decide),
     writes_sub_of_mem _ main_v73 rfl (by decide)⟩ hr

/-- A buffer that stretch does not write keeps its contents across it. -/
theorem keep_ly3 (W : Valuation τ sig (Elt F)) {r : Ref sig .tc} (hr : r ∉ wr_ly3) :
    after ly3 W (no_index (r : DevRef τ sig)) = W (r : DevRef τ sig) :=
  after_of_writes_sub ly3 W (W := wr_ly3)
    ⟨writes_sub_of_mem _ main_v74 rfl (by decide),
     writes_sub_of_mem _ main_v75 rfl (by decide),
     writes_sub_of_mem _ main_v76 rfl (by decide),
     writes_sub_of_mem _ main_v77 rfl (by decide),
     writes_sub_of_mem _ main_v78 rfl (by decide),
     writes_sub_of_mem _ main_v79 rfl (by decide),
     writes_sub_of_mem _ main_v80 rfl (by decide),
     writes_sub_of_mem _ main_v81 rfl (by decide),
     writes_sub_of_mem _ main_v82 rfl (by decide),
     writes_sub_of_mem _ main_v83 rfl (by decide),
     writes_sub_of_mem _ main_v84 rfl (by decide),
     writes_sub_of_mem _ main_v85 rfl (by decide),
     writes_sub_of_mem _ main_v86 rfl (by decide),
     writes_sub_of_mem _ main_v87 rfl (by decide),
     writes_sub_of_mem _ main_v88 rfl (by decide),
     writes_sub_of_mem _ main_v89 rfl (by decide),
     writes_sub_of_mem _ main_cst_9 rfl (by decide),
     writes_sub_of_mem _ main_call2_cst rfl (by decide),
     writes_sub_of_mem _ main_call2_v0 rfl (by decide),
     writes_sub_of_mem _ main_call2_v1 rfl (by decide),
     writes_sub_of_mem _ main_call2_v2 rfl (by decide),
     writes_sub_of_mem _ main_call2_v3 rfl (by decide),
     writes_sub_of_mem _ main_call2_v4 rfl (by decide),
     writes_sub_of_mem _ main_v90 rfl (by decide)⟩ hr

/-- A buffer that stretch does not write keeps its contents across it. -/
theorem keep_cat (W : Valuation τ sig (Elt F)) {r : Ref sig .tc} (hr : r ∉ wr_cat) :
    after cat W (no_index (r : DevRef τ sig)) = W (r : DevRef τ sig) :=
  after_of_writes_sub cat W (W := wr_cat)
    (writes_sub_of_mem _ main_v91 rfl (by decide)) hr

/-- A buffer that stretch does not write keeps its contents across it. -/
theorem keep_cut (W : Valuation τ sig (Elt F)) {r : Ref sig .tc} (hr : r ∉ wr_cut) :
    after cut W (no_index (r : DevRef τ sig)) = W (r : DevRef τ sig) :=
  after_of_writes_sub cut W (W := wr_cut)
    ⟨writes_sub_of_mem _ main_v92 rfl (by decide),
     writes_sub_of_mem _ main_v93 rfl (by decide)⟩ hr

/-- A buffer that stretch does not write keeps its contents across it. -/
theorem keep_tk0 (W : Valuation τ sig (Elt F)) {r : Ref sig .tc} (hr : r ∉ wr_tk0) :
    after tk0 W (no_index (r : DevRef τ sig)) = W (r : DevRef τ sig) :=
  after_of_writes_sub tk0 W (W := wr_tk0)
    ⟨writes_sub_of_mem _ main_c_10 rfl (by decide),
     writes_sub_of_mem _ main_v94 rfl (by decide),
     writes_sub_of_mem _ main_v95 rfl (by decide),
     writes_sub_of_mem _ main_c_11 rfl (by decide),
     writes_sub_of_mem _ main_v96 rfl (by decide),
     writes_sub_of_mem _ main_v97 rfl (by decide),
     writes_sub_of_mem _ main_v98 rfl (by decide),
     writes_sub_of_mem _ main_v99 rfl (by decide),
     writes_sub_of_mem _ main_v100 rfl (by decide)⟩ hr

/-- A buffer that stretch does not write keeps its contents across it. -/
theorem keep_tk1 (W : Valuation τ sig (Elt F)) {r : Ref sig .tc} (hr : r ∉ wr_tk1) :
    after tk1 W (no_index (r : DevRef τ sig)) = W (r : DevRef τ sig) :=
  after_of_writes_sub tk1 W (W := wr_tk1)
    ⟨writes_sub_of_mem _ main_c_12 rfl (by decide),
     writes_sub_of_mem _ main_v101 rfl (by decide),
     writes_sub_of_mem _ main_v102 rfl (by decide),
     writes_sub_of_mem _ main_c_13 rfl (by decide),
     writes_sub_of_mem _ main_v103 rfl (by decide),
     writes_sub_of_mem _ main_v104 rfl (by decide),
     writes_sub_of_mem _ main_v105 rfl (by decide),
     writes_sub_of_mem _ main_v106 rfl (by decide),
     writes_sub_of_mem _ main_v107 rfl (by decide)⟩ hr

/-- A buffer that stretch does not write keeps its contents across it. -/
theorem keep_tk2 (W : Valuation τ sig (Elt F)) {r : Ref sig .tc} (hr : r ∉ wr_tk2) :
    after tk2 W (no_index (r : DevRef τ sig)) = W (r : DevRef τ sig) :=
  after_of_writes_sub tk2 W (W := wr_tk2)
    ⟨writes_sub_of_mem _ main_c_14 rfl (by decide),
     writes_sub_of_mem _ main_v108 rfl (by decide),
     writes_sub_of_mem _ main_v109 rfl (by decide),
     writes_sub_of_mem _ main_c_15 rfl (by decide),
     writes_sub_of_mem _ main_v110 rfl (by decide),
     writes_sub_of_mem _ main_v111 rfl (by decide),
     writes_sub_of_mem _ main_v112 rfl (by decide),
     writes_sub_of_mem _ main_v113 rfl (by decide),
     writes_sub_of_mem _ main_v114 rfl (by decide)⟩ hr

end Cert.ReferenceIdeal.RefRun

end
-- ==== Proof.RefValueA.lean ====
/-
  What the node-table stretch and the three sparse-product stretches leave, from any contents `W` of the
  buffers: the stacked table of the two embedding arguments, and the sparse product of the edge list
  (rows, columns, values) with the table the stretch reads — the scatter-add, into the zero table at the
  edges' rows, of the edges' values times the gathered rows at the edges' wrapped columns. Each is the
  stretch's operations composed, read off the fold one result at a time.
-/
import proofs.«158684_j45715631898814_1_alg».proof.Proof.RefPieces
import proofs.«158684_j45715631898814_1_alg».proof.Proof.RefSpec

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- After the first operation the node table is the users' rows on the items' rows. -/
theorem cat0_v0 (W : Valuation τ sig (Elt F)) :
    after cat0 W (no_index (main_v0 : DevRef τ sig)) = Cert.RefSpec.nodes0 (W (main_arg3 : DevRef τ sig)) (W (main_arg4 : DevRef τ sig)) := by
  after_results_simp
  rfl

attribute [local irreducible] Host.gather Host.scatterAdd in
/-- After the stretch its last buffer is the sparse product of the edge list with the table it read. -/
theorem sp1_out (W : Valuation τ sig (Elt F)) :
    after sp1 W (no_index (main_v13 : DevRef τ sig))
      = Cert.RefSpec.spmm (W (main_arg0 : DevRef τ sig)) (W (main_arg1 : DevRef τ sig)) (W (main_arg2 : DevRef τ sig)) (W (main_v0 : DevRef τ sig)) := by
  after_results_simp
  rfl

attribute [local irreducible] Host.gather Host.scatterAdd in
/-- After the stretch its last buffer is the sparse product of the edge list with the table it read. -/
theorem sp2_out (W : Valuation τ sig (Elt F)) :
    after sp2 W (no_index (main_v43 : DevRef τ sig))
      = Cert.RefSpec.spmm (W (main_arg0 : DevRef τ sig)) (W (main_arg1 : DevRef τ sig)) (W (main_arg2 : DevRef τ sig)) (W (main_v30 : DevRef τ sig)) := by
  after_results_simp
  rfl

attribute [local irreducible] Host.gather Host.scatterAdd in
/-- After the stretch its last buffer is the sparse product of the edge list with the table it read. -/
theorem sp3_out (W : Valuation τ sig (Elt F)) :
    after sp3 W (no_index (main_v73 : DevRef τ sig))
      = Cert.RefSpec.spmm (W (main_arg0 : DevRef τ sig)) (W (main_arg1 : DevRef τ sig)) (W (main_arg2 : DevRef τ sig)) (W (main_v60 : DevRef τ sig)) := by
  after_results_simp
  rfl

end Cert.ReferenceIdeal.RefRun

end
-- ==== Proof.RefValueB.lean ====
/-
  What each layer's dense stretch leaves, from any contents `W` of the buffers: the leaky rectifier of the
  sum of the two dense products with their bias rows — the sparse product times the layer's first weight
  matrix, and the elementwise product of the table with the sparse product times the second —, the weight
  matrices and bias rows being the layer's slices of the stacked arguments. The outlined rectifier's
  operations act on the call's own buffers through typed references whose transport is the identity.
-/
import proofs.«158684_j45715631898814_1_alg».proof.Proof.RefPieces
import proofs.«158684_j45715631898814_1_alg».proof.Proof.RefSpec

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- After the stretch the call's result buffer is the layer of the sparse product and the table it read. -/
theorem ly1_out (W : Valuation τ sig (Elt F)) :
    after ly1 W (no_index (main_v30 : DevRef τ sig))
      = Cert.RefSpec.layer (W (main_v13 : DevRef τ sig)) (W (main_v0 : DevRef τ sig)) (Cert.RefSpec.wsl0 (W (main_arg5 : DevRef τ sig))) (Cert.RefSpec.bsl0 (W (main_arg7 : DevRef τ sig)))
          (Cert.RefSpec.wsl0 (W (main_arg6 : DevRef τ sig))) (Cert.RefSpec.bsl0 (W (main_arg8 : DevRef τ sig))) := by
  after_results_simp
  simp only [cast_eq]
  rfl

/-- After the stretch the call's result buffer is the layer of the sparse product and the table it read. -/
theorem ly2_out (W : Valuation τ sig (Elt F)) :
    after ly2 W (no_index (main_v60 : DevRef τ sig))
      = Cert.RefSpec.layer (W (main_v43 : DevRef τ sig)) (W (main_v30 : DevRef τ sig)) (Cert.RefSpec.wsl1 (W (main_arg5 : DevRef τ sig))) (Cert.RefSpec.bsl1 (W (main_arg7 : DevRef τ sig)))
          (Cert.RefSpec.wsl1 (W (main_arg6 : DevRef τ sig))) (Cert.RefSpec.bsl1 (W (main_arg8 : DevRef τ sig))) := by
  after_results_simp
  simp only [cast_eq]
  rfl

/-- After the stretch the call's result buffer is the layer of the sparse product and the table it read. -/
theorem ly3_out (W : Valuation τ sig (Elt F)) :
    after ly3 W (no_index (main_v90 : DevRef τ sig))
      = Cert.RefSpec.layer (W (main_v73 : DevRef τ sig)) (W (main_v60 : DevRef τ sig)) (Cert.RefSpec.wsl2 (W (main_arg5 : DevRef τ sig))) (Cert.RefSpec.bsl2 (W (main_arg7 : DevRef τ sig)))
          (Cert.RefSpec.wsl2 (W (main_arg6 : DevRef τ sig))) (Cert.RefSpec.bsl2 (W (main_arg8 : DevRef τ sig))) := by
  after_results_simp
  simp only [cast_eq]
  rfl

end Cert.ReferenceIdeal.RefRun

end
-- ==== Proof.RefValueC.lean ====
/-
  What the last four kinds of stretch leave, from any contents `W` of the buffers: the four tables side by
  side; the first 60000 and the last 40000 rows of the wide table; and a row gather of one of those ranges
  at an index vector whose negative entries are first raised by the range's row count.
-/
import proofs.«158684_j45715631898814_1_alg».proof.Proof.RefPieces
import proofs.«158684_j45715631898814_1_alg».proof.Proof.RefSpec

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- After the concatenate the wide table is the four tables side by side. -/
theorem cat_v91 (W : Valuation τ sig (Elt F)) :
    after cat W (no_index (main_v91 : DevRef τ sig))
      = Cert.RefSpec.cat4 (W (main_v0 : DevRef τ sig)) (W (main_v30 : DevRef τ sig)) (W (main_v60 : DevRef τ sig)) (W (main_v90 : DevRef τ sig)) := by
  after_results_simp
  rfl

/-- The users' rows of the wide table. -/
theorem cut_v92 (W : Valuation τ sig (Elt F)) :
    after cut W (no_index (main_v92 : DevRef τ sig))
      = extractStridedSlice S60000x256 ![0, 0] (W (main_v91 : DevRef τ sig)) slices_S100000x256_S60000x256_0_0 := by
  after_results_simp

/-- The items' rows of the wide table. -/
theorem cut_v93 (W : Valuation τ sig (Elt F)) :
    after cut W (no_index (main_v93 : DevRef τ sig))
      = extractStridedSlice S40000x256 ![60000, 0] (W (main_v91 : DevRef τ sig)) slices_S100000x256_S40000x256_60000_0 := by
  after_results_simp

attribute [local irreducible] Host.gather in
/-- After the stretch its last buffer is the rows of the range it read at the wrapped indices. -/
theorem tk0_out (W : Valuation τ sig (Elt F)) :
    after tk0 W (no_index (main_v100 : DevRef τ sig))
      = Host.gather gather_S60000x256_S1024x1_S1024x256_1_0_n_n_0_1_1256 (W (main_v92 : DevRef τ sig))
          (broadcastInDim S1024x1 ![0] bcast_S1024_S1024x1_0
            (select (cmpi .slt (W (main_arg9 : DevRef τ sig)) (broadcastInDim S1024 ![] bcast_S_S1024 (constantI S_ 32 0#32)))
              (addi (W (main_arg9 : DevRef τ sig)) (broadcastInDim S1024 ![] bcast_S_S1024 (constantI S_ 32 60000#32))) (W (main_arg9 : DevRef τ sig)))) := by
  after_results_simp

attribute [local irreducible] Host.gather in
/-- After the stretch its last buffer is the rows of the range it read at the wrapped indices. -/
theorem tk1_out (W : Valuation τ sig (Elt F)) :
    after tk1 W (no_index (main_v107 : DevRef τ sig))
      = Host.gather gather_S40000x256_S1024x1_S1024x256_1_0_n_n_0_1_1256 (W (main_v93 : DevRef τ sig))
          (broadcastInDim S1024x1 ![0] bcast_S1024_S1024x1_0
            (select (cmpi .slt (W (main_arg10 : DevRef τ sig)) (broadcastInDim S1024 ![] bcast_S_S1024 (constantI S_ 32 0#32)))
              (addi (W (main_arg10 : DevRef τ sig)) (broadcastInDim S1024 ![] bcast_S_S1024 (constantI S_ 32 40000#32))) (W (main_arg10 : DevRef τ sig)))) := by
  after_results_simp

attribute [local irreducible] Host.gather in
/-- After the stretch its last buffer is the rows of the range it read at the wrapped indices. -/
theorem tk2_out (W : Valuation τ sig (Elt F)) :
    after tk2 W (no_index (main_v114 : DevRef τ sig))
      = Host.gather gather_S40000x256_S1024x1_S1024x256_1_0_n_n_0_1_1256 (W (main_v93 : DevRef τ sig))
          (broadcastInDim S1024x1 ![0] bcast_S1024_S1024x1_0
            (select (cmpi .slt (W (main_arg11 : DevRef τ sig)) (broadcastInDim S1024 ![] bcast_S_S1024 (constantI S_ 32 0#32)))
              (addi (W (main_arg11 : DevRef τ sig)) (broadcastInDim S1024 ![] bcast_S_S1024 (constantI S_ 32 40000#32))) (W (main_arg11 : DevRef τ sig)))) := by
  after_results_simp

end Cert.ReferenceIdeal.RefRun

end
-- ==== Proof.RefValue.lean ====
/-
  The value of the reference's run. Read stretch by stretch, the fold of the 151 operations leaves, at the
  three result buffers, the specification's three results as functions of the twelve arguments' launch
  contents — the node table after zero to three layers laid side by side, the users' rows of that at the
  sampled indices and the items' rows at the observed and at the unobserved ones — and leaves every argument
  buffer as it was: no operation writes one. With the run of the line, every weakly fair execution of the
  reference terminates in a state with exactly these contents.
-/
import proofs.«158684_j45715631898814_1_alg».proof.Proof.RefValueA
import proofs.«158684_j45715631898814_1_alg».proof.Proof.RefValueB
import proofs.«158684_j45715631898814_1_alg».proof.Proof.RefValueC

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- A buffer no stretch writes keeps its contents across the whole line. -/
theorem keep_ops (V : Valuation τ sig (Elt F)) {r : Ref sig .tc}
    (h0 : r ∉ wr_cat0)
    (h1 : r ∉ wr_sp1)
    (h2 : r ∉ wr_ly1)
    (h3 : r ∉ wr_sp2)
    (h4 : r ∉ wr_ly2)
    (h5 : r ∉ wr_sp3)
    (h6 : r ∉ wr_ly3)
    (h7 : r ∉ wr_cat)
    (h8 : r ∉ wr_cut)
    (h9 : r ∉ wr_tk0)
    (h10 : r ∉ wr_tk1)
    (h11 : r ∉ wr_tk2) :
    after ops V (r : DevRef τ sig) = V (r : DevRef τ sig) := by
  rw [after_ops, keep_tk2 _ h11, keep_tk1 _ h10, keep_tk0 _ h9, keep_cut _ h8, keep_cat _ h7, keep_ly3 _ h6, keep_sp3 _ h5, keep_ly2 _ h4, keep_sp2 _ h3, keep_ly1 _ h2, keep_sp1 _ h1, keep_cat0 _ h0]

theorem arg0_eq (V : Valuation τ sig (Elt F)) :
    after ops V (main_arg0 : DevRef τ sig) = V (main_arg0 : DevRef τ sig) :=
  keep_ops V (by decide) (by decide) (by decide) (by decide) (by decide) (by decide) (by decide) (by decide) (by decide) (by decide) (by decide) (by decide)

theorem arg1_eq (V : Valuation τ sig (Elt F)) :
    after ops V (main_arg1 : DevRef τ sig) = V (main_arg1 : DevRef τ sig) :=
  keep_ops V (by decide) (by decide) (by decide) (by decide) (by decide) (by decide) (by decide) (by decide) (by decide) (by decide) (by decide) (by decide)

theorem arg2_eq (V : Valuation τ sig (Elt F)) :
    after ops V (main_arg2 : DevRef τ sig) = V (main_arg2 : DevRef τ sig) :=
  keep_ops V (by decide) (by decide) (by decide) (by decide) (by decide) (by decide) (by decide) (by decide) (by decide) (by decide) (by decide) (by decide)

theorem arg3_eq (V : Valuation τ sig (Elt F)) :
    after ops V (main_arg3 : DevRef τ sig) = V (main_arg3 : DevRef τ sig) :=
  keep_ops V (by decide) (by decide) (by decide) (by decide) (by decide) (by decide) (by decide) (by decide) (by decide) (by decide) (by decide) (by decide)

theorem arg4_eq (V : Valuation τ sig (Elt F)) :
    after ops V (main_arg4 : DevRef τ sig) = V (main_arg4 : DevRef τ sig) :=
  keep_ops V (by decide) (by decide) (by decide) (by decide) (by decide) (by decide) (by decide) (by decide) (by decide) (by decide) (by decide) (by decide)

theorem arg5_eq (V : Valuation τ sig (Elt F)) :
    after ops V (main_arg5 : DevRef τ sig) = V (main_arg5 : DevRef τ sig) :=
  keep_ops V (by decide) (by decide) (by decide) (by decide) (by decide) (by decide) (by decide) (by decide) (by decide) (by decide) (by decide) (by decide)

theorem arg6_eq (V : Valuation τ sig (Elt F)) :
    after ops V (main_arg6 : DevRef τ sig) = V (main_arg6 : DevRef τ sig) :=
  keep_ops V (by decide) (by decide) (by decide) (by decide) (by decide) (by decide) (by decide) (by decide) (by decide) (by decide) (by decide) (by decide)

theorem arg7_eq (V : Valuation τ sig (Elt F)) :
    after ops V (main_arg7 : DevRef τ sig) = V (main_arg7 : DevRef τ sig) :=
  keep_ops V (by decide) (by decide) (by decide) (by decide) (by decide) (by decide) (by decide) (by decide) (by decide) (by decide) (by decide) (by decide)

theorem arg8_eq (V : Valuation τ sig (Elt F)) :
    after ops V (main_arg8 : DevRef τ sig) = V (main_arg8 : DevRef τ sig) :=
  keep_ops V (by decide) (by decide) (by decide) (by decide) (by decide) (by decide) (by decide) (by decide) (by decide) (by decide) (by decide) (by decide)

theorem arg9_eq (V : Valuation τ sig (Elt F)) :
    after ops V (main_arg9 : DevRef τ sig) = V (main_arg9 : DevRef τ sig) :=
  keep_ops V (by decide) (by decide) (by decide) (by decide) (by decide) (by decide) (by decide) (by decide) (by decide) (by decide) (by decide) (by decide)

theorem arg10_eq (V : Valuation τ sig (Elt F)) :
    after ops V (main_arg10 : DevRef τ sig) = V (main_arg10 : DevRef τ sig) :=
  keep_ops V (by decide) (by decide) (by decide) (by decide) (by decide) (by decide) (by decide) (by decide) (by decide) (by decide) (by decide) (by decide)

theorem arg11_eq (V : Valuation τ sig (Elt F)) :
    after ops V (main_arg11 : DevRef τ sig) = V (main_arg11 : DevRef τ sig) :=
  keep_ops V (by decide) (by decide) (by decide) (by decide) (by decide) (by decide) (by decide) (by decide) (by decide) (by decide) (by decide) (by decide)

attribute [local irreducible] Host.gather Host.scatterAdd in
set_option maxRecDepth 4096 in
/-- The result buffer after the whole line is the specification's result of the arguments' contents. -/
theorem out0_eq (V : Valuation τ sig (Elt F)) :
    after ops V (main_v100 : DevRef τ sig) = Cert.RefSpec.out0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_ops]
  simp (disch := decide) only [keep_cat0, keep_sp1, keep_ly1, keep_sp2, keep_ly2, keep_sp3, keep_ly3, keep_cat, keep_cut, keep_tk0, keep_tk1, keep_tk2,
    cat0_v0, sp1_out, ly1_out, sp2_out, ly2_out, sp3_out, ly3_out, cat_v91, cut_v92, cut_v93, tk0_out, tk1_out, tk2_out]
  rfl

attribute [local irreducible] Host.gather Host.scatterAdd in
set_option maxRecDepth 4096 in
/-- The result buffer after the whole line is the specification's result of the arguments' contents. -/
theorem out1_eq (V : Valuation τ sig (Elt F)) :
    after ops V (main_v107 : DevRef τ sig) = Cert.RefSpec.out1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg10 : DevRef τ sig)) := by
  rw [after_ops]
  simp (disch := decide) only [keep_cat0, keep_sp1, keep_ly1, keep_sp2, keep_ly2, keep_sp3, keep_ly3, keep_cat, keep_cut, keep_tk0, keep_tk1, keep_tk2,
    cat0_v0, sp1_out, ly1_out, sp2_out, ly2_out, sp3_out, ly3_out, cat_v91, cut_v92, cut_v93, tk0_out, tk1_out, tk2_out]
  rfl

attribute [local irreducible] Host.gather Host.scatterAdd in
set_option maxRecDepth 4096 in
/-- The result buffer after the whole line is the specification's result of the arguments' contents. -/
theorem out2_eq (V : Valuation τ sig (Elt F)) :
    after ops V (main_v114 : DevRef τ sig) = Cert.RefSpec.out2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg11 : DevRef τ sig)) := by
  rw [after_ops]
  simp (disch := decide) only [keep_cat0, keep_sp1, keep_ly1, keep_sp2, keep_ly2, keep_sp3, keep_ly3, keep_cat, keep_cut, keep_tk0, keep_tk1, keep_tk2,
    cat0_v0, sp1_out, ly1_out, sp2_out, ly2_out, sp3_out, ly3_out, cat_v91, cut_v92, cut_v93, tk0_out, tk1_out, tk2_out]
  rfl

/-- At the compiled mesh, for any float values, from any memory with zero counters: every weakly fair execution of
    the reference terminates, with the three result buffers at the specification's results of the arguments'
    launch contents and the twelve argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v100) = Cert.RefSpec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v107) = Cert.RefSpec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10))
      ∧ r.2.mem ((c.tc : Thread nD τ).loc main_v114) = Cert.RefSpec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v100).trans (out0_eq _), (h c main_v107).trans (out1_eq _),
      (h c main_v114).trans (out2_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_main m ρ)

end Cert.ReferenceIdeal.RefRun

end
-- ==== Proof.lean ====
/-
  A three-layer graph network over a user–item graph. The node table starts as the users' embeddings stacked on the
  items'; each layer forms the sparse product `lie = A · x` of the edge list with the current table (a row gather at the
  edges' columns, scaled by the edges' values, summed into the edges' rows) and sends `x` to
  `gate (lie · W1ₖ + b1ₖ + (x ⊙ lie) · W2ₖ + b2ₖ)`; the results are rows of the four tables laid side by side.

  The kernel computes the sparse product and the row selections with the same host operations as the reference, and the
  dense part of a layer in a tiled kernel: ten row blocks of 10000 rows, each one whole-block store of the gate of the two
  matrix products with their bias rows. On the extended reals a change of storage format is the identity and a product
  accumulated into zero is the plain sum, so a block is the same rows of the reference's layer, entry by entry; the only
  difference is the gate's comparison (`s > 0` against `s ≥ 0`), which matters only at `s = 0`, where both give `0`.

  The frames: each program is seven segments (host stretch, region, three times over, closing stretch) resp. one straight
  line of host operations; the buffer contents are folded through the segments, no segment writes an argument. The ideal
  pass rewrote nothing, so the kernel's idealization is its own text read on the extended reals.
-/
import proofs.«158684_j45715631898814_1_alg».proof.Defs
import proofs.«158684_j45715631898814_1_alg».proof.Proof.Gen.Kernel
import proofs.«158684_j45715631898814_1_alg».proof.Proof.Gen.KernelIdeal
import proofs.«158684_j45715631898814_1_alg».proof.Proof.Gen.ReferenceIdeal
import proofs.«158684_j45715631898814_1_alg».proof.Proof.Gen.Pre_finite_inputs
import proofs.«158684_j45715631898814_1_alg».proof.Proof.KB.Run
import proofs.«158684_j45715631898814_1_alg».proof.Proof.KI.Value
import proofs.«158684_j45715631898814_1_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference: its run with the results dropped. -/
theorem frame_reference : Cert.frame_ReferenceIdeal (hReferenceIdeal := Cert.ReferenceIdeal.Gen.facts) (hPre_finite_inputs := Cert.Pre_finite_inputs.Gen.facts) :=
  fun m g _ => (θ_run _ _ _).mono (fun _ h c => (h c).2.2.2) (Cert.ReferenceIdeal.RefRun.run (F := Ideal) m g)

/-- The ideal pass rewrote no operation. -/
theorem preserves : Cert.preserves_Kernel_KernelIdeal := trivial

/-- On the extended reals, from memories agreeing on the arguments, both programs end with the specification's three
    results of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RefSpec.out0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.RefSpec.out1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)),
    fun c => Cert.RefSpec.out2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)),
    Cert.KernelIdeal.Hand.run_value m ρ, ?_⟩
  refine (θ_run (Cert.ReferenceIdeal.defs (F := Ideal)) _ _).mono (fun r h c => ?_) (Cert.ReferenceIdeal.RefRun.run (F := Ideal) m' ρ')
  obtain ⟨e0, e1, e2, e3, e4, e5, e6, e7, e8, e9, e10, e11⟩ := hagree c
  obtain ⟨r0, r1, r2, rest⟩ := h c
  refine ⟨r0.trans ?_, r1.trans ?_, r2.trans ?_, rest⟩
  · rw [e0, e1, e2, e3, e4, e5, e6, e7, e8, e9]
  · rw [e0, e1, e2, e3, e4, e5, e6, e7, e8, e10]
  · rw [e0, e1, e2, e3, e4, e5, e6, e7, e8, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
